-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192 : Shape := ⟨1, ![8192]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : IVec S8192 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192 : Shape := ⟨1, ![8192]⟩
abbrev S8192x1 : Shape := ⟨2, ![8192, 1]⟩
abbrev S_ : Shape := ⟨0, ![]⟩
abbrev S1x8192 : Shape := ⟨2, ![1, 8192]⟩
abbrev S8192x4 : Shape := ⟨2, ![8192, 4]⟩
abbrev S1024x128 : Shape := ⟨2, ![1024, 128]⟩
abbrev S512x128 : Shape := ⟨2, ![512, 128]⟩
abbrev S1024x1 : Shape := ⟨2, ![1024, 1]⟩
abbrev S1x512 : Shape := ⟨2, ![1, 512]⟩
abbrev S1024x4 : Shape := ⟨2, ![1024, 4]⟩
abbrev S128x512 : Shape := ⟨2, ![128, 512]⟩
abbrev S1024x512 : Shape := ⟨2, ![1024, 512]⟩
abbrev S1024 : Shape := ⟨1, ![1024]⟩

abbrev nBuf : Space → Nat
  | .hbm => 31
  | .vmem => 14
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x1, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S1x8192, .f32⟩
  | .hbm, ⟨8, _⟩ => ⟨S1x8192, .i32⟩
  | .hbm, ⟨9, _⟩ => ⟨S8192x4, .f32⟩
  | .hbm, ⟨10, _⟩ => ⟨S8192x1, .f32⟩
  | .hbm, ⟨11, _⟩ => ⟨S8192, .f32⟩
  | .hbm, ⟨12, _⟩ => ⟨S8192x1, .f32⟩
  | .hbm, ⟨13, _⟩ => ⟨S8192, .f32⟩
  | .hbm, ⟨14, _⟩ => ⟨S8192x1, .f32⟩
  | .hbm, ⟨15, _⟩ => ⟨S8192, .f32⟩
  | .hbm, ⟨16, _⟩ => ⟨S8192x1, .f32⟩
  | .hbm, ⟨17, _⟩ => ⟨S8192, .f32⟩
  | .hbm, ⟨18, _⟩ => ⟨S8192, .f32⟩
  | .hbm, ⟨19, _⟩ => ⟨S8192, .f32⟩
  | .hbm, ⟨20, _⟩ => ⟨S_, .f32⟩
  | .hbm, ⟨21, _⟩ => ⟨S8192, .f32⟩
  | .hbm, ⟨22, _⟩ => ⟨S8192, .f32⟩
  | .hbm, ⟨23, _⟩ => ⟨S8192, .f32⟩
  | .hbm, ⟨24, _⟩ => ⟨S8192, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .local _ .vmem, ⟨0, _⟩ => ⟨S1024x128, .f32⟩
  | .local _ .vmem, ⟨1, _⟩ => ⟨S1024x128, .f32⟩
  | .local _ .vmem, ⟨2, _⟩ => ⟨S512x128, .f32⟩
  | .local _ .vmem, ⟨3, _⟩ => ⟨S512x128, .f32⟩
  | .local _ .vmem, ⟨4, _⟩ => ⟨S1024x1, .f32⟩
  | .local _ .vmem, ⟨5, _⟩ => ⟨S1024x1, .f32⟩
  | .local _ .vmem, ⟨6, _⟩ => ⟨S1x512, .f32⟩
  | .local _ .vmem, ⟨7, _⟩ => ⟨S1x512, .f32⟩
  | .local _ .vmem, ⟨8, _⟩ => ⟨S1024x1, .i32⟩
  | .local _ .vmem, ⟨9, _⟩ => ⟨S1024x1, .i32⟩
  | .local _ .vmem, ⟨10, _⟩ => ⟨S1x512, .i32⟩
  | .local _ .vmem, ⟨11, _⟩ => ⟨S1x512, .i32⟩
  | .local _ .vmem, ⟨12, _⟩ => ⟨S1024x4, .f32⟩
  | .local _ .vmem, ⟨13, _⟩ => ⟨S1024x4, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_cst_0 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_1 : Ref sig .tc := ⟨.hbm, 27, rfl⟩
abbrev main_v23 : Ref sig .tc := ⟨.hbm, 28, rfl⟩
abbrev main_cst_2 : Ref sig .tc := ⟨.hbm, 29, rfl⟩
abbrev main_v24 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  shapeCasts_S8192_S8192x1 : S8192.ShapeCasts S8192x1
  reducesTo_S8192x128_S8192_d1 : S8192x128.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  inb_S1024x128_S1024x128_0_0 : ∀ a, (![0, 0] : Fin 2 → Nat) a + S1024x128.size a ≤ S1024x128.size a
  h_S1024x128 : 0 < S1024x128.numel
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  transposes_S512x128_p1_0_S128x512 : S512x128.Transposes [1, 0] S128x512
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1024x1_S1024x512 : S1024x1.Broadcasts S1024x512
  broadcasts_S1x512_S1024x512 : S1x512.Broadcasts S1024x512
  iota_S1024x1_d0_w32 : S1024x1.Iotas .tc 32 [0]
  iota_S1x512_d1_w32 : S1x512.Iotas .tc 32 [1]
  reduces_S1024x512_S1024 : S1024x512.Reduces [1] S1024
  shapeCasts_S1024_S1024x1 : S1024.ShapeCasts S1024x1
  concatenates_S1024x1_S1024x1_S1024x1_S1024x1_S1024x4_d1 : Shape.Concatenates [S1024x1, S1024x1, S1024x1, S1024x1] S1024x4 1
  inb_S1024x4_S1024x4_0_0 : ∀ a, (![0, 0] : Fin 2 → Nat) a + S1024x4.size a ≤ S1024x4.size a
  h_S1024x4 : 0 < S1024x4.numel
  shapeCasts_S1024x4_S1024x4 : S1024x4.ShapeCasts S1024x4
  slices_S8192x4_S8192x1_0_0 : S8192x4.Slices ![0, 0] S8192x1
  shapeCasts_S8192x1_S8192 : S8192x1.ShapeCasts S8192
  slices_S8192x4_S8192x1_0_1 : S8192x4.Slices ![0, 1] S8192x1
  slices_S8192x4_S8192x1_0_2 : S8192x4.Slices ![0, 2] S8192x1
  slices_S8192x4_S8192x1_0_3 : S8192x4.Slices ![0, 3] S8192x1
  bcast_S_S8192 : S_.BroadcastsInDim S8192 (![] : Fin 0 → Fin S8192.rank)
  reducesTo_S8192_S_d0 : S8192.ReducesTo [0] S_
  dot_S1024x128_S128x512_S1024x512_1_0_0_1_n_n_wf : DotDims.WF S1024x128 S128x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x128.size a ≤ S8192x128.size a
  hwx0_0 : ∀ i : grid0.Coords, EltTy.bits .f32 = 32 ∨ (Rect.block (s := S8192x128) S1024x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S8192x128.size a
  hwx0_1 : ∀ i : grid0.Coords, EltTy.bits .f32 = 32 ∨ (Rect.block (s := S8192x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x8192.size a
  hwx0_3 : ∀ i : grid0.Coords, EltTy.bits .f32 = 32 ∨ (Rect.block (s := S1x8192) S1x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .i32 = 32 ∨ (Rect.block (s := S8192x1) S1024x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x8192.size a
  hwx0_5 : ∀ i : grid0.Coords, EltTy.bits .i32 = 32 ∨ (Rect.block (s := S1x8192) S1x512.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x4.size a ≤ S8192x4.size a
  hwx0_6 : ∀ i : grid0.Coords, EltTy.bits .f32 = 32 ∨ (Rect.block (s := S8192x4) S1024x4.size (cc0_transform_6 i) (hinb0_6 i)).WholeWords (EltTy.packing .f32)

variable [Facts₀]

def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf

abbrev win0_0 : Pipeline.Window sig grid0 :=
  Pipeline.Window.ofSpec (Memref.whole main_arg0) S1024x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1024x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1024x4.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 93
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192, .i32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S1x8192, .f32⟩
  | .hbm, ⟨7, _⟩ => ⟨S8192x8192, .f32⟩
  | .hbm, ⟨8, _⟩ => ⟨S8192x8192, .f32⟩
  | .hbm, ⟨9, _⟩ => ⟨S8192x8192, .f32⟩
  | .hbm, ⟨10, _⟩ => ⟨S128x8192, .f32⟩
  | .hbm, ⟨11, _⟩ => ⟨S8192x8192, .f32⟩
  | .hbm, ⟨12, _⟩ => ⟨S_, .f32⟩
  | .hbm, ⟨13, _⟩ => ⟨S8192x8192, .f32⟩
  | .hbm, ⟨14, _⟩ => ⟨S8192x8192, .f32⟩
  | .hbm, ⟨15, _⟩ => ⟨S8192x8192, .f32⟩
  | .hbm, ⟨16, _⟩ => ⟨S_, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S8192x8192, .i32⟩
  | .hbm, ⟨27, _⟩ => ⟨S8192x8192, .i32⟩
  | .hbm, ⟨28, _⟩ => ⟨S_, .i32⟩
  | .hbm, ⟨29, _⟩ => ⟨S8192x8192, .i32⟩
  | .hbm, ⟨30, _⟩ => ⟨S8192x8192, .i32⟩
  | .hbm, ⟨31, _⟩ => ⟨S8192x8192, .i1⟩
  | .hbm, ⟨32, _⟩ => ⟨S8192x8192, .i1⟩
  | .hbm, ⟨33, _⟩ => ⟨S8192x8192, .i1⟩
  | .hbm, ⟨34, _⟩ => ⟨S8192x8192, .i1⟩
  | .hbm, ⟨35, _⟩ => ⟨S_, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S_, .f32⟩
  | .hbm, ⟨43, _⟩ => ⟨S_, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192, .f32⟩
  | .hbm, ⟨48, _⟩ => ⟨S_, .f32⟩
  | .hbm, ⟨49, _⟩ => ⟨S_, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192, .f32⟩
  | .hbm, ⟨56, _⟩ => ⟨S_, .f32⟩
  | .hbm, ⟨57, _⟩ => ⟨S8192, .f32⟩
  | .hbm, ⟨58, _⟩ => ⟨S8192, .f32⟩
  | .hbm, ⟨59, _⟩ => ⟨S_, .f32⟩
  | .hbm, ⟨60, _⟩ => ⟨S8192x8192, .f32⟩
  | .hbm, ⟨61, _⟩ => ⟨S8192x8192, .f32⟩
  | .hbm, ⟨62, _⟩ => ⟨S_, .f32⟩
  | .hbm, ⟨63, _⟩ => ⟨S8192x8192, .f32⟩
  | .hbm, ⟨64, _⟩ => ⟨S8192x8192, .f32⟩
  | .hbm, ⟨65, _⟩ => ⟨S8192x8192, .f32⟩
  | .hbm, ⟨66, _⟩ => ⟨S_, .f32⟩
  | .hbm, ⟨67, _⟩ => ⟨S_, .f32⟩
  | .hbm, ⟨68, _⟩ => ⟨S8192x8192, .f32⟩
  | .hbm, ⟨69, _⟩ => ⟨S8192x8192, .f32⟩
  | .hbm, ⟨70, _⟩ => ⟨S_, .f32⟩
  | .hbm, ⟨71, _⟩ => ⟨S8192, .f32⟩
  | .hbm, ⟨72, _⟩ => ⟨S8192, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S_, .f32⟩
  | .hbm, ⟨77, _⟩ => ⟨S8192x8192, .f32⟩
  | .hbm, ⟨78, _⟩ => ⟨S8192x8192, .f32⟩
  | .hbm, ⟨79, _⟩ => ⟨S8192x8192, .f32⟩
  | .hbm, ⟨80, _⟩ => ⟨S_, .f32⟩
  | .hbm, ⟨81, _⟩ => ⟨S_, .f32⟩
  | .hbm, ⟨82, _⟩ => ⟨S8192x8192, .f32⟩
  | .hbm, ⟨83, _⟩ => ⟨S8192x8192, .f32⟩
  | .hbm, ⟨84, _⟩ => ⟨S_, .f32⟩
  | .hbm, ⟨85, _⟩ => ⟨S8192, .f32⟩
  | .hbm, ⟨86, _⟩ => ⟨S8192, .f32⟩
  | .hbm, ⟨87, _⟩ => ⟨S8192, .f32⟩
  | .hbm, ⟨88, _⟩ => ⟨S8192, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_2 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_4 : Ref sig .tc := ⟨.hbm, 42, rfl⟩
abbrev main_call1_v0 : Ref sig .tc := ⟨.hbm, 43, rfl⟩
abbrev main_call1_v1 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_cst_6 : Ref sig .tc := ⟨.hbm, 48, rfl⟩
abbrev main_call2_v0 : Ref sig .tc := ⟨.hbm, 49, rfl⟩
abbrev main_call2_v1 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_11 : Ref sig .tc := ⟨.hbm, 66, rfl⟩
abbrev main_call3_v0 : Ref sig .tc := ⟨.hbm, 67, rfl⟩
abbrev main_call3_v1 : Ref sig .tc := ⟨.hbm, 68, rfl⟩
abbrev main_v45 : Ref sig .tc := ⟨.hbm, 69, rfl⟩
abbrev main_cst_12 : Ref sig .tc := ⟨.hbm, 70, rfl⟩
abbrev main_v46 : Ref sig .tc := ⟨.hbm, 71, rfl⟩
abbrev main_v47 : Ref sig .tc := ⟨.hbm, 72, rfl⟩
abbrev main_cst_13 : Ref sig .tc := ⟨.hbm, 73, rfl⟩
abbrev main_v48 : Ref sig .tc := ⟨.hbm, 74, rfl⟩
abbrev main_v49 : Ref sig .tc := ⟨.hbm, 75, rfl⟩
abbrev main_cst_14 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_15 : Ref sig .tc := ⟨.hbm, 80, rfl⟩
abbrev main_call4_v0 : Ref sig .tc := ⟨.hbm, 81, rfl⟩
abbrev main_call4_v1 : Ref sig .tc := ⟨.hbm, 82, rfl⟩
abbrev main_v53 : Ref sig .tc := ⟨.hbm, 83, rfl⟩
abbrev main_cst_16 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_17 : Ref sig .tc := ⟨.hbm, 89, rfl⟩
abbrev main_v58 : Ref sig .tc := ⟨.hbm, 90, rfl⟩
abbrev main_cst_18 : Ref sig .tc := ⟨.hbm, 91, rfl⟩
abbrev main_v59 : Ref sig .tc := ⟨.hbm, 92, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KernelMain.lean ====
/-
  @main of the pair-loss kernel around its one region: seven host operations (the row norms as a column and as a
  row, the labels as a column and as a row), the region, twenty-one host operations (the four columns of the
  region's result sliced out, the loss computed from them). The contents of every unscoped buffer when the region
  is entered are the launch contents run through the first seven operations (`V0`, `V`); a window's block at a
  grid point is read off its array at those contents (`iblk`).
-/
import proofs.«175511_j20572893348487_1_alg».proof.Proof.Gen.Kernel.Launch
import proofs.«175511_j20572893348487_1_alg».proof.Proof.Gen.Kernel.Skeleton
import proofs.«175511_j20572893348487_1_alg».proof.Proof.Gen.Kernel.Points
import Idealize.ShloMosaic.Lib.Pipeline.FrameBody
import Idealize.ShloMosaic.Lib.Pipeline.FrameSuffix
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core `c`'s buffer contents when the region is entered: the launch contents after the seven host operations
    before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first seven operations, the region, the last twenty-one: from the launch contents it reduces to the
    region, entered at `V`, continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.KernelLaunch.lean ====
/-
  The launch of the pair-loss kernel's region, by hand, because two of its windows read ONE array: the row block
  (1024 rows of x at a time) and the column block (512 rows of x at a time) are both windows on the point array x.
  The pipeline needs a share of an array for every window that reads it, so the point array is held by halves:
  one half for the rows, the other for the columns. A points-to splits into its two halves and the halves join
  back, so the seven windows' arrays ARE the six distinct buffers, each held whole (`arrays_eq_arrBufs`); that is
  used three times: to enter the region, to run the operations after it, and to read the final memory.

  @main is seven host operations, the region, twenty-one host operations. The later operations read the region's
  result and write fresh buffers; they run within all the unscoped buffers, from the contents at the region's exit
  (`Wexit`: as at the entry, but for the result array) to the contents at the end (`Wend`). No host operation
  writes an argument array, and no later operation writes an array of the region.

  `run_of` is the run for ANY proof data of the body that reads its arrays off the entry contents, deals the point
  array by halves, keeps the class's invariant (the scoped buffers no window stages, the generator register), owes
  nothing, and meets the body obligation; `frame_of_run` reads the two argument arrays off its post.
-/
import proofs.«175511_j20572893348487_1_alg».proof.Proof.KernelMain

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Two assertions that entail each other are one assertion. -/
theorem eq_of_biEntails {M : Type} [URA M] {P Q : sProp M} (h : P ⊣⊢ Q) : P = Q := h.mp.antisymm h.mpr

/-- The distinct buffers behind the seven windows' arrays: the row block and the column block read ONE array. -/
theorem arrImage : Finset.univ.image (Pipeline.arrRef spec0) = [main_arg0, main_v3, main_v4, main_v0, main_v5, main_v6].toFinset := by decide

/-- Proof data that deals the shared array to its two windows by halves, and holds every other input array whole. -/
structure Halves {c : Dev nD} (dat : Dat τ (Elt F) Unit ℕ (UR sig nD τ) ℕ cfg0 c) : Prop where
  q0 : dat.q 0 = fullShare.left
  q1 : dat.q 1 = fullShare.right
  q2 : dat.q 2 = fullShare
  q3 : dat.q 3 = fullShare
  q4 : dat.q 4 = fullShare
  q5 : dat.q 5 = fullShare

/-- The windows' arrays at contents read off one valuation `W` of the buffers, each at its window's share. -/
theorem arrays_pts {c : Dev nD} (dat : Dat τ (Elt F) Unit ℕ (UR sig nD τ) ℕ cfg0 c)
    (W : (b : Ref sig .tc) → Buf (Elt F) ((c.tc : Thread nD τ).loc b))
    (A : (w : Fin cfg0.W) → Buf (Elt F) ((cfg0.win w).arr.view.loc (c.tc : Thread nD τ)))
    (hA : ∀ w, A w = W (Pipeline.arrRef spec0 w)) :
    (dat.arrays A : sProp 𝕄) = bigSep Finset.univ fun w : Fin cfg0.W =>
      (((c.tc : Thread nD τ).loc (Pipeline.arrRef spec0 w)) ↦{dat.share w} W (Pipeline.arrRef spec0 w) : sProp 𝕄) := by
  unfold Dat.arrays
  exact bigSep_congr fun w _ => by rw [(arr_whole0 w).set_eq_univ, hA w]

/-- The windows' arrays, the shared one held by halves, ARE the six distinct buffers each held whole, when the two
    windows on the shared array are given the same contents: the two halves of one points-to make the whole. -/
theorem arrays_eq_arrBufs {c : Dev nD} (dat : Dat τ (Elt F) Unit ℕ (UR sig nD τ) ℕ cfg0 c) (hq : Halves dat)
    (W : (b : Ref sig .tc) → Buf (Elt F) ((c.tc : Thread nD τ).loc b))
    (A : (w : Fin cfg0.W) → Buf (Elt F) ((cfg0.win w).arr.view.loc (c.tc : Thread nD τ)))
    (hA : ∀ w, A w = W (Pipeline.arrRef spec0 w)) :
    (dat.arrays A : sProp 𝕄) = Pipeline.arrBufs spec0 c W := by
  have s0 : dat.share 0 = fullShare.left := by unfold Dat.share; rw [if_neg (by decide), hq.q0]
  have s1 : dat.share 1 = fullShare.right := by unfold Dat.share; rw [if_neg (by decide), hq.q1]
  have s2 : dat.share 2 = fullShare := by unfold Dat.share; rw [if_neg (by decide), hq.q2]
  have s3 : dat.share 3 = fullShare := by unfold Dat.share; rw [if_neg (by decide), hq.q3]
  have s4 : dat.share 4 = fullShare := by unfold Dat.share; rw [if_neg (by decide), hq.q4]
  have s5 : dat.share 5 = fullShare := by unfold Dat.share; rw [if_neg (by decide), hq.q5]
  have s6 : dat.share 6 = fullShare := by unfold Dat.share; rw [if_pos (by decide)]
  rw [arrays_pts dat W A hA, bigSep_W0]
  unfold Pipeline.arrBufs
  rw [bigSep_eq_bigSepL_of_eq _ arrImage (by decide)]
  simp only [bigSepL_cons_cons, bigSepL_singleton]
  rw [s0, s1, s2, s3, s4, s5, s6]
  show iprop(((c.tc : Thread nD τ).loc main_arg0 ↦{fullShare.left} W main_arg0) ∗ ((c.tc : Thread nD τ).loc main_arg0 ↦{fullShare.right} W main_arg0) ∗ _) = _
  rw [← eq_of_biEntails Laws.sep_assoc, ← eq_of_biEntails (pointsTo_share (PosShare.mem_left_op_right fullShare))]
  rfl

/-! ## The operations after the region -/

section Tail

variable (dats : (p : Fin 1) → (c : Dev nD) → Dat τ (Elt F) Unit ℕ (UR sig nD τ) ℕ (cfgs p) c)

/-- The buffers' contents when the region is left: as it was entered, but for the region's result. -/
def Wexit (c : Dev nD) : Valuation τ sig (Elt F) := fun b =>
  if h : Proc.devRef .tc main_v6 = b then cast (congrArg (fun b' : DevRef τ sig => b'.ty.Contents (Elt F)) h) ((dats 0 c).arrAt 6 cfg0.N)
  else V0 m c b

/-- The buffers' contents at the end: the twenty-one later operations run from there. -/
def Wend (c : Dev nD) : Valuation τ sig (Elt F) := StableHlo.after (List.flatten [hostOps1]) (Wexit m dats c)

/-- No later operation writes an array of the region. -/
theorem tail_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

end Tail

section Launch

variable (dats : (p : Fin 1) → (c : Dev nD) → Dat τ (Elt F) Unit ℕ (UR sig nD τ) ℕ (cfgs p) c)

/-- The one output window is the seventh, and it alone stages the result array. -/
theorem out_of_arr : ∀ w : Fin cfg0.W, Pipeline.arrRef spec0 w = main_v6 → (cfg0.win w).isOut = true := by decide
theorem six_of_out : ∀ w : Fin cfg0.W, (cfg0.win w).isOut = true → w = 6 := by decide

/-- When the region is left, each window's array holds what the valuation at the exit says: the result what the
    region wrote, an input (never written) its entry contents. -/
theorem Wexit_arr (hA : ∀ c w, (dats 0 c).A w = V m c (Pipeline.arrRef spec0 w)) (c : Dev nD) (w : Fin cfg0.W) :
    (dats 0 c).arrAt w cfg0.N = Wexit m dats c (Proc.devRef .tc (Pipeline.arrRef spec0 w)) := by
  by_cases hw : (cfg0.win w).isOut = true
  · obtain rfl := six_of_out w hw
    unfold Wexit; rw [dif_pos rfl]; rfl
  · have hw' : (cfg0.win w).isOut = false := by simpa using hw
    unfold Wexit
    rw [dif_neg (fun e => hw (out_of_arr w (Proc.devRef_injective _ e).symm)), Dat.arrAt_in (dats 0 c) w hw', hA]

/-- The later operations write no array, so at the end the arrays hold the same. -/
theorem Wend_arr (hA : ∀ c w, (dats 0 c).A w = V m c (Pipeline.arrRef spec0 w)) (c : Dev nD) (w : Fin cfg0.W) :
    (dats 0 c).arrAt w cfg0.N = Wend m dats c (Proc.devRef .tc (Pipeline.arrRef spec0 w)) := by
  unfold Wend
  rw [StableHlo.after_of_forall_not_mem _ _ fun op hop => ?_]
  · exact Wexit_arr m dats hA c w
  · simp only [List.flatten_cons, List.flatten_nil, List.append_nil] at hop
    exact tail_keeps op hop w

/-- A buffer that is no window's array holds at the exit what it held at the entry. -/
theorem Wexit_rest (c : Dev nD) (b : Ref sig .tc) (hb : b ∈ Pipeline.restRefs sig spec0) :
    Wexit m dats c (Proc.devRef .tc b) = V m c b := by
  unfold Wexit
  rw [dif_neg]
  intro e
  have : b = Pipeline.arrRef spec0 6 := (Proc.devRef_injective _ e).symm
  exact (Finset.mem_sdiff.mp hb).2 (Finset.mem_image.mpr ⟨6, Finset.mem_univ _, this.symm⟩)

/-- The later operations touch unscoped buffers only, -/
theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- and allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The arrays as the region leaves them, beside the bypassing buffers as it found them, are all the unscoped
    buffers held at the exit contents. -/
theorem exit_held (hq : ∀ c, Halves (dats 0 c)) (hA : ∀ c w, (dats 0 c).A w = V m c (Pipeline.arrRef spec0 w)) (c : Dev nD) :
    (iprop((dats 0 c).arrays ((dats 0 c).arrAt · cfg0.N) ∗ Pipeline.unscopedRestP Pipeline.Prefetch.none spec0 c (V m c)) : sProp 𝕄)
      = StableHlo.held (c.tc : Thread nD τ) (Pipeline.ucRefs τ sig) (Wexit m dats c) := by
  rw [arrays_eq_arrBufs (dats 0 c) (hq c) (fun b => Wexit m dats c (Proc.devRef .tc b)) _ (Wexit_arr m dats hA c),
    Pipeline.unscopedRestP_none,
    show (Pipeline.unscopedRest spec0 c (V m c) : sProp 𝕄) = Pipeline.unscopedRest spec0 c (fun b => Wexit m dats c (Proc.devRef .tc b)) from
      bigSep_congr fun b hb => by dsimp only; rw [Wexit_rest m dats c b hb],
    ← Pipeline.unscopedBufs_split₀ cfgs 0 winFacts₀0.arr_unscoped c (fun b => Wexit m dats c (Proc.devRef .tc b))]
  exact Pipeline.unscopedBufs_held c (Wexit m dats c)

/-- And at the end: the arrays, unchanged, beside the bypassing buffers as the later operations leave them. -/
theorem end_held (hq : ∀ c, Halves (dats 0 c)) (hA : ∀ c w, (dats 0 c).A w = V m c (Pipeline.arrRef spec0 w)) (c : Dev nD) :
    (iprop((dats 0 c).arrays ((dats 0 c).arrAt · cfg0.N) ∗ Pipeline.unscopedRestP Pipeline.Prefetch.none spec0 c (fun b => Wend m dats c (Proc.devRef .tc b))) : sProp 𝕄)
      = StableHlo.held (c.tc : Thread nD τ) (Pipeline.ucRefs τ sig) (Wend m dats c) := by
  rw [arrays_eq_arrBufs (dats 0 c) (hq c) (fun b => Wend m dats c (Proc.devRef .tc b)) _ (Wend_arr m dats hA c),
    Pipeline.unscopedRestP_none,
    ← Pipeline.unscopedBufs_split₀ cfgs 0 winFacts₀0.arr_unscoped c (fun b => Wend m dats c (Proc.devRef .tc b))]
  exact Pipeline.unscopedBufs_held c (Wend m dats c)

set_option backward.isDefEq.respectTransparency.types false in
/-- THE RUN. For any proof data that reads its arrays off the region-entry contents, deals the shared array by halves,
    keeps the class's invariant, owes nothing and meets the body obligation: every weakly fair execution of @main
    terminates, every array of the region ends at what the proof data computes, and every other unscoped buffer at what
    the later operations leave. -/
theorem run_of (hq : ∀ c, Halves (dats 0 c)) (hA : ∀ c w, (dats 0 c).A w = V m c (Pipeline.arrRef spec0 w))
    (hΦ : ∀ c t, (dats 0 c).Φ t = Pipeline.ΦA spec0 c) (howed : ∀ c t, (dats 0 c).owed t = 0)
    (hbody : ∀ c, Pipeline.BodyObligationLoose (dats 0 c) defs₀ Variants.none () Set.univ) :
    θ_run defs (onTc (τ := τ) (main (F := F))) (s₀ m ρ)
      (Pipeline.FramePost cfgs dats 0 (fun c b => Wend m dats c (Proc.devRef .tc b))) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells (Pipeline.pin (fun q => (cfgs q).toPCfg (Val := Elt F)) fun q => (cfgs q).toPCfg_adm) cellOf_inj) (Pipeline.launchToks (Pipeline.pin (fun q => (cfgs q).toPCfg (Val := Elt F)) fun q => (cfgs q).toPCfg_adm) cellOf_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) fun q => (cfgs q).toPCfg_adm) cellOf_inj) (Pipeline.launchToks (Pipeline.pin (fun q => (cfgs q).toPCfg (Val := Elt F)) fun q => (cfgs q).toPCfg_adm) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Entails.of_eq (arrays_eq_arrBufs (dats 0 c) (hq c) (V m c) _ (fun w => hA c w)).symm)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wend m dats c (Proc.devRef .tc b)))
    (hX := fun c => by
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (htail := fun c Q' => by
      rw [end_held m dats hq hA c, exit_held m dats hq hA c,
        show ([StableHlo.seq hostOps1] : List _) = ([hostOps1].map StableHlo.seq ++ []) from rfl]
      iintro ⟨Hk, Hb⟩
      iapply (Pipeline.wp_seqs_then (fun q => (cfgs q).toPCfg (Val := Elt F)) defs₀ Variants.none c (Pipeline.ucRefs τ sig) [] [hostOps1] tail_sub tail_fresh (Wexit m dats c)) $$ Hb
      iintro Hb
      rw [Pipeline.chain_nil, wp_pure]
      imodintro
      iapply Hk
      icases Hb with ⟨-, H⟩
      iexact H)
    (QY := fun c s => ∀ b ∈ Pipeline.restRefsP sig Pipeline.Prefetch.none spec0, s.mem ((c.tc : Thread nD τ).loc b) = Wend m dats c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wend m dats c (Proc.devRef .tc b)) s')
      isplitl [HU] <;> iassumption)
    (hQ := fun s h c => ⟨(h c).1, Pipeline.rest_of_restP Pipeline.Prefetch.none spec0 (fun k => k.elim0) c (fun b => Wend m dats c (Proc.devRef .tc b)) s
      (fun k => k.elim0) (h c).2.1 (h c).2.2⟩)

end Launch

section Frame

variable (dats : (p : Fin 1) → (c : Dev nD) → Dat τ (Elt F) Unit ℕ (UR sig nD τ) ℕ (cfgs p) c)

/-- No operation before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation after the region writes the label argument. -/
theorem tail_main_arg1 (W : Valuation τ sig (Elt F)) :
    StableHlo.after (List.flatten [hostOps1]) W (Proc.devRef .tc main_arg1) = W (Proc.devRef .tc main_arg1) :=
  StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- At the end the label argument is as launched: no window stages it, and no host operation writes it. -/
theorem Wend_main_arg1 (c : Dev nD) : Wend m dats c (Proc.devRef .tc main_arg1) = m ((c : Thread nD τ).loc main_arg1) := by
  unfold Wend
  rw [tail_main_arg1]
  unfold Wexit
  rw [dif_neg (StableHlo.devRef_ne_of_ne (by decide))]
  exact V_main_arg1 m c

/-- THE FRAME from the run: the point array is an input window's array, never written back, so it ends at its entry
    contents, which are the launch contents; the label array bypasses the region. -/
theorem frame_of_run (hA : ∀ c w, (dats 0 c).A w = V m c (Pipeline.arrRef spec0 w))
    (h : θ_run defs (onTc (τ := τ) (main (F := F))) (s₀ m ρ) (Pipeline.FramePost cfgs dats 0 (fun c b => Wend m dats c (Proc.devRef .tc b)))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans ((Dat.arrAt_in (dats 0 c) 0 rfl cfg0.N).trans ((hA c 0).trans (V_main_arg0 m c))),
     ((h c).2 main_arg1 (Pipeline.mem_restRefs_of main_arg1 (by decide) (by decide))).trans (Wend_main_arg1 m dats c)⟩) h

end Frame

end Cert.Kernel.Hand

end
-- ==== Proof.KernelBody.lean ====
/-
  The body of the pair-loss kernel at one grid point, and the proof data of its pipeline.

  The grid is 8 row blocks by 16 column blocks, walked row block by row block. At a point the body reads six input
  blocks (the rows of the row block and of the column block, their squared norms, their labels) and adds, to the
  [1024, 4] output block of the row block, four row sums over the point's [1024, 512] tile; at the first column block
  it first stores the zero block there. So the output block is an accumulator carried across the sixteen points of a
  row block: what it holds after a point is `step` of the point's inputs over the zero block (first column block) or
  over what the point before left (`outAt`, by recursion on the point). The body is run once for each of the two
  cases on symbolic staging memrefs (`kernelRun_A`, `kernelRun_B`); the body obligation at a point picks the case by
  the closed form of the branch condition over the grid.
-/
import proofs.«175511_j20572893348487_1_alg».proof.Proof.KernelMain
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The body's one branch: the reset of the accumulator at the first column block -/

/-- The condition of the body's conditional, from the grid coordinates: the column-block coordinate is zero. -/
abbrev cond0 (i : grid0.Coords) : Prop :=
  (Scalar.cmpi .ne (Scalar.extui (Scalar.cmpi .eq (BitVec.ofNat 32 (i 1).val) 0#32)) 0#32) = 1#1

/-- It holds exactly at the first of every sixteen consecutive points — decided over the grid. -/
theorem hcond0 : ∀ t : Fin cfg0.N, cond0 (grid0.coords t) ↔ t.val % 16 = 0 :=
  (by decide +kernel : ∀ t : Fin grid0.N, cond0 (grid0.coords t) ↔ t.val % 16 = 0)

/-- The column-block coordinate of a point is zero exactly at those points. -/
theorem coord1_zero_iff : ∀ t : Fin cfg0.N, ((grid0.coords t) 1).val = 0 ↔ t.val % 16 = 0 :=
  (by decide +kernel : ∀ t : Fin grid0.N, ((grid0.coords t) 1).val = 0 ↔ t.val % 16 = 0)

/-- The row-block and column-block coordinates of a point in closed form. -/
theorem coord0_val : ∀ t : Fin cfg0.N, ((grid0.coords t) 0).val = t.val / 16 :=
  (by decide +kernel : ∀ t : Fin grid0.N, ((grid0.coords t) 0).val = t.val / 16)
theorem coord1_val : ∀ t : Fin cfg0.N, ((grid0.coords t) 1).val = t.val % 16 :=
  (by decide +kernel : ∀ t : Fin grid0.N, ((grid0.coords t) 1).val = t.val % 16)

theorem hz2 : (![0, 0] : Fin 2 → Nat) = fun _ => 0 := funext fun a => by fin_cases a <;> rfl

/-! ## What one point leaves in the accumulator -/

/-- What the body at grid coordinates `i` leaves in the output block, from the six input blocks and the block's
    contents `prev` when the accumulation is entered: `prev` plus the four row sums of the point's tile. -/
def step (i : grid0.Coords) (x0 : Vec F S1024x128 .f32) (x1 : Vec F S512x128 .f32) (x2 : Vec F S1024x1 .f32)
    (x3 : Vec F S1x512 .f32) (x4 : Vec F S1024x1 .i32) (x5 : Vec F S1x512 .i32) (prev : Vec F S1024x4 .f32) :
    Vec F S1024x4 .f32 :=
  k0_pay5 (k0_pay1 x0 x1 x2 x3) (k0_pay2 (F := F) x4 x5) (k0_pay3 (F := F) i x4 x5) (constantI S1024x512 1 1#1) prev

set_option maxHeartbeats 1000000 in
/-- The body at a point of the first column block: on whole staging memrefs, the inputs' at contents `x0 … x5` and
    the output's at anything, it runs to the continuation holding the inputs' as they were and the output's at
    `step` of the inputs over the zero block (the reset stores it, the accumulation reads it back). -/
theorem kernelRun_A (c : Dev nD) (E : Set ℕ) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S1024x1 .i32) (harg6 : arg6.IsWhole) (arg7 : Memref sig .tc .vmem S1x512 .i32) (harg7 : arg7.IsWhole)
    (arg8 : Memref sig .tc .vmem S1024x4 .f32) (harg8 : arg8.IsWhole) (hc : cond0 i)
    (x0 : Vec F S1024x128 .f32) (x1 : Vec F S512x128 .f32) (x2 : Vec F S1024x1 .f32)
    (x3 : Vec F S1x512 .f32) (x4 : Vec F S1024x1 .i32) (x5 : Vec F S1x512 .i32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (step i x0 x1 x2 x3 x4 x5 (k0_pay4 (F := F)))) -∗ K ⟨⟩))
      ⊢ wp frame (wpE (defs₀ (F := F)) Variants.none c none) E
          (cc0__pair_kernel i arg2 harg2 arg3 harg3 arg4 harg4 arg5 harg5 arg6 harg6 arg7 harg7 arg8 harg8) K := by
  simp only [cc0__pair_kernel_eq_skeleton]; unfold cc0__pair_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [View.read_writes_eq_canon _ _ _ (fun y => ⟨_, List.mem_cons_self, View.mem_set_unit_zero hz2 inb_S1024x4_S1024x4_0_0 y⟩),
    View.canon_cons_unit_zero (S := S1024x4) hz2]
  sl_unfold_run_names
  unfold step
  rw [View.readCov_unit_zero (S := S1024x4) _ hz2]
  rw [View.readAt_eq_ld arg2.view, View.readAt_eq_ld arg3.view, View.readAt_eq_ld arg4.view, View.readAt_eq_ld arg5.view,
    View.readAt_eq_ld arg6.view, View.readAt_eq_ld arg7.view, hf0, hf1, hf2, hf3, hf4, hf5,
    View.ld_unit_zero (S := S1024x128) hz2, View.ld_unit_zero (S := S512x128) hz2, View.ld_unit_zero (S := S1024x1) hz2,
    View.ld_unit_zero (S := S1x512) hz2, View.ld_unit_zero (S := S1024x1) hz2, View.ld_unit_zero (S := S1x512) hz2]

set_option maxHeartbeats 1000000 in
/-- The body at a point of a later column block: the same, the output's staging memref entered at the running
    contents `xo` and left at `step` of the inputs over `xo`. -/
theorem kernelRun_B (c : Dev nD) (E : Set ℕ) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S1024x1 .i32) (harg6 : arg6.IsWhole) (arg7 : Memref sig .tc .vmem S1x512 .i32) (harg7 : arg7.IsWhole)
    (arg8 : Memref sig .tc .vmem S1024x4 .f32) (harg8 : arg8.IsWhole) (hc : ¬cond0 i)
    (x0 : Vec F S1024x128 .f32) (x1 : Vec F S512x128 .f32) (x2 : Vec F S1024x1 .f32)
    (x3 : Vec F S1x512 .f32) (x4 : Vec F S1024x1 .i32) (x5 : Vec F S1x512 .i32) (xo : Vec F S1024x4 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare xo
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (step i x0 x1 x2 x3 x4 x5 xo)) -∗ K ⟨⟩))
      ⊢ wp frame (wpE (defs₀ (F := F)) Variants.none c none) E
          (cc0__pair_kernel i arg2 harg2 arg3 harg3 arg4 harg4 arg5 harg5 arg6 harg6 arg7 harg7 arg8 harg8) K := by
  simp only [cc0__pair_kernel_eq_skeleton]; unfold cc0__pair_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [View.read_writes_eq_canon _ _ _ (fun y => ⟨_, List.mem_cons_self, View.mem_set_unit_zero hz2 inb_S1024x4_S1024x4_0_0 y⟩),
    View.canon_cons_unit_zero (S := S1024x4) hz2]
  sl_unfold_run_names
  unfold step
  rw [View.readAt_eq_ld arg2.view, View.readAt_eq_ld arg3.view, View.readAt_eq_ld arg4.view, View.readAt_eq_ld arg5.view,
    View.readAt_eq_ld arg6.view, View.readAt_eq_ld arg7.view, hf0, hf1, hf2, hf3, hf4, hf5,
    View.ld_unit_zero (S := S1024x128) hz2, View.ld_unit_zero (S := S512x128) hz2, View.ld_unit_zero (S := S1024x1) hz2,
    View.ld_unit_zero (S := S1x512) hz2, View.ld_unit_zero (S := S1024x1) hz2, View.ld_unit_zero (S := S1x512) hz2]
  rw [View.readAt_eq_ld arg8.view, hf6, View.ld_unit_zero (S := S1024x4) hz2]

variable (m : (ℓ : Loc nD τ sig) → Buf (Elt F) ℓ)

/-! ## The staging memrefs at a point, spelt as the pipeline passes them -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x4 .f32 := win0_6.stage (cfg0.slots t 6)
abbrev hs0_6 (t : Fin cfg0.N) : (ms0_6 t).IsWhole := hstage0_6 ((cfg0.slots t 6).cast nbuf0_6)

/-! ## What the accumulator holds after each point -/

/-- What the body at point `t` leaves in the output block when it enters the accumulation at `prev`: `step` at the
    point's coordinates and its six input blocks. -/
def stepAt (c : Dev nD) (t : Fin cfg0.N) (prev : Vec F S1024x4 .f32) : Vec F S1024x4 .f32 :=
  step (grid0.coords t) (iblk m c 0 t) (iblk m c 1 t) (iblk m c 2 t) (iblk m c 3 t) (iblk m c 4 t) (iblk m c 5 t) prev

/-- THE ACCUMULATION. What the output's staging buffer holds after the body at position `n`: at the first of every
    sixteen consecutive points (the first column block of a row block) the point's step over the zero block, at every
    other point the point's step over what the point before left. -/
def outAt (c : Dev nD) : (n : ℕ) → n < cfg0.N → Vec F S1024x4 .f32
  | 0, hn => stepAt m c ⟨0, hn⟩ (k0_pay4 (F := F))
  | n + 1, hn =>
    if (n + 1) % 16 = 0 then stepAt m c ⟨n + 1, hn⟩ (k0_pay4 (F := F))
    else stepAt m c ⟨n + 1, hn⟩ (outAt c n (Nat.lt_of_succ_lt hn))

/-- `outAt` at a point that resets: the step over the zero block. -/
theorem outAt_reset (c : Dev nD) : ∀ (n : ℕ) (h : n < cfg0.N), n % 16 = 0 → outAt m c n h = stepAt m c ⟨n, h⟩ (k0_pay4 (F := F))
  | 0, _, _ => rfl
  | _ + 1, _, h0 => if_pos h0

/-- `outAt` at a point that does not: the step over what the point before left. -/
theorem outAt_acc (c : Dev nD) (n : ℕ) (h : n + 1 < cfg0.N) (h0 : ¬(n + 1) % 16 = 0) :
    outAt m c (n + 1) h = stepAt m c ⟨n + 1, h⟩ (outAt m c n (Nat.lt_of_succ_lt h)) :=
  if_neg h0

/-- The same two equations at a point of the grid. -/
theorem outAt_A (c : Dev nD) (t : Fin cfg0.N) (h0 : t.val % 16 = 0) :
    outAt m c t.val t.isLt = stepAt m c t (k0_pay4 (F := F)) :=
  outAt_reset m c t.val t.isLt h0

theorem outAt_B (c : Dev nD) (t : Fin cfg0.N) (h0 : ¬t.val % 16 = 0) :
    outAt m c t.val t.isLt = stepAt m c t (outAt m c (t.val - 1) (Nat.lt_of_le_of_lt (Nat.sub_le _ _) t.isLt)) := by
  obtain ⟨n, hn⟩ := t
  cases n with
  | zero => exact absurd (Nat.zero_mod _) h0
  | succ n => exact outAt_acc m c n hn h0

/-! ## The pipeline's proof data -/

/-- The proof data of the one pipeline on core `c`: the arrays as the region finds them; after the body at point `t`
    each input's buffer at its block (the body only reads them) and the output's at `outAt`; the invariant the scoped
    rest and the generator register, which the body does not touch; nothing owed; the array the row-block window and
    the column-block window both stage held in two halves, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The proof data's arrays are the region-entry contents (the definition projected, the fold over the host
    operations before the region never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t.val t.isLt := by dsimp only [dats]

/-- The shares, window by window. -/
theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare := by dsimp only [dats]
theorem q3 (c : Dev nD) : (dats m 0 c).q 3 = fullShare := by dsimp only [dats]
theorem q4 (c : Dev nD) : (dats m 0 c).q 4 = fullShare := by dsimp only [dats]
theorem q5 (c : Dev nD) : (dats m 0 c).q 5 = fullShare := by dsimp only [dats]
theorem q6 (c : Dev nD) : (dats m 0 c).q 6 = fullShare := by dsimp only [dats]

/-- The invariant and the tallies owed, at every position. -/
theorem Phi_eq (c : Dev nD) (t : Fin (cfg0.N + 1)) : (dats m 0 c).Φ t = Pipeline.ΦA spec0 c := by dsimp only [dats]
theorem owed_eq (c : Dev nD) (t : Fin (cfg0.N + 1)) : (dats m 0 c).owed t = 0 := by dsimp only [dats]

/-! ## What the body finds in each staging buffer -/

/-- An input window's current staging buffer holds its block at every point, fetched there or not: the body leaves the
    block in place, and where the pipeline does not fetch, the block index has not moved. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-- At a point that does not reset, the output's current staging buffer holds what the body left at the point before:
    the point is not the first and the buffer was not written back between (write-backs follow the points ≡ 15 mod 16). -/
theorem before0_6_B (c : Dev nD) (t : Fin cfg0.N) (h0 : ¬t.val % 16 = 0) (d) :
    (dats m 0 c).before 6 t d = outAt m c (t.val - 1) (Nat.lt_of_le_of_lt (Nat.sub_le _ _) t.isLt) := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

/-- What the body is called with at point `t` (the obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks; the closed form says whether the point resets the
    accumulator, and where it does not the output's memref holds what the point before left; so the matching run
    applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h0 : t.val % 16 = 0
  · rw [outAt_A m c t h0]
    unfold stepAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply (kernelRun_A c Set.univ (grid0.coords t) _ _ _ _ _ _ _ _ _ _ _ _ _ _ ((hcond0 t).mpr h0)
      (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [outAt_B m c t h0]
    simp only [before0_6_B m c t h0]
    unfold stepAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply (kernelRun_B c Set.univ (grid0.coords t) _ _ _ _ _ _ _ _ _ _ _ _ _ _ (fun h => h0 ((hcond0 t).mp h))
      (iblk m c 0 t) (iblk m c 1 t) (iblk m c 2 t) (iblk m c 3 t) (iblk m c 4 t) (iblk m c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KernelFrame.lean ====
/-
  The frame of the pair-loss kernel: the run of @main at the body's proof data. The body meets its obligation at
  every grid point (the accumulator zeroed at the first point of each stretch of sixteen, added to at the others);
  the row block and the column block read one array, each holding half of it; so every weakly fair execution
  terminates without a fault and both argument arrays end as launched.
-/
import proofs.«175511_j20572893348487_1_alg».proof.Proof.KernelLaunch
import proofs.«175511_j20572893348487_1_alg».proof.Proof.KernelBody

set_option maxRecDepth 16384

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]

variable (m : (ℓ : Loc nD τ sig) → Buf (Elt F) ℓ) (ρ : Dev nD → PrngReg)

/-- The body's proof data deals the shared array by halves. -/
theorem halves (c : Dev nD) : Halves (dats m 0 c) := ⟨q0 m c, q1 m c, q2 m c, q3 m c, q4 m c, q5 m c⟩

/-- The run of @main: every array of the region ends at what the proof data computes, every other unscoped buffer at
    what the later operations leave. -/
theorem run_main : θ_run defs (onTc (τ := τ) (main (F := F))) (s₀ m ρ)
    (Pipeline.FramePost cfgs (dats m) 0 (fun c b => Wend m (dats m) c (Proc.devRef .tc b))) :=
  run_of m ρ (dats m) (halves m) (A_eq m) (Phi_eq m) (owed_eq m) (fun c => (body_obligation m c).loose)

/-- The frame: @main runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (dats m) (A_eq m) (run_main m ρ)

end Cert.Kernel.Hand

end
-- ==== Proof.KernelIdealMain.lean ====
/-
  @main of the pair-loss kernel around its one region: seven host operations (the row norms as a column and as a
  row, the labels as a column and as a row), the region, twenty-one host operations (the four columns of the
  region's result sliced out, the loss computed from them). The contents of every unscoped buffer when the region
  is entered are the launch contents run through the first seven operations (`V0`, `V`); a window's block at a
  grid point is read off its array at those contents (`iblk`).
-/
import proofs.«175511_j20572893348487_1_alg».proof.Proof.Gen.KernelIdeal.Launch
import proofs.«175511_j20572893348487_1_alg».proof.Proof.Gen.KernelIdeal.Skeleton
import proofs.«175511_j20572893348487_1_alg».proof.Proof.Gen.KernelIdeal.Points
import Idealize.ShloMosaic.Lib.Pipeline.FrameBody
import Idealize.ShloMosaic.Lib.Pipeline.FrameSuffix
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Core `c`'s buffer contents when the region is entered: the launch contents after the seven host operations
    before the region. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host operation allocates. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the first seven operations, the region, the last twenty-one: from the launch contents it reduces to the
    region, entered at `V`, continued by the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.KernelIdealLaunch.lean ====
/-
  The launch of the pair-loss kernel's region, by hand, because two of its windows read ONE array: the row block
  (1024 rows of x at a time) and the column block (512 rows of x at a time) are both windows on the point array x.
  The pipeline needs a share of an array for every window that reads it, so the point array is held by halves:
  one half for the rows, the other for the columns. A points-to splits into its two halves and the halves join
  back, so the seven windows' arrays ARE the six distinct buffers, each held whole (`arrays_eq_arrBufs`); that is
  used three times: to enter the region, to run the operations after it, and to read the final memory.

  @main is seven host operations, the region, twenty-one host operations. The later operations read the region's
  result and write fresh buffers; they run within all the unscoped buffers, from the contents at the region's exit
  (`Wexit`: as at the entry, but for the result array) to the contents at the end (`Wend`). No host operation
  writes an argument array, and no later operation writes an array of the region.

  `run_of` is the run for ANY proof data of the body that reads its arrays off the entry contents, deals the point
  array by halves, keeps the class's invariant (the scoped buffers no window stages, the generator register), owes
  nothing, and meets the body obligation; `frame_of_run` reads the two argument arrays off its post.
-/
import proofs.«175511_j20572893348487_1_alg».proof.Proof.KernelIdealMain

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Two assertions that entail each other are one assertion. -/
theorem eq_of_biEntails {M : Type} [URA M] {P Q : sProp M} (h : P ⊣⊢ Q) : P = Q := h.mp.antisymm h.mpr

/-- The distinct buffers behind the seven windows' arrays: the row block and the column block read ONE array. -/
theorem arrImage : Finset.univ.image (Pipeline.arrRef spec0) = [main_arg0, main_v3, main_v4, main_v0, main_v5, main_v6].toFinset := by decide

/-- Proof data that deals the shared array to its two windows by halves, and holds every other input array whole. -/
structure Halves {c : Dev nD} (dat : Dat τ (Elt F) Unit ℕ (UR sig nD τ) ℕ cfg0 c) : Prop where
  q0 : dat.q 0 = fullShare.left
  q1 : dat.q 1 = fullShare.right
  q2 : dat.q 2 = fullShare
  q3 : dat.q 3 = fullShare
  q4 : dat.q 4 = fullShare
  q5 : dat.q 5 = fullShare

/-- The windows' arrays at contents read off one valuation `W` of the buffers, each at its window's share. -/
theorem arrays_pts {c : Dev nD} (dat : Dat τ (Elt F) Unit ℕ (UR sig nD τ) ℕ cfg0 c)
    (W : (b : Ref sig .tc) → Buf (Elt F) ((c.tc : Thread nD τ).loc b))
    (A : (w : Fin cfg0.W) → Buf (Elt F) ((cfg0.win w).arr.view.loc (c.tc : Thread nD τ)))
    (hA : ∀ w, A w = W (Pipeline.arrRef spec0 w)) :
    (dat.arrays A : sProp 𝕄) = bigSep Finset.univ fun w : Fin cfg0.W =>
      (((c.tc : Thread nD τ).loc (Pipeline.arrRef spec0 w)) ↦{dat.share w} W (Pipeline.arrRef spec0 w) : sProp 𝕄) := by
  unfold Dat.arrays
  exact bigSep_congr fun w _ => by rw [(arr_whole0 w).set_eq_univ, hA w]

/-- The windows' arrays, the shared one held by halves, ARE the six distinct buffers each held whole, when the two
    windows on the shared array are given the same contents: the two halves of one points-to make the whole. -/
theorem arrays_eq_arrBufs {c : Dev nD} (dat : Dat τ (Elt F) Unit ℕ (UR sig nD τ) ℕ cfg0 c) (hq : Halves dat)
    (W : (b : Ref sig .tc) → Buf (Elt F) ((c.tc : Thread nD τ).loc b))
    (A : (w : Fin cfg0.W) → Buf (Elt F) ((cfg0.win w).arr.view.loc (c.tc : Thread nD τ)))
    (hA : ∀ w, A w = W (Pipeline.arrRef spec0 w)) :
    (dat.arrays A : sProp 𝕄) = Pipeline.arrBufs spec0 c W := by
  have s0 : dat.share 0 = fullShare.left := by unfold Dat.share; rw [if_neg (by decide), hq.q0]
  have s1 : dat.share 1 = fullShare.right := by unfold Dat.share; rw [if_neg (by decide), hq.q1]
  have s2 : dat.share 2 = fullShare := by unfold Dat.share; rw [if_neg (by decide), hq.q2]
  have s3 : dat.share 3 = fullShare := by unfold Dat.share; rw [if_neg (by decide), hq.q3]
  have s4 : dat.share 4 = fullShare := by unfold Dat.share; rw [if_neg (by decide), hq.q4]
  have s5 : dat.share 5 = fullShare := by unfold Dat.share; rw [if_neg (by decide), hq.q5]
  have s6 : dat.share 6 = fullShare := by unfold Dat.share; rw [if_pos (by decide)]
  rw [arrays_pts dat W A hA, bigSep_W0]
  unfold Pipeline.arrBufs
  rw [bigSep_eq_bigSepL_of_eq _ arrImage (by decide)]
  simp only [bigSepL_cons_cons, bigSepL_singleton]
  rw [s0, s1, s2, s3, s4, s5, s6]
  show iprop(((c.tc : Thread nD τ).loc main_arg0 ↦{fullShare.left} W main_arg0) ∗ ((c.tc : Thread nD τ).loc main_arg0 ↦{fullShare.right} W main_arg0) ∗ _) = _
  rw [← eq_of_biEntails Laws.sep_assoc, ← eq_of_biEntails (pointsTo_share (PosShare.mem_left_op_right fullShare))]
  rfl

/-! ## The operations after the region -/

section Tail

variable (dats : (p : Fin 1) → (c : Dev nD) → Dat τ (Elt F) Unit ℕ (UR sig nD τ) ℕ (cfgs p) c)

/-- The buffers' contents when the region is left: as it was entered, but for the region's result. -/
def Wexit (c : Dev nD) : Valuation τ sig (Elt F) := fun b =>
  if h : Proc.devRef .tc main_v6 = b then cast (congrArg (fun b' : DevRef τ sig => b'.ty.Contents (Elt F)) h) ((dats 0 c).arrAt 6 cfg0.N)
  else V0 m c b

/-- The buffers' contents at the end: the twenty-one later operations run from there. -/
def Wend (c : Dev nD) : Valuation τ sig (Elt F) := StableHlo.after (List.flatten [hostOps1]) (Wexit m dats c)

/-- No later operation writes an array of the region. -/
theorem tail_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

end Tail

section Launch

variable (dats : (p : Fin 1) → (c : Dev nD) → Dat τ (Elt F) Unit ℕ (UR sig nD τ) ℕ (cfgs p) c)

/-- The one output window is the seventh, and it alone stages the result array. -/
theorem out_of_arr : ∀ w : Fin cfg0.W, Pipeline.arrRef spec0 w = main_v6 → (cfg0.win w).isOut = true := by decide
theorem six_of_out : ∀ w : Fin cfg0.W, (cfg0.win w).isOut = true → w = 6 := by decide

/-- When the region is left, each window's array holds what the valuation at the exit says: the result what the
    region wrote, an input (never written) its entry contents. -/
theorem Wexit_arr (hA : ∀ c w, (dats 0 c).A w = V m c (Pipeline.arrRef spec0 w)) (c : Dev nD) (w : Fin cfg0.W) :
    (dats 0 c).arrAt w cfg0.N = Wexit m dats c (Proc.devRef .tc (Pipeline.arrRef spec0 w)) := by
  by_cases hw : (cfg0.win w).isOut = true
  · obtain rfl := six_of_out w hw
    unfold Wexit; rw [dif_pos rfl]; rfl
  · have hw' : (cfg0.win w).isOut = false := by simpa using hw
    unfold Wexit
    rw [dif_neg (fun e => hw (out_of_arr w (Proc.devRef_injective _ e).symm)), Dat.arrAt_in (dats 0 c) w hw', hA]

/-- The later operations write no array, so at the end the arrays hold the same. -/
theorem Wend_arr (hA : ∀ c w, (dats 0 c).A w = V m c (Pipeline.arrRef spec0 w)) (c : Dev nD) (w : Fin cfg0.W) :
    (dats 0 c).arrAt w cfg0.N = Wend m dats c (Proc.devRef .tc (Pipeline.arrRef spec0 w)) := by
  unfold Wend
  rw [StableHlo.after_of_forall_not_mem _ _ fun op hop => ?_]
  · exact Wexit_arr m dats hA c w
  · simp only [List.flatten_cons, List.flatten_nil, List.append_nil] at hop
    exact tail_keeps op hop w

/-- A buffer that is no window's array holds at the exit what it held at the entry. -/
theorem Wexit_rest (c : Dev nD) (b : Ref sig .tc) (hb : b ∈ Pipeline.restRefs sig spec0) :
    Wexit m dats c (Proc.devRef .tc b) = V m c b := by
  unfold Wexit
  rw [dif_neg]
  intro e
  have : b = Pipeline.arrRef spec0 6 := (Proc.devRef_injective _ e).symm
  exact (Finset.mem_sdiff.mp hb).2 (Finset.mem_image.mpr ⟨6, Finset.mem_univ _, this.symm⟩)

/-- The later operations touch unscoped buffers only, -/
theorem tail_sub : ∀ ops ∈ ([hostOps1] : List (List (HloOp τ sig (Elt F)))), ∀ op ∈ ops, op.bufs ⊆ Pipeline.ucRefs τ sig := by
  intro ops hops op hop
  simp only [List.mem_cons, List.mem_nil_iff, or_false] at hops
  rcases hops with rfl
  exact Pipeline.sub_ucRefs op ((List.forall_iff_forall_mem.mp hostOps1_sub) op hop)
/-- and allocate nothing. -/
theorem tail_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- The arrays as the region leaves them, beside the bypassing buffers as it found them, are all the unscoped
    buffers held at the exit contents. -/
theorem exit_held (hq : ∀ c, Halves (dats 0 c)) (hA : ∀ c w, (dats 0 c).A w = V m c (Pipeline.arrRef spec0 w)) (c : Dev nD) :
    (iprop((dats 0 c).arrays ((dats 0 c).arrAt · cfg0.N) ∗ Pipeline.unscopedRestP Pipeline.Prefetch.none spec0 c (V m c)) : sProp 𝕄)
      = StableHlo.held (c.tc : Thread nD τ) (Pipeline.ucRefs τ sig) (Wexit m dats c) := by
  rw [arrays_eq_arrBufs (dats 0 c) (hq c) (fun b => Wexit m dats c (Proc.devRef .tc b)) _ (Wexit_arr m dats hA c),
    Pipeline.unscopedRestP_none,
    show (Pipeline.unscopedRest spec0 c (V m c) : sProp 𝕄) = Pipeline.unscopedRest spec0 c (fun b => Wexit m dats c (Proc.devRef .tc b)) from
      bigSep_congr fun b hb => by dsimp only; rw [Wexit_rest m dats c b hb],
    ← Pipeline.unscopedBufs_split₀ cfgs 0 winFacts₀0.arr_unscoped c (fun b => Wexit m dats c (Proc.devRef .tc b))]
  exact Pipeline.unscopedBufs_held c (Wexit m dats c)

/-- And at the end: the arrays, unchanged, beside the bypassing buffers as the later operations leave them. -/
theorem end_held (hq : ∀ c, Halves (dats 0 c)) (hA : ∀ c w, (dats 0 c).A w = V m c (Pipeline.arrRef spec0 w)) (c : Dev nD) :
    (iprop((dats 0 c).arrays ((dats 0 c).arrAt · cfg0.N) ∗ Pipeline.unscopedRestP Pipeline.Prefetch.none spec0 c (fun b => Wend m dats c (Proc.devRef .tc b))) : sProp 𝕄)
      = StableHlo.held (c.tc : Thread nD τ) (Pipeline.ucRefs τ sig) (Wend m dats c) := by
  rw [arrays_eq_arrBufs (dats 0 c) (hq c) (fun b => Wend m dats c (Proc.devRef .tc b)) _ (Wend_arr m dats hA c),
    Pipeline.unscopedRestP_none,
    ← Pipeline.unscopedBufs_split₀ cfgs 0 winFacts₀0.arr_unscoped c (fun b => Wend m dats c (Proc.devRef .tc b))]
  exact Pipeline.unscopedBufs_held c (Wend m dats c)

set_option backward.isDefEq.respectTransparency.types false in
/-- THE RUN. For any proof data that reads its arrays off the region-entry contents, deals the shared array by halves,
    keeps the class's invariant, owes nothing and meets the body obligation: every weakly fair execution of @main
    terminates, every array of the region ends at what the proof data computes, and every other unscoped buffer at what
    the later operations leave. -/
theorem run_of (hq : ∀ c, Halves (dats 0 c)) (hA : ∀ c w, (dats 0 c).A w = V m c (Pipeline.arrRef spec0 w))
    (hΦ : ∀ c t, (dats 0 c).Φ t = Pipeline.ΦA spec0 c) (howed : ∀ c t, (dats 0 c).owed t = 0)
    (hbody : ∀ c, Pipeline.BodyObligationLoose (dats 0 c) defs₀ Variants.none () Set.univ) :
    θ_run defs (onTc (τ := τ) (main (F := F))) (s₀ m ρ)
      (Pipeline.FramePost cfgs dats 0 (fun c b => Wend m dats c (Proc.devRef .tc b))) := by
  classical
  exact Pipeline.θ_run_region_pf_tail (fun q => (cfgs q).toPCfg (Val := Elt F)) (fun q => (cfgs q).toPCfg_adm) dats () cellOf_inj (0 : Fin 1)
    winFacts₀0 (Pipeline.OwnSemFacts.none spec0) (Pipeline.PreFacts.none _) emb₁ defs₀ Variants.none m ρ main
    (fun _ => Pipeline.chain [StableHlo.seq hostOps1]) hbody block_pos0 arr_whole0 stage_whole0 howed
    (G := fun _ => iprop(emp)) (u₀ := initOf (Pipeline.cells (Pipeline.pin (fun q => (cfgs q).toPCfg (Val := Elt F)) fun q => (cfgs q).toPCfg_adm) cellOf_inj) (Pipeline.launchToks (Pipeline.pin (fun q => (cfgs q).toPCfg (Val := Elt F)) fun q => (cfgs q).toPCfg_adm) cellOf_inj))
    (hu₀ := by
      iintro Hu; imodintro
      isplitl [Hu]; · iapply (show (ownU _ : sProp 𝕄) ⊢ BI.own (emb₁ (initOf (Pipeline.cells (Pipeline.pin (fun q => (cfgs q).toPCfg (Val := Elt F)) fun q => (cfgs q).toPCfg_adm) cellOf_inj) (Pipeline.launchToks (Pipeline.pin (fun q => (cfgs q).toPCfg (Val := Elt F)) fun q => (cfgs q).toPCfg_adm) cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => Entails.of_eq (arrays_eq_arrBufs (dats 0 c) (hq c) (V m c) _ (fun w => hA c w)).symm)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c (fun b => Wend m dats c (Proc.devRef .tc b)))
    (hX := fun c => by
      iintro ⟨HU, -, -, -, Hp, -⟩; imodintro
      isplitl [Hp]; · iexists _; iexact Hp
      iexact HU)
    (hin := fun c => by
      rw [hΦ]; unfold Pipeline.ΦA
      iintro ⟨Hp, -, Hr⟩
      isplitl [Hr] <;> iassumption)
    (hout := fun c => by
      rw [hΦ, Pipeline.ownSems0_none]; unfold Pipeline.ΦA
      iintro ⟨Hr, Hp⟩
      isplitl [Hp]; · iexact Hp
      isplitr; · iempintro
      iexact Hr)
    (htail := fun c Q' => by
      rw [end_held m dats hq hA c, exit_held m dats hq hA c,
        show ([StableHlo.seq hostOps1] : List _) = ([hostOps1].map StableHlo.seq ++ []) from rfl]
      iintro ⟨Hk, Hb⟩
      iapply (Pipeline.wp_seqs_then (fun q => (cfgs q).toPCfg (Val := Elt F)) defs₀ Variants.none c (Pipeline.ucRefs τ sig) [] [hostOps1] tail_sub tail_fresh (Wexit m dats c)) $$ Hb
      iintro Hb
      rw [Pipeline.chain_nil, wp_pure]
      imodintro
      iapply Hk
      icases Hb with ⟨-, H⟩
      iexact H)
    (QY := fun c s => ∀ b ∈ Pipeline.restRefsP sig Pipeline.Prefetch.none spec0, s.mem ((c.tc : Thread nD τ).loc b) = Wend m dats c (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b) (fun b => Wend m dats c (Proc.devRef .tc b)) s')
      isplitl [HU] <;> iassumption)
    (hQ := fun s h c => ⟨(h c).1, Pipeline.rest_of_restP Pipeline.Prefetch.none spec0 (fun k => k.elim0) c (fun b => Wend m dats c (Proc.devRef .tc b)) s
      (fun k => k.elim0) (h c).2.1 (h c).2.2⟩)

end Launch

section Frame

variable (dats : (p : Fin 1) → (c : Dev nD) → Dat τ (Elt F) Unit ℕ (UR sig nD τ) ℕ (cfgs p) c)

/-- No operation before the region writes an argument: the region finds both as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No operation after the region writes the label argument. -/
theorem tail_main_arg1 (W : Valuation τ sig (Elt F)) :
    StableHlo.after (List.flatten [hostOps1]) W (Proc.devRef .tc main_arg1) = W (Proc.devRef .tc main_arg1) :=
  StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- At the end the label argument is as launched: no window stages it, and no host operation writes it. -/
theorem Wend_main_arg1 (c : Dev nD) : Wend m dats c (Proc.devRef .tc main_arg1) = m ((c : Thread nD τ).loc main_arg1) := by
  unfold Wend
  rw [tail_main_arg1]
  unfold Wexit
  rw [dif_neg (StableHlo.devRef_ne_of_ne (by decide))]
  exact V_main_arg1 m c

/-- THE FRAME from the run: the point array is an input window's array, never written back, so it ends at its entry
    contents, which are the launch contents; the label array bypasses the region. -/
theorem frame_of_run (hA : ∀ c w, (dats 0 c).A w = V m c (Pipeline.arrRef spec0 w))
    (h : θ_run defs (onTc (τ := τ) (main (F := F))) (s₀ m ρ) (Pipeline.FramePost cfgs dats 0 (fun c b => Wend m dats c (Proc.devRef .tc b)))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans ((Dat.arrAt_in (dats 0 c) 0 rfl cfg0.N).trans ((hA c 0).trans (V_main_arg0 m c))),
     ((h c).2 main_arg1 (Pipeline.mem_restRefs_of main_arg1 (by decide) (by decide))).trans (Wend_main_arg1 m dats c)⟩) h

end Frame

end Cert.KernelIdeal.Hand

end
-- ==== Proof.KernelIdealBody.lean ====
/-
  The body of the pair-loss kernel at one grid point, and the proof data of its pipeline.

  The grid is 8 row blocks by 16 column blocks, walked row block by row block. At a point the body reads six input
  blocks (the rows of the row block and of the column block, their squared norms, their labels) and adds, to the
  [1024, 4] output block of the row block, four row sums over the point's [1024, 512] tile; at the first column block
  it first stores the zero block there. So the output block is an accumulator carried across the sixteen points of a
  row block: what it holds after a point is `step` of the point's inputs over the zero block (first column block) or
  over what the point before left (`outAt`, by recursion on the point). The body is run once for each of the two
  cases on symbolic staging memrefs (`kernelRun_A`, `kernelRun_B`); the body obligation at a point picks the case by
  the closed form of the branch condition over the grid.
-/
import proofs.«175511_j20572893348487_1_alg».proof.Proof.KernelIdealMain
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The body's one branch: the reset of the accumulator at the first column block -/

/-- The condition of the body's conditional, from the grid coordinates: the column-block coordinate is zero. -/
abbrev cond0 (i : grid0.Coords) : Prop :=
  (Scalar.cmpi .ne (Scalar.extui (Scalar.cmpi .eq (BitVec.ofNat 32 (i 1).val) 0#32)) 0#32) = 1#1

/-- It holds exactly at the first of every sixteen consecutive points — decided over the grid. -/
theorem hcond0 : ∀ t : Fin cfg0.N, cond0 (grid0.coords t) ↔ t.val % 16 = 0 :=
  (by decide +kernel : ∀ t : Fin grid0.N, cond0 (grid0.coords t) ↔ t.val % 16 = 0)

/-- The column-block coordinate of a point is zero exactly at those points. -/
theorem coord1_zero_iff : ∀ t : Fin cfg0.N, ((grid0.coords t) 1).val = 0 ↔ t.val % 16 = 0 :=
  (by decide +kernel : ∀ t : Fin grid0.N, ((grid0.coords t) 1).val = 0 ↔ t.val % 16 = 0)

/-- The row-block and column-block coordinates of a point in closed form. -/
theorem coord0_val : ∀ t : Fin cfg0.N, ((grid0.coords t) 0).val = t.val / 16 :=
  (by decide +kernel : ∀ t : Fin grid0.N, ((grid0.coords t) 0).val = t.val / 16)
theorem coord1_val : ∀ t : Fin cfg0.N, ((grid0.coords t) 1).val = t.val % 16 :=
  (by decide +kernel : ∀ t : Fin grid0.N, ((grid0.coords t) 1).val = t.val % 16)

theorem hz2 : (![0, 0] : Fin 2 → Nat) = fun _ => 0 := funext fun a => by fin_cases a <;> rfl

/-! ## What one point leaves in the accumulator -/

/-- What the body at grid coordinates `i` leaves in the output block, from the six input blocks and the block's
    contents `prev` when the accumulation is entered: `prev` plus the four row sums of the point's tile. -/
def step (i : grid0.Coords) (x0 : Vec F S1024x128 .f32) (x1 : Vec F S512x128 .f32) (x2 : Vec F S1024x1 .f32)
    (x3 : Vec F S1x512 .f32) (x4 : Vec F S1024x1 .i32) (x5 : Vec F S1x512 .i32) (prev : Vec F S1024x4 .f32) :
    Vec F S1024x4 .f32 :=
  k0_pay5 (k0_pay1 x0 x1 x2 x3) (k0_pay2 (F := F) x4 x5) (k0_pay3 (F := F) i x4 x5) (constantI S1024x512 1 1#1) prev

set_option maxHeartbeats 1000000 in
/-- The body at a point of the first column block: on whole staging memrefs, the inputs' at contents `x0 … x5` and
    the output's at anything, it runs to the continuation holding the inputs' as they were and the output's at
    `step` of the inputs over the zero block (the reset stores it, the accumulation reads it back). -/
theorem kernelRun_A (c : Dev nD) (E : Set ℕ) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S1024x1 .i32) (harg6 : arg6.IsWhole) (arg7 : Memref sig .tc .vmem S1x512 .i32) (harg7 : arg7.IsWhole)
    (arg8 : Memref sig .tc .vmem S1024x4 .f32) (harg8 : arg8.IsWhole) (hc : cond0 i)
    (x0 : Vec F S1024x128 .f32) (x1 : Vec F S512x128 .f32) (x2 : Vec F S1024x1 .f32)
    (x3 : Vec F S1x512 .f32) (x4 : Vec F S1024x1 .i32) (x5 : Vec F S1x512 .i32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ (∃ d, owns (c : Thread nD τ) arg8 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (step i x0 x1 x2 x3 x4 x5 (k0_pay4 (F := F)))) -∗ K ⟨⟩))
      ⊢ wp frame (wpE (defs₀ (F := F)) Variants.none c none) E
          (cc0__pair_kernel i arg2 harg2 arg3 harg3 arg4 harg4 arg5 harg5 arg6 harg6 arg7 harg7 arg8 harg8) K := by
  simp only [cc0__pair_kernel_eq_skeleton]; unfold cc0__pair_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [View.read_writes_eq_canon _ _ _ (fun y => ⟨_, List.mem_cons_self, View.mem_set_unit_zero hz2 inb_S1024x4_S1024x4_0_0 y⟩),
    View.canon_cons_unit_zero (S := S1024x4) hz2]
  sl_unfold_run_names
  unfold step
  rw [View.readCov_unit_zero (S := S1024x4) _ hz2]
  rw [View.readAt_eq_ld arg2.view, View.readAt_eq_ld arg3.view, View.readAt_eq_ld arg4.view, View.readAt_eq_ld arg5.view,
    View.readAt_eq_ld arg6.view, View.readAt_eq_ld arg7.view, hf0, hf1, hf2, hf3, hf4, hf5,
    View.ld_unit_zero (S := S1024x128) hz2, View.ld_unit_zero (S := S512x128) hz2, View.ld_unit_zero (S := S1024x1) hz2,
    View.ld_unit_zero (S := S1x512) hz2, View.ld_unit_zero (S := S1024x1) hz2, View.ld_unit_zero (S := S1x512) hz2]

set_option maxHeartbeats 1000000 in
/-- The body at a point of a later column block: the same, the output's staging memref entered at the running
    contents `xo` and left at `step` of the inputs over `xo`. -/
theorem kernelRun_B (c : Dev nD) (E : Set ℕ) (i : grid0.Coords)
    (arg2 : Memref sig .tc .vmem S1024x128 .f32) (harg2 : arg2.IsWhole) (arg3 : Memref sig .tc .vmem S512x128 .f32) (harg3 : arg3.IsWhole)
    (arg4 : Memref sig .tc .vmem S1024x1 .f32) (harg4 : arg4.IsWhole) (arg5 : Memref sig .tc .vmem S1x512 .f32) (harg5 : arg5.IsWhole)
    (arg6 : Memref sig .tc .vmem S1024x1 .i32) (harg6 : arg6.IsWhole) (arg7 : Memref sig .tc .vmem S1x512 .i32) (harg7 : arg7.IsWhole)
    (arg8 : Memref sig .tc .vmem S1024x4 .f32) (harg8 : arg8.IsWhole) (hc : ¬cond0 i)
    (x0 : Vec F S1024x128 .f32) (x1 : Vec F S512x128 .f32) (x2 : Vec F S1024x1 .f32)
    (x3 : Vec F S1x512 .f32) (x4 : Vec F S1024x1 .i32) (x5 : Vec F S1x512 .i32) (xo : Vec F S1024x4 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare x4 ∗ owns (c : Thread nD τ) arg7 fullShare x5
        ∗ owns (c : Thread nD τ) arg8 fullShare xo
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare x4 ∗ owns (c : Thread nD τ) arg7 fullShare x5
            ∗ owns (c : Thread nD τ) arg8 fullShare (step i x0 x1 x2 x3 x4 x5 xo)) -∗ K ⟨⟩))
      ⊢ wp frame (wpE (defs₀ (F := F)) Variants.none c none) E
          (cc0__pair_kernel i arg2 harg2 arg3 harg3 arg4 harg4 arg5 harg5 arg6 harg6 arg7 harg7 arg8 harg8) K := by
  simp only [cc0__pair_kernel_eq_skeleton]; unfold cc0__pair_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2
  obtain rfl := harg5.eq_unread hf3; obtain rfl := harg6.eq_unread hf4; obtain rfl := harg7.eq_unread hf5
  obtain rfl := harg8.eq_unread hf6
  sl_exec (disch := first | exact hc)
  sl_step
  iapply Hk
  isplitl [H0]
  · iexists _; isplitr; · ipureintro; exact hf0
    iexact H0
  isplitl [H1]
  · iexists _; isplitr; · ipureintro; exact hf1
    iexact H1
  isplitl [H2]
  · iexists _; isplitr; · ipureintro; exact hf2
    iexact H2
  isplitl [H3]
  · iexists _; isplitr; · ipureintro; exact hf3
    iexact H3
  isplitl [H4]
  · iexists _; isplitr; · ipureintro; exact hf4
    iexact H4
  isplitl [H5]
  · iexists _; isplitr; · ipureintro; exact hf5
    iexact H5
  iexists _; isplitr
  swap; · iexact H6
  ipureintro
  rw [View.read_writes_eq_canon _ _ _ (fun y => ⟨_, List.mem_cons_self, View.mem_set_unit_zero hz2 inb_S1024x4_S1024x4_0_0 y⟩),
    View.canon_cons_unit_zero (S := S1024x4) hz2]
  sl_unfold_run_names
  unfold step
  rw [View.readAt_eq_ld arg2.view, View.readAt_eq_ld arg3.view, View.readAt_eq_ld arg4.view, View.readAt_eq_ld arg5.view,
    View.readAt_eq_ld arg6.view, View.readAt_eq_ld arg7.view, hf0, hf1, hf2, hf3, hf4, hf5,
    View.ld_unit_zero (S := S1024x128) hz2, View.ld_unit_zero (S := S512x128) hz2, View.ld_unit_zero (S := S1024x1) hz2,
    View.ld_unit_zero (S := S1x512) hz2, View.ld_unit_zero (S := S1024x1) hz2, View.ld_unit_zero (S := S1x512) hz2]
  rw [View.readAt_eq_ld arg8.view, hf6, View.ld_unit_zero (S := S1024x4) hz2]

variable (m : (ℓ : Loc nD τ sig) → Buf (Elt F) ℓ)

/-! ## The staging memrefs at a point, spelt as the pipeline passes them -/

abbrev ms0_0 (t : Fin cfg0.N) : Memref sig .tc .vmem S1024x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1024x1 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1024x4 .f32 := win0_6.stage (cfg0.slots t 6)
abbrev hs0_6 (t : Fin cfg0.N) : (ms0_6 t).IsWhole := hstage0_6 ((cfg0.slots t 6).cast nbuf0_6)

/-! ## What the accumulator holds after each point -/

/-- What the body at point `t` leaves in the output block when it enters the accumulation at `prev`: `step` at the
    point's coordinates and its six input blocks. -/
def stepAt (c : Dev nD) (t : Fin cfg0.N) (prev : Vec F S1024x4 .f32) : Vec F S1024x4 .f32 :=
  step (grid0.coords t) (iblk m c 0 t) (iblk m c 1 t) (iblk m c 2 t) (iblk m c 3 t) (iblk m c 4 t) (iblk m c 5 t) prev

/-- THE ACCUMULATION. What the output's staging buffer holds after the body at position `n`: at the first of every
    sixteen consecutive points (the first column block of a row block) the point's step over the zero block, at every
    other point the point's step over what the point before left. -/
def outAt (c : Dev nD) : (n : ℕ) → n < cfg0.N → Vec F S1024x4 .f32
  | 0, hn => stepAt m c ⟨0, hn⟩ (k0_pay4 (F := F))
  | n + 1, hn =>
    if (n + 1) % 16 = 0 then stepAt m c ⟨n + 1, hn⟩ (k0_pay4 (F := F))
    else stepAt m c ⟨n + 1, hn⟩ (outAt c n (Nat.lt_of_succ_lt hn))

/-- `outAt` at a point that resets: the step over the zero block. -/
theorem outAt_reset (c : Dev nD) : ∀ (n : ℕ) (h : n < cfg0.N), n % 16 = 0 → outAt m c n h = stepAt m c ⟨n, h⟩ (k0_pay4 (F := F))
  | 0, _, _ => rfl
  | _ + 1, _, h0 => if_pos h0

/-- `outAt` at a point that does not: the step over what the point before left. -/
theorem outAt_acc (c : Dev nD) (n : ℕ) (h : n + 1 < cfg0.N) (h0 : ¬(n + 1) % 16 = 0) :
    outAt m c (n + 1) h = stepAt m c ⟨n + 1, h⟩ (outAt m c n (Nat.lt_of_succ_lt h)) :=
  if_neg h0

/-- The same two equations at a point of the grid. -/
theorem outAt_A (c : Dev nD) (t : Fin cfg0.N) (h0 : t.val % 16 = 0) :
    outAt m c t.val t.isLt = stepAt m c t (k0_pay4 (F := F)) :=
  outAt_reset m c t.val t.isLt h0

theorem outAt_B (c : Dev nD) (t : Fin cfg0.N) (h0 : ¬t.val % 16 = 0) :
    outAt m c t.val t.isLt = stepAt m c t (outAt m c (t.val - 1) (Nat.lt_of_le_of_lt (Nat.sub_le _ _) t.isLt)) := by
  obtain ⟨n, hn⟩ := t
  cases n with
  | zero => exact absurd (Nat.zero_mod _) h0
  | succ n => exact outAt_acc m c n hn h0

/-! ## The pipeline's proof data -/

/-- The proof data of the one pipeline on core `c`: the arrays as the region finds them; after the body at point `t`
    each input's buffer at its block (the body only reads them) and the output's at `outAt`; the invariant the scoped
    rest and the generator register, which the body does not touch; nothing owed; the array the row-block window and
    the column-block window both stage held in two halves, every other array whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outAt m c t.val t.isLt
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
    | ⟨6, _⟩ => fullShare
  owed _ := 0

/-- The proof data's arrays are the region-entry contents (the definition projected, the fold over the host
    operations before the region never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outAt m c t.val t.isLt := by dsimp only [dats]

/-- The shares, window by window. -/
theorem q0 (c : Dev nD) : (dats m 0 c).q 0 = fullShare.left := by dsimp only [dats]
theorem q1 (c : Dev nD) : (dats m 0 c).q 1 = fullShare.right := by dsimp only [dats]
theorem q2 (c : Dev nD) : (dats m 0 c).q 2 = fullShare := by dsimp only [dats]
theorem q3 (c : Dev nD) : (dats m 0 c).q 3 = fullShare := by dsimp only [dats]
theorem q4 (c : Dev nD) : (dats m 0 c).q 4 = fullShare := by dsimp only [dats]
theorem q5 (c : Dev nD) : (dats m 0 c).q 5 = fullShare := by dsimp only [dats]
theorem q6 (c : Dev nD) : (dats m 0 c).q 6 = fullShare := by dsimp only [dats]

/-- The invariant and the tallies owed, at every position. -/
theorem Phi_eq (c : Dev nD) (t : Fin (cfg0.N + 1)) : (dats m 0 c).Φ t = Pipeline.ΦA spec0 c := by dsimp only [dats]
theorem owed_eq (c : Dev nD) (t : Fin (cfg0.N + 1)) : (dats m 0 c).owed t = 0 := by dsimp only [dats]

/-! ## What the body finds in each staging buffer -/

/-- An input window's current staging buffer holds its block at every point, fetched there or not: the body leaves the
    block in place, and where the pipeline does not fetch, the block index has not moved. -/
theorem before0_0 (c : Dev nD) (t : Fin cfg0.N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)

/-- At a point that does not reset, the output's current staging buffer holds what the body left at the point before:
    the point is not the first and the buffer was not written back between (write-backs follow the points ≡ 15 mod 16). -/
theorem before0_6_B (c : Dev nD) (t : Fin cfg0.N) (h0 : ¬t.val % 16 = 0) (d) :
    (dats m 0 c).before 6 t d = outAt m c (t.val - 1) (Nat.lt_of_le_of_lt (Nat.sub_le _ _) t.isLt) := by
  have hN : t.val < 128 := lt_of_lt_of_eq t.isLt (show cfg0.N = 128 from N_0)
  rw [Dat.before_out_kept _ 6 rfl t (by omega) (Bool.eq_false_iff.mpr fun h => by have := (flush0_6 _).mp h; dsimp only at this; omega)
    (fun _ => rfl) (fun _ _ => rfl)]
  dsimp only [dats]

/-! ## The body obligation, at a generic point -/

/-- What the body is called with at point `t` (the obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t))

set_option maxHeartbeats 800000 in
/-- The body at any point: the inputs' memrefs hold their blocks; the closed form says whether the point resets the
    accumulator, and where it does not the output's memref holds what the point before left; so the matching run
    applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6]
  by_cases h0 : t.val % 16 = 0
  · rw [outAt_A m c t h0]
    unfold stepAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply (kernelRun_A c Set.univ (grid0.coords t) _ _ _ _ _ _ _ _ _ _ _ _ _ _ ((hcond0 t).mpr h0)
      (iblk m c 0 t) (iblk m c 1 t) (iblk m c 2 t) (iblk m c 3 t) (iblk m c 4 t) (iblk m c 5 t) _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [outAt_B m c t h0]
    simp only [before0_6_B m c t h0]
    unfold stepAt
    iintro ⟨HΦ, Ho, ⟨%d0, H0⟩, ⟨%d1, H1⟩, ⟨%d2, H2⟩, ⟨%d3, H3⟩, ⟨%d4, H4⟩, ⟨%d5, H5⟩, ⟨%d6, H6⟩⟩
    iapply (kernelRun_B c Set.univ (grid0.coords t) _ _ _ _ _ _ _ _ _ _ _ _ _ _ (fun h => h0 ((hcond0 t).mp h))
      (iblk m c 0 t) (iblk m c 1 t) (iblk m c 2 t) (iblk m c 3 t) (iblk m c 4 t) (iblk m c 5 t) _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    iintro ⟨H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KernelIdealFrame.lean ====
/-
  The frame of the pair-loss kernel: the run of @main at the body's proof data. The body meets its obligation at
  every grid point (the accumulator zeroed at the first point of each stretch of sixteen, added to at the others);
  the row block and the column block read one array, each holding half of it; so every weakly fair execution
  terminates without a fault and both argument arrays end as launched.
-/
import proofs.«175511_j20572893348487_1_alg».proof.Proof.KernelIdealLaunch
import proofs.«175511_j20572893348487_1_alg».proof.Proof.KernelIdealBody

set_option maxRecDepth 16384

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

variable (m : (ℓ : Loc nD τ sig) → Buf (Elt F) ℓ) (ρ : Dev nD → PrngReg)

/-- The body's proof data deals the shared array by halves. -/
theorem halves (c : Dev nD) : Halves (dats m 0 c) := ⟨q0 m c, q1 m c, q2 m c, q3 m c, q4 m c, q5 m c⟩

/-- The run of @main: every array of the region ends at what the proof data computes, every other unscoped buffer at
    what the later operations leave. -/
theorem run_main : θ_run defs (onTc (τ := τ) (main (F := F))) (s₀ m ρ)
    (Pipeline.FramePost cfgs (dats m) 0 (fun c b => Wend m (dats m) c (Proc.devRef .tc b))) :=
  run_of m ρ (dats m) (halves m) (A_eq m) (Phi_eq m) (owed_eq m) (fun c => (body_obligation m c).loose)

/-- The frame: @main runs to the end, faults nowhere, and leaves both argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of_run m ρ (dats m) (A_eq m) (run_main m ρ)

end Cert.KernelIdeal.Hand

end
-- ==== Proof.Spec.lean ====
/-
  The pair loss as ONE function of the argument arrays, on the extended reals.

  For points x_0 … x_8191 in R^128 (rows of `x`) with labels `t`, put
    sq r      = Σ_k x r k · x r k
    dot r c   = Σ_k x r k · x c k
    dist r c  = √(max (sq r + sq c − 2 · dot r c) ε)            (ε the word of 1e-12)
  and, for every row r, four sums over all columns c:
    S₀ r = Σ_c [t r = t c ∧ r ≠ c] · exp (40 · (1 − dist r c))
    S₁ r = Σ_c [t r ≠ t c]         · exp (40 · (1 − dist r c))
    S₂ r = Σ_c [t r = t c ∧ r ≠ c] · exp (20 · (dist r c − 0.8))
    S₃ r = Σ_c [t r ≠ t c]         · exp (20 · (1.1 − dist r c))
  The loss is  ( Σ_r (1 − S₀ r / (S₀ r + S₁ r)) · (log (S₂ r) + log (S₃ r)) ) / 8192.
  Every float literal is kept as the word both programs print; none is evaluated.

  A sum over the 8192 columns is the sum, over the sixteen consecutive stretches of 512 columns,
  of the sums inside each stretch (`rowSum_blocks`): addition on the extended reals is commutative
  and associative, so no finiteness is needed.
-/
import Idealize.ShloMosaic.PureOps.Ideal
import Mathlib.Algebra.BigOperators.Fin
import Mathlib.Algebra.BigOperators.Group.Finset.Sigma

noncomputable section

namespace Cert.PairLoss

open Idealize.ShloMosaic

/-- The extended real an f32 word denotes. -/
abbrev w (b : BitVec 32) : EReal := Ideal.ofBits .f32 b

variable (x : Fin 8192 → Fin 128 → EReal) (t : Fin 8192 → BitVec 32)

/-- The squared norm of row `r`. -/
def sq (r : Fin 8192) : EReal := ∑ k : Fin 128, x r k * x r k

/-- The inner product of rows `r` and `c`. -/
def dot (r c : Fin 8192) : EReal := ∑ k : Fin 128, x r k * x c k

/-- The clamped Euclidean distance of rows `r` and `c`. -/
def dist (r c : Fin 8192) : EReal :=
  Ideal.sqrt (max (sq x r + sq x c - w 0x40000000#32 * dot x r c) (w 0x2B8CBCCC#32))

/-- Column `c` is a positive of row `r`: the same label, another point. -/
def Pos (r c : Fin 8192) : Prop := t r = t c ∧ r ≠ c

/-- Column `c` is a negative of row `r`: another label. -/
def Neg (r c : Fin 8192) : Prop := t r ≠ t c

instance (r c : Fin 8192) : Decidable (Pos t r c) := by unfold Pos; infer_instance
instance (r c : Fin 8192) : Decidable (Neg t r c) := by unfold Neg; infer_instance

/-- exp (40 · (1 − dist)). -/
def eMatch (r c : Fin 8192) : EReal := Ideal.exp (w 0x42200000#32 * (w 0x3F800000#32 - dist x r c))
/-- exp (20 · (dist − 0.8)). -/
def ePos (r c : Fin 8192) : EReal := Ideal.exp (w 0x41A00000#32 * (dist x r c - w 0x3F4CCCCD#32))
/-- exp (20 · (1.1 − dist)). -/
def eNeg (r c : Fin 8192) : EReal := Ideal.exp (w 0x41A00000#32 * (w 0x3F8CCCCD#32 - dist x r c))

/-- The summand of the `k`-th row sum at column `c`. -/
def term (k : Fin 4) (r c : Fin 8192) : EReal :=
  match k with
  | 0 => if Pos t r c then eMatch x r c else 0
  | 1 => if Neg t r c then eMatch x r c else 0
  | 2 => if Pos t r c then ePos x r c else 0
  | 3 => if Neg t r c then eNeg x r c else 0

/-- The `k`-th sum of row `r` over all columns. -/
def rowSum (k : Fin 4) (r : Fin 8192) : EReal := ∑ c : Fin 8192, term x t k r c

/-- Row `p` of the `a`-th stretch of 1024 rows. -/
def row (a : Fin 8) (p : Fin 1024) : Fin 8192 := ⟨1024 * a.val + p.val, by omega⟩

/-- Column `q` of the `j`-th stretch of 512 columns. -/
def col (j : Fin 16) (q : Fin 512) : Fin 8192 := ⟨512 * j.val + q.val, by omega⟩

/-- The part of the `k`-th sum of row `r` inside the `j`-th stretch of 512 columns. -/
def blockSum (k : Fin 4) (r : Fin 8192) (j : Fin 16) : EReal := ∑ q : Fin 512, term x t k r (col j q)

/-- The loss from the four row sums. -/
def tail (S : Fin 4 → Fin 8192 → EReal) : EReal :=
  Ideal.div (∑ r : Fin 8192, (w 0x3F800000#32 - Ideal.div (S 0 r) (S 0 r + S 1 r)) * (Ideal.log (S 2 r) + Ideal.log (S 3 r)))
    (w 0x46000000#32)

/-- The loss. -/
def loss : EReal := tail (fun k r => rowSum x t k r)

/-- The columns are the pairs (stretch, place in the stretch). -/
def colEquiv : Fin 16 × Fin 512 ≃ Fin 8192 where
  toFun p := col p.1 p.2
  invFun c := (⟨c.val / 512, by omega⟩, ⟨c.val % 512, Nat.mod_lt _ (by norm_num)⟩)
  left_inv p := by
    obtain ⟨⟨j, hj⟩, ⟨q, hq⟩⟩ := p
    simp only [col, Prod.mk.injEq, Fin.mk.injEq]
    constructor <;> omega
  right_inv c := by
    apply Fin.ext
    simp only [col]
    omega

/-- A row sum is the sum of its sixteen stretches. -/
theorem rowSum_blocks (k : Fin 4) (r : Fin 8192) : rowSum x t k r = ∑ j : Fin 16, blockSum x t k r j := by
  unfold rowSum blockSum
  rw [← Finset.sum_product', ← (colEquiv).sum_comp]
  rfl

end Cert.PairLoss

end
-- ==== Proof.LibDistForms.lean ====
/-
  The two ways of writing a Euclidean distance between points of ℝ³, on the extended reals.

  For real coordinates `x d`, `y d` (`d : Fin 3`), read as extended reals,
    √( max ( (0 + ∑ x·x) + (0 + ∑ y·y) − 2 · ∑ x·y , 0 ) )  =  √( 0 + ∑ (x − y)·(x − y) ),
  because on the reals  ∑ x² + ∑ y² − 2 ∑ x y = ∑ (x − y)² ≥ 0, so the clamp at zero is the identity; every
  extended-real operation involved maps real arguments to the real result, so the identity of reals transfers.
  The literal `2.0` is the f32 pattern `0x40000000`, the literal `0.0` the pattern `0x00000000`, and `+∞` the
  pattern `0x7F800000`. The mirror form has `x` and `y` exchanged on the right-hand side only (a squared
  difference does not see the order of subtraction). The law is also stated for extended-real coordinates that are
  known to be finite, and under the diagonal mask of a thresholded sum of pairwise distances. A fold of `min`
  over a finite index type may be rewritten pointwise.
-/
import Idealize.ShloMosaic.PureOps.Ideal
import Idealize.ShloMosaic.PureOps.Ideal.Laws
import Idealize.ShloMosaic.Lib.ValueIdx

open scoped BigOperators

namespace Cert.Lib.DistForms

open Idealize.ShloMosaic

/-! ## Literals -/

/-- The f32 pattern `0x40000000` denotes the real number 2. -/
theorem ofBits_two_f32 : Ideal.ofBits .f32 0x40000000#32 = ((2 : ℝ) : EReal) := by
  simp [Ideal.ofBits, Ideal.ieee, -EReal.coe_mul]; norm_num

/-- The f32 pattern `0x7F800000` denotes +∞. -/
theorem ofBits_inf_f32 : Ideal.ofBits .f32 0x7F800000#32 = ⊤ := by
  simp [Ideal.ofBits, Ideal.ieee]

/-- The f32 pattern `0x3F800000` denotes the real number 1. -/
theorem ofBits_one_f32 : Ideal.ofBits .f32 0x3F800000#32 = ((1 : ℝ) : EReal) := by
  simp [Ideal.ofBits, Ideal.ieee, -EReal.coe_mul]; norm_num

/-! ## Sums of three real terms, read as extended reals -/

/-- The coercion of a sum over three terms is the sum of the coercions. -/
theorem coe_sum3 (f : Fin 3 → ℝ) : (∑ d, ((f d : ℝ) : EReal)) = ((∑ d, f d : ℝ) : EReal) := by
  simp only [Fin.sum_univ_three, EReal.coe_add]

/-- The squared-difference form is the coercion of the real sum of squared differences. -/
theorem sqdiff_eq_coe (x y : Fin 3 → ℝ) :
    (0 + ∑ d, ((x d : EReal) - (y d : EReal)) * ((x d : EReal) - (y d : EReal)))
      = ((∑ d, (x d - y d) * (x d - y d) : ℝ) : EReal) := by
  simp only [← EReal.coe_sub, ← EReal.coe_mul, coe_sum3, zero_add]

/-- The real identity behind the law. -/
theorem real_expand (x y : Fin 3 → ℝ) :
    (∑ d, x d * x d) + (∑ d, y d * y d) - 2 * (∑ d, x d * y d) = ∑ d, (x d - y d) * (x d - y d) := by
  simp only [Fin.sum_univ_three]; ring

theorem real_sqdiff_nonneg (x y : Fin 3 → ℝ) : 0 ≤ ∑ d, (x d - y d) * (x d - y d) :=
  Finset.sum_nonneg fun d _ => mul_self_nonneg _

/-- The expanded form, clamped at zero, is the coercion of the same real sum. -/
theorem expanded_eq_coe (x y : Fin 3 → ℝ) :
    max ((0 + ∑ d, (x d : EReal) * (x d : EReal)) + (0 + ∑ d, (y d : EReal) * (y d : EReal))
          - Ideal.ofBits .f32 0x40000000#32 * ∑ d, (x d : EReal) * (y d : EReal))
        (Ideal.ofBits .f32 0x00000000#32)
      = ((∑ d, (x d - y d) * (x d - y d) : ℝ) : EReal) := by
  rw [ofBits_two_f32, Ideal.ofBits_zero_f32]
  simp only [← EReal.coe_mul, coe_sum3, zero_add, ← EReal.coe_add, ← EReal.coe_sub]
  rw [real_expand]
  exact max_eq_left (EReal.coe_nonneg.mpr (real_sqdiff_nonneg x y))

/-! ## The law -/

/-- THE LAW, for real coordinates. -/
theorem dist_forms (x y : Fin 3 → ℝ) :
    Ideal.sqrt (max ((0 + ∑ d, (x d : EReal) * (x d : EReal)) + (0 + ∑ d, (y d : EReal) * (y d : EReal))
          - Ideal.ofBits .f32 0x40000000#32 * ∑ d, (x d : EReal) * (y d : EReal))
        (Ideal.ofBits .f32 0x00000000#32))
      = Ideal.sqrt (0 + ∑ d, ((x d : EReal) - (y d : EReal)) * ((x d : EReal) - (y d : EReal))) := by
  rw [expanded_eq_coe, sqdiff_eq_coe]

/-- The mirror: the right-hand side subtracts in the other order. -/
theorem dist_forms_swap (x y : Fin 3 → ℝ) :
    Ideal.sqrt (max ((0 + ∑ d, (x d : EReal) * (x d : EReal)) + (0 + ∑ d, (y d : EReal) * (y d : EReal))
          - Ideal.ofBits .f32 0x40000000#32 * ∑ d, (x d : EReal) * (y d : EReal))
        (Ideal.ofBits .f32 0x00000000#32))
      = Ideal.sqrt (0 + ∑ d, ((y d : EReal) - (x d : EReal)) * ((y d : EReal) - (x d : EReal))) := by
  rw [expanded_eq_coe, sqdiff_eq_coe]
  refine congrArg Ideal.sqrt (congrArg _ (Finset.sum_congr rfl fun d _ => ?_))
  ring

/-! ## From finite extended reals to real witnesses -/

/-- A family of extended reals none of which is infinite is the coercion of a family of reals. -/
theorem exists_real_of_finite {ι : Type*} (x : ι → EReal) (h : ∀ j, x j ≠ ⊤ ∧ x j ≠ ⊥) :
    ∃ r : ι → ℝ, x = fun j => ((r j : ℝ) : EReal) :=
  ⟨fun j => (x j).toReal, funext fun j => (EReal.coe_toReal (h j).1 (h j).2).symm⟩

/-- The same with finiteness spelt as the negation of "is `⊤` or is `⊥`". -/
theorem exists_real_of_not_inf {ι : Type*} (x : ι → EReal) (h : ∀ j, ¬(x j = ⊤ ∨ x j = ⊥)) :
    ∃ r : ι → ℝ, x = fun j => ((r j : ℝ) : EReal) :=
  exists_real_of_finite x fun j => ⟨fun e => h j (Or.inl e), fun e => h j (Or.inr e)⟩

/-- THE LAW for finite extended-real coordinates. -/
theorem dist_forms_of_finite (x y : Fin 3 → EReal) (hx : ∀ d, x d ≠ ⊤ ∧ x d ≠ ⊥) (hy : ∀ d, y d ≠ ⊤ ∧ y d ≠ ⊥) :
    Ideal.sqrt (max ((0 + ∑ d, x d * x d) + (0 + ∑ d, y d * y d)
          - Ideal.ofBits .f32 0x40000000#32 * ∑ d, x d * y d)
        (Ideal.ofBits .f32 0x00000000#32))
      = Ideal.sqrt (0 + ∑ d, (x d - y d) * (x d - y d)) := by
  obtain ⟨rx, rfl⟩ := exists_real_of_finite x hx
  obtain ⟨ry, rfl⟩ := exists_real_of_finite y hy
  exact dist_forms rx ry

/-- The mirror for finite extended-real coordinates. -/
theorem dist_forms_swap_of_finite (x y : Fin 3 → EReal) (hx : ∀ d, x d ≠ ⊤ ∧ x d ≠ ⊥) (hy : ∀ d, y d ≠ ⊤ ∧ y d ≠ ⊥) :
    Ideal.sqrt (max ((0 + ∑ d, x d * x d) + (0 + ∑ d, y d * y d)
          - Ideal.ofBits .f32 0x40000000#32 * ∑ d, x d * y d)
        (Ideal.ofBits .f32 0x00000000#32))
      = Ideal.sqrt (0 + ∑ d, (y d - x d) * (y d - x d)) := by
  obtain ⟨rx, rfl⟩ := exists_real_of_finite x hx
  obtain ⟨ry, rfl⟩ := exists_real_of_finite y hy
  exact dist_forms_swap rx ry

/-- The law with the three sums NAMED: whatever a proof knows the two squared norms and the cross term to be. -/
theorem dist_forms_of_eq (x y : Fin 3 → EReal) (hx : ∀ d, x d ≠ ⊤ ∧ x d ≠ ⊥) (hy : ∀ d, y d ≠ ⊤ ∧ y d ≠ ⊥)
    (A B C : EReal) (hA : A = 0 + ∑ d, x d * x d) (hB : B = 0 + ∑ d, y d * y d) (hC : C = ∑ d, x d * y d) :
    Ideal.sqrt (max (A + B - Ideal.ofBits .f32 0x40000000#32 * C) (Ideal.ofBits .f32 0x00000000#32))
      = Ideal.sqrt (0 + ∑ d, (x d - y d) * (x d - y d)) := by
  subst hA hB hC; exact dist_forms_of_finite x y hx hy

/-- Its mirror. -/
theorem dist_forms_swap_of_eq (x y : Fin 3 → EReal) (hx : ∀ d, x d ≠ ⊤ ∧ x d ≠ ⊥) (hy : ∀ d, y d ≠ ⊤ ∧ y d ≠ ⊥)
    (A B C : EReal) (hA : A = 0 + ∑ d, x d * x d) (hB : B = 0 + ∑ d, y d * y d) (hC : C = ∑ d, x d * y d) :
    Ideal.sqrt (max (A + B - Ideal.ofBits .f32 0x40000000#32 * C) (Ideal.ofBits .f32 0x00000000#32))
      = Ideal.sqrt (0 + ∑ d, (y d - x d) * (y d - x d)) := by
  subst hA hB hC; exact dist_forms_swap_of_finite x y hx hy

/-! ## Re-indexing and pointwise rewriting -/

/-- A sum over a one-axis contraction index of extent three is the sum over `Fin 3` through the coordinate bijection. -/
theorem sum_contr3 {sl sr so : Shape} (D : DotDims sl sr so) (hr : D.contr.rank = 1)
    (hs : D.contr.size ⟨0, by omega⟩ = 3) (f : D.contr.Idx → EReal) :
    ∑ k, f k = ∑ d : Fin 3, f ((ValueIdx.contrEquiv1 D 3 hr hs).symm d) :=
  (Equiv.sum_comp (ValueIdx.contrEquiv1 D 3 hr hs).symm f).symm

/-- A fold of `min` from `⊤` over a finite index type may be rewritten pointwise. -/
theorem fold_min_congr {ι : Type*} [Fintype ι] (f g : ι → EReal) (h : ∀ m, f m = g m) :
    (Finset.univ : Finset ι).fold min ⊤ f = (Finset.univ : Finset ι).fold min ⊤ g := by
  rw [funext h]

/-- The same from any initial value. -/
theorem fold_min_congr' {ι : Type*} [Fintype ι] (init : EReal) (f g : ι → EReal) (h : ∀ m, f m = g m) :
    (Finset.univ : Finset ι).fold min init f = (Finset.univ : Finset ι).fold min init g := by
  rw [funext h]

end Cert.Lib.DistForms
-- ==== Proof.LibDivForms.lean ====
/-
  The thresholded sum of pairwise distances, on the extended reals: the pieces that are pure mathematics.

  A diagonal mask is computed by comparing two 32-bit coordinate words for equality; for coordinates below 2³² the
  comparison's bit is set exactly when the coordinates are equal, so a select on it is an `if` on that equality.
  Under the mask the two ways of writing a distance agree: on the diagonal both sides are the threshold itself
  (`min th th` on one side, `min ⊤ th` on the other), off the diagonal the law of the two distance forms applies.
  A sum over a rank-3 index set is the triple sum over its coordinates.
-/
import proofs.«175511_j20572893348487_1_alg».proof.Proof.LibDistForms

open scoped BigOperators

namespace Cert.Lib.DivForms

open Idealize.ShloMosaic Idealize.ShloMosaic.ValueIdx

/-! ## The mask bit -/

/-- Two naturals below 2³² are equal exactly when their 32-bit words are. -/
theorem ofNat32_inj {a b : Nat} (ha : a < 4294967296) (hb : b < 4294967296) :
    BitVec.ofNat 32 a = BitVec.ofNat 32 b ↔ a = b := by
  constructor
  · intro e
    have h := congrArg BitVec.toNat e
    simp only [BitVec.toNat_ofNat] at h
    omega
  · intro e; rw [e]

/-- The equality comparison of two coordinate words is the bit of the coordinates' equality. -/
theorem cmpi_eq_ofNat {a b : Nat} (ha : a < 4294967296) (hb : b < 4294967296) :
    IntOp.cmpi .eq (BitVec.ofNat 32 a) (BitVec.ofNat 32 b) = if a = b then 1#1 else 0#1 := by
  unfold IntOp.cmpi
  by_cases h : a = b
  · subst h; simp
  · rw [if_neg h]
    have hne : BitVec.ofNat 32 a ≠ BitVec.ofNat 32 b := fun e => h ((ofNat32_inj ha hb).mp e)
    have hb' : (BitVec.ofNat 32 a == BitVec.ofNat 32 b) = false := beq_eq_false_iff_ne.mpr hne
    rw [hb']; rfl

/-- The same with a zero word added to the left coordinate first. -/
theorem cmpi_eq_addi_zero {a b : Nat} (ha : a < 4294967296) (hb : b < 4294967296) :
    IntOp.cmpi .eq (IntOp.addi (BitVec.ofNat 32 a) 0#32) (BitVec.ofNat 32 b) = if a = b then 1#1 else 0#1 := by
  have : IntOp.addi (BitVec.ofNat 32 a) 0#32 = BitVec.ofNat 32 a := by unfold IntOp.addi; simp
  rw [this, cmpi_eq_ofNat ha hb]

/-- A select on a decided bit is the `if`. -/
theorem select_ite {α : Type} (p : Prop) [Decidable p] (A B : α) :
    Scalar.select (if p then 1#1 else 0#1) A B = if p then A else B := by
  by_cases h : p
  · rw [if_pos h, if_pos h]; exact select_one A B
  · rw [if_neg h, if_neg h]; exact select_zero A B

/-! ## A rank-3 index set is the product of its coordinate ranges -/

/-- A rank-3 index set is the product of its three coordinate ranges … -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

/-! ## The two masked forms -/

/-- The masked form that clamps a safe value under the root: on the diagonal `min ⊤ th`, off it the root of the sum. -/
theorem masked_root_form (p : Prop) [Decidable p] (th one s : EReal) :
    min (if p then ⊤ else Ideal.sqrt (if p then one else s)) th = if p then th else min (Ideal.sqrt s) th := by
  by_cases h : p
  · simp only [if_pos h]; exact min_eq_right le_top
  · simp only [if_neg h]

/-- The masked form that selects the threshold on the diagonal, with the distance in its expanded form, is the
    same function of the coordinates as the one above with the distance in its squared-difference form. -/
theorem div_forms_of_eq (p : Prop) [Decidable p] (th : EReal) (x y : Fin 3 → EReal)
    (hx : ∀ d, x d ≠ ⊤ ∧ x d ≠ ⊥) (hy : ∀ d, y d ≠ ⊤ ∧ y d ≠ ⊥)
    (A B C : EReal) (hA : A = 0 + ∑ d, x d * x d) (hB : B = 0 + ∑ d, y d * y d) (hC : C = ∑ d, x d * y d) :
    min (if p then th else Ideal.sqrt (max (A + B - Ideal.ofBits .f32 0x40000000#32 * C) (Ideal.ofBits .f32 0x00000000#32))) th
      = if p then th else min (Ideal.sqrt (0 + ∑ d, (x d - y d) * (x d - y d))) th := by
  by_cases h : p
  · simp only [if_pos h]; exact min_self th
  · simp only [if_neg h]
    rw [Cert.Lib.DistForms.dist_forms_of_eq x y hx hy A B C hA hB hC]

/-- Zeros added at the inner levels of a nested sum are absorbed. -/
theorem nested_zero_add {a b c : Nat} (f : Fin a → Fin b → Fin c → EReal) :
    (0 + ∑ i, (0 + ∑ k, (0 + ∑ k', f i k k'))) = 0 + ∑ i, ∑ k, ∑ k', f i k k' := by
  simp only [zero_add]

end Cert.Lib.DivForms
-- ==== Proof.RefLoss.lean ====
/-
  The reference computes the pair loss.

  The reference program is read one stage at a time at explicit coordinates: the squared norms of the rows, the
  inner products, the clamped distances, the two label masks, the three exponentials, the four masked row sums
  and the closing average. Each stage is the matching function of the specification at the same coordinates, so
  the program's one result is the loss of the argument arrays.

  The differences in spelling are: the reference clamps with `max ε d` where the specification writes `max d ε`;
  its mask of the diagonal compares two 32-bit coordinate words, which for coordinates below 8192 are equal
  exactly when the coordinates are; its masked-out entries are the zero word, which denotes 0; and each of its
  sums starts from the zero word.
-/
import proofs.«175511_j20572893348487_1_alg».proof.Proof.Spec
import proofs.«175511_j20572893348487_1_alg».proof.Proof.Gen.ReferenceIdeal.Read
import proofs.«175511_j20572893348487_1_alg».proof.Proof.LibDivForms

noncomputable section

open scoped BigOperators

namespace Cert.ReferenceIdeal.RefValue

open Cert.ReferenceIdeal Cert.ReferenceIdeal.Gen Cert.ReferenceIdeal.Read Idealize.ShloMosaic Idealize.ShloMosaic.ValueIdx
  Cert.PairLoss

/-- The type of the points' array. -/
abbrev XArr : Type := (⟨S8192x128, .f32⟩ : BufTy).Contents (Elt Ideal)
/-- The type of the labels' array. -/
abbrev TArr : Type := (⟨S8192, .i32⟩ : BufTy).Contents (Elt Ideal)

/-- The points as a function of the row and the coordinate. -/
abbrev pts (x0 : XArr) : Fin 8192 → Fin 128 → EReal := fun r k => x0 (ix2 r k)
/-- The labels as a function of the row. -/
abbrev lab (x1 : TArr) : Fin 8192 → BitVec 32 := fun r => x1 (ix1 r)

/-! ## The index maps of the stages at explicit coordinates -/

theorem idx_v1 (r : Fin 8192) (k : Fin 128) : idx_main_v1 (ix1 r) k = ix2 r k :=
  funext fun a => by match a with | ⟨0, _⟩ => rfl | ⟨1, _⟩ => rfl

theorem idx_v2_v4 (r c : Fin 8192) : idx_main_v2 (idx_main_v4 (ix2 r c)) = ix1 r :=
  funext fun a => by match a with | ⟨0, _⟩ => rfl

theorem idx_v3_v5 (r c : Fin 8192) : idx_main_v3 (idx_main_v5 (ix2 r c)) = ix1 c :=
  funext fun a => by match a with | ⟨0, _⟩ => rfl

theorem lidx_v8 (r c : Fin 8192) (k : Fin 128) : lidx_main_v8 (ix2 r c) k = ix2 r k :=
  funext fun a => by match a with | ⟨0, _⟩ => rfl | ⟨1, _⟩ => rfl

theorem ridx_v7_v8 (r c : Fin 8192) (k : Fin 128) : idx_main_v7 (ridx_main_v8 (ix2 r c) k) = ix2 c k :=
  funext fun a => by match a with | ⟨0, _⟩ => rfl | ⟨1, _⟩ => rfl

theorem idx_v14_v16 (r c : Fin 8192) : idx_main_v14 (idx_main_v16 (ix2 r c)) = ix1 r :=
  funext fun a => by match a with | ⟨0, _⟩ => rfl

theorem idx_v15_v17 (r c : Fin 8192) : idx_main_v15 (idx_main_v17 (ix2 r c)) = ix1 c :=
  funext fun a => by match a with | ⟨0, _⟩ => rfl

theorem idx_v33 (r c : Fin 8192) : idx_main_v33 (ix1 r) c = ix2 r c :=
  funext fun a => by match a with | ⟨0, _⟩ => rfl | ⟨1, _⟩ => rfl
theorem idx_v35 (r c : Fin 8192) : idx_main_v35 (ix1 r) c = ix2 r c :=
  funext fun a => by match a with | ⟨0, _⟩ => rfl | ⟨1, _⟩ => rfl
theorem idx_v46 (r c : Fin 8192) : idx_main_v46 (ix1 r) c = ix2 r c :=
  funext fun a => by match a with | ⟨0, _⟩ => rfl | ⟨1, _⟩ => rfl
theorem idx_v54 (r c : Fin 8192) : idx_main_v54 (ix1 r) c = ix2 r c :=
  funext fun a => by match a with | ⟨0, _⟩ => rfl | ⟨1, _⟩ => rfl

/-! ## The squared norms, the inner products and the distances -/

/-- The first sum of the reference at row `r` is the squared norm of row `r`. -/
theorem sq_stage (x0 : XArr) (r : Fin 8192) : val_main_v1 (F := Ideal) x0 (ix1 r) = sq (pts x0) r := by
  rw [val_main_v1_apply, val_main_cst_apply]
  simp only [idx_v1, val_main_v0_apply, Ideal.ofBits_def, Ideal.mulf_def, Ideal.ofBits_zero_f32, zero_add]
  rfl

/-- The sum of the two broadcast squared norms at `(r, c)`. -/
theorem sqsum_stage (x0 : XArr) (r c : Fin 8192) :
    val_main_v6 (F := Ideal) x0 (ix2 r c) = sq (pts x0) r + sq (pts x0) c := by
  rw [val_main_v6_apply, val_main_v4_apply, val_main_v5_apply, val_main_v2_apply, val_main_v3_apply, idx_v2_v4, idx_v3_v5,
    sq_stage, sq_stage]
  rfl

/-- The product of the points' array with its transpose at `(r, c)` is the inner product of rows `r` and `c`. -/
theorem dot_stage (x0 : XArr) (r c : Fin 8192) : val_main_v8 (F := Ideal) x0 (ix2 r c) = dot (pts x0) r c := by
  rw [val_main_v8_apply]
  simp only [val_main_v7_apply, lidx_v8, ridx_v7_v8]
  rfl

/-- The clamped distance of the reference at `(r, c)` is the specification's: the clamp's two operands are swapped. -/
theorem dist_stage (x0 : XArr) (r c : Fin 8192) : val_main_v13 (F := Ideal) x0 (ix2 r c) = PairLoss.dist (pts x0) r c := by
  rw [val_main_v13_apply, val_main_v12_apply, val_main_call0_v1_apply, val_main_call0_v0_apply, val_main_cst_1_apply,
    val_main_v11_apply, val_main_v10_apply, val_main_v9_apply, val_main_cst_0_apply, sqsum_stage, dot_stage]
  simp only [Ideal.ofBits_def, Ideal.mulf_def, Ideal.subf_def, Ideal.maximumf_def, Ideal.hostUnary_sqrt_def]
  unfold PairLoss.dist
  rw [max_comm]

/-! ## The masks -/

/-- The equality comparison of two words is the bit of their equality. -/
theorem cmpi_eq_ite (a b : BitVec 32) : IntOp.cmpi .eq a b = if a = b then 1#1 else 0#1 := by
  unfold IntOp.cmpi
  by_cases h : a = b
  · subst h; simp
  · rw [if_neg h]
    have hb' : (a == b) = false := beq_eq_false_iff_ne.mpr h
    rw [hb']; rfl

/-- The complement of a decided bit is the bit of the negation. -/
theorem not_ite (p : Prop) [Decidable p] : ~~~(if p then 1#1 else 0#1 : BitVec 1) = if ¬p then 1#1 else 0#1 := by
  by_cases h : p
  · rw [if_pos h, if_neg (not_not.mpr h)]; rfl
  · rw [if_neg h, if_pos h]; rfl

/-- The conjunction of two decided bits is the bit of the conjunction. -/
theorem and_ite (p q : Prop) [Decidable p] [Decidable q] :
    IntOp.andi (if p then 1#1 else 0#1 : BitVec 1) (if q then 1#1 else 0#1) = if p ∧ q then 1#1 else 0#1 := by
  by_cases hp : p <;> by_cases hq : q <;> simp [hp, hq, IntOp.andi]

/-- The comparison of the broadcast labels at `(r, c)`. -/
theorem same_stage (x1 : TArr) (r c : Fin 8192) :
    val_main_v18 (F := Ideal) x1 (ix2 r c) = if lab x1 r = lab x1 c then 1#1 else 0#1 := by
  rw [val_main_v18_apply, val_main_v16_apply, val_main_v17_apply, val_main_v14_apply, val_main_v15_apply, idx_v14_v16,
    idx_v15_v17, cmpi_eq_ite]

/-- The comparison of the two coordinate words at `(r, c)`: the coordinates are below 2³². -/
theorem eye_stage (r c : Fin 8192) : val_main_v23 (F := Ideal) (ix2 r c) = if r = c then 1#1 else 0#1 := by
  rw [val_main_v23_apply, val_main_v22_apply, val_main_v19_apply, val_main_v20_apply, val_main_v21_apply, val_main_c_apply]
  show IntOp.cmpi .eq (IntOp.addi (BitVec.ofNat 32 r.val) 0#32) (BitVec.ofNat 32 c.val) = _
  rw [Cert.Lib.DivForms.cmpi_eq_addi_zero (by have := r.isLt; omega) (by have := c.isLt; omega)]
  by_cases h : r = c
  · rw [if_pos h, if_pos (congrArg Fin.val h)]
  · rw [if_neg h, if_neg (fun e => h (Fin.ext e))]

/-- The mask of the positives at `(r, c)`. -/
theorem pos_stage (x1 : TArr) (r c : Fin 8192) :
    val_main_v25 (F := Ideal) x1 (ix2 r c) = if Pos (lab x1) r c then 1#1 else 0#1 := by
  rw [val_main_v25_apply, val_main_v24_apply, same_stage, eye_stage, not_ite, and_ite]
  rfl

/-- The mask of the negatives at `(r, c)`. -/
theorem neg_stage (x1 : TArr) (r c : Fin 8192) :
    val_main_v26 (F := Ideal) x1 (ix2 r c) = if Neg (lab x1) r c then 1#1 else 0#1 := by
  rw [val_main_v26_apply, same_stage, not_ite]
  rfl

/-! ## The three exponentials -/

/-- exp (40 · (1 − dist)) at `(r, c)`. -/
theorem eMatch_stage (x0 : XArr) (r c : Fin 8192) : val_main_v31 (F := Ideal) x0 (ix2 r c) = eMatch (pts x0) r c := by
  rw [val_main_v31_apply, val_main_v30_apply, val_main_v29_apply, val_main_cst_3_apply, val_main_v28_apply,
    val_main_v27_apply, val_main_cst_2_apply, dist_stage]
  simp only [Ideal.ofBits_def, Ideal.mulf_def, Ideal.subf_def, Ideal.hostUnary_exp_def]
  rfl

/-- exp (20 · (dist − 0.8)) at `(r, c)`. -/
theorem ePos_stage (x0 : XArr) (r c : Fin 8192) : val_main_v44 (F := Ideal) x0 (ix2 r c) = ePos (pts x0) r c := by
  rw [val_main_v44_apply, val_main_v43_apply, val_main_v42_apply, val_main_cst_10_apply, val_main_v41_apply,
    val_main_v40_apply, val_main_cst_9_apply, dist_stage]
  simp only [Ideal.ofBits_def, Ideal.mulf_def, Ideal.subf_def, Ideal.hostUnary_exp_def]
  rfl

/-- exp (20 · (1.1 − dist)) at `(r, c)`. -/
theorem eNeg_stage (x0 : XArr) (r c : Fin 8192) : val_main_v52 (F := Ideal) x0 (ix2 r c) = eNeg (pts x0) r c := by
  rw [val_main_v52_apply, val_main_v51_apply, val_main_v50_apply, val_main_cst_14_apply, val_main_v49_apply,
    val_main_v48_apply, val_main_cst_13_apply, dist_stage]
  simp only [Ideal.ofBits_def, Ideal.mulf_def, Ideal.subf_def, Ideal.hostUnary_exp_def]
  rfl

/-! ## The four masked arrays and their row sums -/

/-- The first masked array at `(r, c)`: the else-branch is the zero word. -/
theorem term0_stage (x0 : XArr) (x1 : TArr) (r c : Fin 8192) :
    val_main_v32 (F := Ideal) x0 x1 (ix2 r c) = term (pts x0) (lab x1) 0 r c := by
  rw [val_main_v32_apply, val_main_call1_v1_apply, val_main_call1_v0_apply, val_main_cst_4_apply, pos_stage, eMatch_stage,
    Cert.Lib.DivForms.select_ite, Ideal.ofBits_def, Ideal.ofBits_zero_f32]
  rfl

/-- The second masked array at `(r, c)`. -/
theorem term1_stage (x0 : XArr) (x1 : TArr) (r c : Fin 8192) :
    val_main_v34 (F := Ideal) x0 x1 (ix2 r c) = term (pts x0) (lab x1) 1 r c := by
  rw [val_main_v34_apply, val_main_call2_v1_apply, val_main_call2_v0_apply, val_main_cst_6_apply, neg_stage, eMatch_stage,
    Cert.Lib.DivForms.select_ite, Ideal.ofBits_def, Ideal.ofBits_zero_f32]
  rfl

/-- The third masked array at `(r, c)`. -/
theorem term2_stage (x0 : XArr) (x1 : TArr) (r c : Fin 8192) :
    val_main_v45 (F := Ideal) x0 x1 (ix2 r c) = term (pts x0) (lab x1) 2 r c := by
  rw [val_main_v45_apply, val_main_call3_v1_apply, val_main_call3_v0_apply, val_main_cst_11_apply, pos_stage, ePos_stage,
    Cert.Lib.DivForms.select_ite, Ideal.ofBits_def, Ideal.ofBits_zero_f32]
  rfl

/-- The fourth masked array at `(r, c)`. -/
theorem term3_stage (x0 : XArr) (x1 : TArr) (r c : Fin 8192) :
    val_main_v53 (F := Ideal) x0 x1 (ix2 r c) = term (pts x0) (lab x1) 3 r c := by
  rw [val_main_v53_apply, val_main_call4_v1_apply, val_main_call4_v0_apply, val_main_cst_15_apply, neg_stage, eNeg_stage,
    Cert.Lib.DivForms.select_ite, Ideal.ofBits_def, Ideal.ofBits_zero_f32]
  rfl

/-- The first row sum at row `r`: the sum starts from the zero word. -/
theorem rowSum0_stage (x0 : XArr) (x1 : TArr) (r : Fin 8192) :
    val_main_v33 (F := Ideal) x0 x1 (ix1 r) = rowSum (pts x0) (lab x1) 0 r := by
  rw [val_main_v33_apply, val_main_cst_5_apply, Ideal.ofBits_def, Ideal.ofBits_zero_f32, zero_add]
  simp only [idx_v33, term0_stage]
  rfl

/-- The second row sum at row `r`. -/
theorem rowSum1_stage (x0 : XArr) (x1 : TArr) (r : Fin 8192) :
    val_main_v35 (F := Ideal) x0 x1 (ix1 r) = rowSum (pts x0) (lab x1) 1 r := by
  rw [val_main_v35_apply, val_main_cst_7_apply, Ideal.ofBits_def, Ideal.ofBits_zero_f32, zero_add]
  simp only [idx_v35, term1_stage]
  rfl

/-- The third row sum at row `r`. -/
theorem rowSum2_stage (x0 : XArr) (x1 : TArr) (r : Fin 8192) :
    val_main_v46 (F := Ideal) x0 x1 (ix1 r) = rowSum (pts x0) (lab x1) 2 r := by
  rw [val_main_v46_apply, val_main_cst_12_apply, Ideal.ofBits_def, Ideal.ofBits_zero_f32, zero_add]
  simp only [idx_v46, term2_stage]
  rfl

/-- The fourth row sum at row `r`. -/
theorem rowSum3_stage (x0 : XArr) (x1 : TArr) (r : Fin 8192) :
    val_main_v54 (F := Ideal) x0 x1 (ix1 r) = rowSum (pts x0) (lab x1) 3 r := by
  rw [val_main_v54_apply, val_main_cst_16_apply, Ideal.ofBits_def, Ideal.ofBits_zero_f32, zero_add]
  simp only [idx_v54, term3_stage]
  rfl

/-! ## The closing average -/

/-- The summand of the closing average at row `r`. -/
theorem summand_stage (x0 : XArr) (x1 : TArr) (r : Fin 8192) :
    val_main_v57 (F := Ideal) x0 x1 (ix1 r)
      = (w 0x3F800000#32 - Ideal.div (rowSum (pts x0) (lab x1) 0 r) (rowSum (pts x0) (lab x1) 0 r + rowSum (pts x0) (lab x1) 1 r))
        * (Ideal.log (rowSum (pts x0) (lab x1) 2 r) + Ideal.log (rowSum (pts x0) (lab x1) 3 r)) := by
  rw [val_main_v57_apply, val_main_v39_apply, val_main_v38_apply, val_main_cst_8_apply, val_main_v37_apply,
    val_main_v36_apply, val_main_v56_apply, val_main_v47_apply, val_main_v55_apply, rowSum0_stage, rowSum1_stage,
    rowSum2_stage, rowSum3_stage]
  simp only [Ideal.ofBits_def, Ideal.mulf_def, Ideal.subf_def, Ideal.addf_def, Ideal.hostDivf_def, Ideal.hostUnary_log_def]

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The reference's result, read at its one index, is the loss of the argument arrays. -/
theorem ref_loss_apply (x0 : XArr) (x1 : TArr) (i : S_.Idx) :
    val_main_v59 (F := Ideal) x0 x1 i = loss (fun r k => x0 (ix2 r k)) (fun r => x1 (ix1 r)) := by
  rw [val_main_v59_apply, val_main_v58_apply, val_main_cst_17_apply, val_main_cst_18_apply, Ideal.ofBits_def,
    Ideal.ofBits_def, Ideal.ofBits_zero_f32, zero_add, Ideal.hostDivf_def, sum_idx1]
  simp only [summand_stage]
  rfl

/-- The reference's result is the array whose one entry is the loss of the argument arrays. -/
theorem ref_loss (x0 : XArr) (x1 : TArr) :
    val_main_v59 (F := Ideal) x0 x1 = fun _ => loss (fun r k => x0 (ix2 r k)) (fun r => x1 (ix1 r)) :=
  funext fun i => ref_loss_apply x0 x1 i

end Cert.ReferenceIdeal.RefValue

end
-- ==== Proof.LibNaryThree.lean ====
/-
  GENERAL LEMMA: the result of a host operation over a literal family of three operand buffers.

  A concatenation of three arrays is one operation reading a family of three buffers. Its result, read at the
  operation's own result buffer, is the operation's function of the three operands' contents, each named at its own
  buffer (rather than through the family under a binder), so that the contents of each operand can go on being
  rewritten to what the earlier operations wrote there.
-/
import Idealize.ShloMosaic.Lib.StableHlo.Run

noncomputable section

namespace Idealize.ShloMosaic.StableHlo

variable {τ : Topo} {sig : RefSig} {Val : EltTy → Type}

/-- The result of an operation over the three buffers `![x, a, b]`, at its result buffer. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.LibHostRead.lean ====
/-
  Reading a stretch of host operations at one of its result buffers.

  The contents after a list of host operations is a fold; at a result buffer it is that operation's function of
  its operands' contents, each read in turn from the operations before. One pass of rewriting opens the whole
  fold. A three-operand concatenation reads a family of three buffers; its result is stated with each operand
  named at its own buffer, so that the pass goes on into the operands.
-/
import proofs.«175511_j20572893348487_1_alg».proof.Proof.LibNaryThree
import Idealize.ShloMosaic.Lib.StableHlo.Run

noncomputable section

namespace Idealize.ShloMosaic.StableHlo

variable {τ : Topo} {sig : RefSig} {Val : EltTy → Type}

/-- The three-operand result, keyed for the rewriting pass on the operation alone. -/
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The same for an operation whose function reads its three operands one by one, `fun u => g (u 0) (u 1) (u 2)` (a
    concatenation of three arrays): the result is `g` of the three operands' contents. -/
theorem nary3_result_fn {x a b y : Ref sig .tc}
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (Proc.devRef .tc y)
      = g (F (Proc.devRef .tc x)) (F (Proc.devRef .tc a)) (F (Proc.devRef .tc b)) :=
  nary3_result (fun u => g (u 0) (u 1) (u 2)) hxs hy F

/-- Open the fold of a stretch of host operations at a buffer: every operation's result at its own buffer, every other
    buffer passed through (the buffers' inequalities decided). -/
macro "host_read" : tactic =>
  `(tactic| (simp (disch := decide) only [after_cons, after_nil,
      nullary_result', unary_result', binary_result', ternary_result', quaternary_result', reshape_result', nary3_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.LibHostRowSum.lean ====
/-
  GENERAL LEMMA: the host's sum along the second axis of a rank-2 array — what `sum(x, axis=1)` is in a host program —
  read at an index given by coordinates.
  • `hostReduceAdd_axis1_apply`: on the extended reals, the sum-reduce of an `[a, b]` array along axis 1, at `i`, is the
    initial value's one element plus the sum over `k` of the entries `(i, k)` of row `i`.
-/
import Idealize.ShloMosaic.Lib.ValueIdx
import Idealize.ShloMosaic.PureOps.Ideal.Laws
import Idealize.ShloMosaic.PureOps.Reduce

noncomputable section

open scoped BigOperators

namespace Idealize.ShloMosaic.ValueIdx

open Idealize.ShloMosaic

/-- The host's sum along axis 1 of an `[a, b]` array of extended reals: at `i` it is the initial value plus the sum of
    row `i`. -/
theorem hostReduceAdd_axis1_apply {a b : ℕ} (x : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (i : Fin a) :
    Host.reduceAdd x init h' hu (ix1 i) = init (Shape.Idx.first hu) + ∑ k : Fin b, x (ix2 i k) := by
  unfold Host.reduceAdd
  rw [Ideal.hostReduceAdd_def]
  refine (Ideal.hostReduceAdd_single h' h x _ (ix1 i)).trans ?_
  refine congrArg (fun s => init (Shape.Idx.first hu) + s) (Finset.sum_congr rfl fun k _ => congrArg x ?_)
  funext c
  match c with
  | ⟨0, _⟩ => exact Fin.ext rfl
  | ⟨1, _⟩ => exact Fin.ext rfl

end Idealize.ShloMosaic.ValueIdx

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.KernelIdealHost.lean ====
/-
  The host operations of the kernel's program around its region, on the extended reals.

  After the region: the region's result is an array of four columns, the four row sums of every row. The
  program slices the columns out, reshapes each to a vector, and computes from them the average over the rows of
  (1 − c₀ / (c₀ + c₁)) · (log c₂ + log c₃): the closing step of the pair loss applied to the four columns. It
  writes neither argument array.

  Before the region: the squared norms of the rows as a column and as a row, and the labels as a column and as
  a row; the points' array is left as launched.
-/
import proofs.«175511_j20572893348487_1_alg».proof.Proof.KernelIdealMain
import proofs.«175511_j20572893348487_1_alg».proof.Proof.Spec
import proofs.«175511_j20572893348487_1_alg».proof.Proof.LibHostRead
import proofs.«175511_j20572893348487_1_alg».proof.Proof.LibHostRowSum
import proofs.«175511_j20572893348487_1_alg».proof.Proof.LibKeepdims
import Idealize.ShloMosaic.Lib.Pipeline.Value
import Idealize.ShloMosaic.Lib.ValueIdx
import Idealize.ShloMosaic.PureOps.Ideal.Laws

noncomputable section

open scoped BigOperators

namespace Cert.KernelIdeal.HostValue

open Idealize.ShloMosaic Idealize.ShloMosaic.TcCoe Idealize.ShloMosaic.ValueIdx Idealize.ShloMosaic.StableHlo
open Cert.KernelIdeal Cert.KernelIdeal.Gen Cert.KernelIdeal.Hand
open Cert.PairLoss (w tail sq)

/-! ## Reading the layout operations at explicit coordinates -/

/-- A rank-1 index set is its one coordinate range … -/
def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- Column `k` of an array of four columns, sliced out and reshaped to a vector, at row `r`. -/
theorem col_apply (X : FVec Ideal S8192x4 .f32) (o : Nat) (k : Fin 4) (hk : k.val = o) (hs : S8192x4.Slices ![0, o] S8192x1)
    (hc : S8192x1.ShapeCasts S8192) (r : Fin 8192) :
    shapeCast S8192 (extractStridedSlice S8192x1 ![0, o] X hs) hc (ix1 r) = X (ix2 r k) := by
  refine (shapeCast_apply _ hc (ix1 r) (ix2 r (0 : Fin 1)) ?_).trans ?_
  · rw [Shape.rowMajor_val_two, Shape.rowMajor_val_one]
    show r.val * 1 + 0 = r.val
    omega
  · refine extractStridedSlice_apply ![0, o] X hs (ix2 r (0 : Fin 1)) (ix2 r k) fun a => ?_
    match a with
    | ⟨0, _⟩ => show r.val = 0 + r.val; omega
    | ⟨1, _⟩ => show k.val = o + 0; omega

/-- A constant broadcast to a vector reads the constant's word everywhere. -/
theorem bcast_const_apply (b : BitVec 32) (j : S8192.Idx) :
    broadcastInDim S8192 ![] bcast_S_S8192 (constant (F := Ideal) S_ .f32 b) j = Ideal.ofBits .f32 b :=
  (broadcastInDim_apply _ bcast_S_S8192 _ j (fun a => a.elim0) (fun a => a.elim0)).trans rfl

/-- The host's sum of a vector from an initial value is the initial value plus the sum over the rows. -/
theorem total_apply (y : FVec Ideal S8192 .f32) (init : FVec Ideal S_ .f32) (i : S_.Idx) :
    Host.reduceAdd (F := Ideal) y init reducesTo_S8192_S_d0 h_S_ i = init (Shape.Idx.first h_S_) + ∑ r : Fin 8192, y (ix1 r) := by
  simp only [Host.reduceAdd, Ideal.hostReduceAdd_def]
  rw [Ideal.hostReduceAdd_total reducesTo_S8192_S_d0 (fun b => b.elim0) y _ i, sum_idx1]

/-! ## The operations after the region -/

/-- The closing step of the kernel's program as a function of the region's result array. -/
theorem tail_term (X : FVec Ideal S8192x4 .f32) :
    Host.divf (F := Ideal)
      (Host.reduceAdd
        (mulf
          (subf (broadcastInDim S8192 ![] bcast_S_S8192 (constant S_ .f32 0x3F800000#32))
            (Host.divf
              (fun i => shapeCast S8192 (extractStridedSlice S8192x1 ![0, 0] X slices_S8192x4_S8192x1_0_0) shapeCasts_S8192x1_S8192 i)
              (addf
                (fun i => shapeCast S8192 (extractStridedSlice S8192x1 ![0, 0] X slices_S8192x4_S8192x1_0_0) shapeCasts_S8192x1_S8192 i)
                (fun i => shapeCast S8192 (extractStridedSlice S8192x1 ![0, 1] X slices_S8192x4_S8192x1_0_1) shapeCasts_S8192x1_S8192 i))))
          (addf
            (Host.log fun i => shapeCast S8192 (extractStridedSlice S8192x1 ![0, 2] X slices_S8192x4_S8192x1_0_2) shapeCasts_S8192x1_S8192 i)
            (Host.log fun i => shapeCast S8192 (extractStridedSlice S8192x1 ![0, 3] X slices_S8192x4_S8192x1_0_3) shapeCasts_S8192x1_S8192 i)))
        (constant S_ .f32 0x00000000#32) reducesTo_S8192_S_d0 h_S_)
      (constant S_ .f32 0x46000000#32)
    = fun _ => tail (fun k r => X (ix2 r k)) := by
  funext i
  show FloatOps.hostDivf (Host.reduceAdd (F := Ideal) _ _ reducesTo_S8192_S_d0 h_S_ i) (Ideal.ofBits .f32 0x46000000#32) = _
  rw [total_apply, Ideal.hostDivf_def]
  show Ideal.div (Ideal.ofBits .f32 0x00000000#32 + _) _ = _
  rw [Ideal.ofBits_zero_f32, zero_add]
  unfold tail
  refine congrArg (fun s => Ideal.div s _) (Finset.sum_congr rfl fun r _ => ?_)
  show (Ideal.ofBits .f32 0x3F800000#32 - Ideal.div _ (_ + _)) * (Ideal.log _ + Ideal.log _) = _
  dsimp only
  rw [col_apply X 0 (0 : Fin 4) rfl, col_apply X 1 (1 : Fin 4) rfl, col_apply X 2 (2 : Fin 4) rfl, col_apply X 3 (3 : Fin 4) rfl]

/-- After the kernel's last operations the result buffer holds the closing step of the loss applied to the four
    columns of the region's result, whatever the contents before them. -/
theorem tail_value (W : Valuation τ sig (Elt Ideal)) :
    StableHlo.after (List.flatten [hostOps1 (F := Ideal)]) W (Proc.devRef .tc main_v24)
      = fun _ => tail (fun k r => (W (Proc.devRef .tc main_v6) : S8192x4.Idx → EReal) (ix2 r k)) := by
  simp only [hostOps1, List.flatten_cons, List.flatten_nil, List.append_nil]
  host_read
  exact tail_term (W (Proc.devRef .tc main_v6))

/-- The last operations do not write the points' array. -/
theorem tail_arg0 (W : Valuation τ sig (Elt Ideal)) :
    StableHlo.after (List.flatten [hostOps1 (F := Ideal)]) W (Proc.devRef .tc main_arg0) = W (Proc.devRef .tc main_arg0) :=
  StableHlo.after_of_forall_not_mem (b := Proc.devRef .tc main_arg0) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The last operations do not write the labels' array. -/
theorem tail_arg1 (W : Valuation τ sig (Elt Ideal)) :
    StableHlo.after (List.flatten [hostOps1 (F := Ideal)]) W (Proc.devRef .tc main_arg1) = W (Proc.devRef .tc main_arg1) :=
  StableHlo.after_of_forall_not_mem (b := Proc.devRef .tc main_arg1) _ _ (List.forall_iff_forall_mem.mp (by
    simp only [hostOps1, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The operations before the region -/

/-- A vector made a column reads, at `(r, 0)`, the vector at `r`. -/
theorem colOf_apply {α : Type} (y : S8192.Idx → α) (r : Fin 8192) (u : Fin 1) :
    broadcastInDim S8192x1 ![0] bcast_S8192_S8192x1_0 y (ix2 r u) = y (ix1 r) :=
  broadcastInDim_apply _ bcast_S8192_S8192x1_0 y (ix2 r u) (ix1 r) (fun a => match a with
    | ⟨0, _⟩ => by show r.val = if (8192 : Nat) = 1 then 0 else r.val; rw [if_neg (by decide)])

/-- The transpose of a column reads, at `(0, r)`, the column at `(r, 0)`. -/
theorem rowOf_apply {α : Type} (y : S8192x1.Idx → α) (r : Fin 8192) (u : Fin 1) :
    transpose S1x8192 [1, 0] y transposes_S8192x1_S1x8192_1_0 (ix2 u r) = y (ix2 r u) :=
  transpose_apply [1, 0] y transposes_S8192x1_S1x8192_1_0 (ix2 u r) (ix2 r u) (fun b => match b with
    | ⟨0, _⟩ => rfl
    | ⟨1, _⟩ => rfl)

/-- The squared norms of the rows, as a column, at `(r, 0)`. -/
theorem sq_col (X : FVec Ideal S8192x128 .f32) (r : Fin 8192) (u : Fin 1) :
    broadcastInDim S8192x1 ![0] bcast_S8192_S8192x1_0
        (Host.reduceAdd (F := Ideal) (mulf X X) (constant S_ .f32 0x00000000#32) reducesTo_S8192x128_S8192_d1 h_S_) (ix2 r u)
      = sq (fun r k => X (ix2 r k)) r := by
  rw [colOf_apply, hostReduceAdd_axis1_apply _ _ reducesTo_S8192x128_S8192_d1 (by decide) h_S_ r]
  show Ideal.ofBits .f32 0x00000000#32 + ∑ k : Fin 128, X (ix2 r k) * X (ix2 r k) = _
  rw [Ideal.ofBits_zero_f32, zero_add]
  rfl

/-- The contents of the column of squared norms after the first operations, from any contents. -/
theorem pre_v3 (W : Valuation τ sig (Elt Ideal)) :
    StableHlo.after (List.flatten [hostOps0 (F := Ideal)]) W (Proc.devRef .tc main_v3)
      = broadcastInDim S8192x1 ![0] bcast_S8192_S8192x1_0
          (Host.reduceAdd (F := Ideal) (mulf (W (Proc.devRef .tc main_arg0)) (W (Proc.devRef .tc main_arg0)))
            (constant S_ .f32 0x00000000#32) reducesTo_S8192x128_S8192_d1 h_S_) := by
  simp only [hostOps0, List.flatten_cons, List.flatten_nil, List.append_nil]
  host_read

/-- The contents of the row of squared norms after the first operations. -/
theorem pre_v4 (W : Valuation τ sig (Elt Ideal)) :
    StableHlo.after (List.flatten [hostOps0 (F := Ideal)]) W (Proc.devRef .tc main_v4)
      = transpose S1x8192 [1, 0] (broadcastInDim S8192x1 ![0] bcast_S8192_S8192x1_0
          (Host.reduceAdd (F := Ideal) (mulf (W (Proc.devRef .tc main_arg0)) (W (Proc.devRef .tc main_arg0)))
            (constant S_ .f32 0x00000000#32) reducesTo_S8192x128_S8192_d1 h_S_)) transposes_S8192x1_S1x8192_1_0 := by
  simp only [hostOps0, List.flatten_cons, List.flatten_nil, List.append_nil]
  host_read

/-- The contents of the column of labels after the first operations. -/
theorem pre_v0 (W : Valuation τ sig (Elt Ideal)) :
    StableHlo.after (List.flatten [hostOps0 (F := Ideal)]) W (Proc.devRef .tc main_v0)
      = fun i => shapeCast S8192x1 (W (Proc.devRef .tc main_arg1)) shapeCasts_S8192_S8192x1 i := by
  simp only [hostOps0, List.flatten_cons, List.flatten_nil, List.append_nil]
  host_read
  rfl

/-- The contents of the row of labels after the first operations. -/
theorem pre_v5 (W : Valuation τ sig (Elt Ideal)) :
    StableHlo.after (List.flatten [hostOps0 (F := Ideal)]) W (Proc.devRef .tc main_v5)
      = transpose S1x8192 [1, 0] (fun i => shapeCast S8192x1 (W (Proc.devRef .tc main_arg1)) shapeCasts_S8192_S8192x1 i)
          transposes_S8192x1_S1x8192_1_0 := by
  simp only [hostOps0, List.flatten_cons, List.flatten_nil, List.append_nil]
  host_read
  rfl

/-- The first operations do not write the points' array. -/
theorem pre_arg0 (W : Valuation τ sig (Elt Ideal)) :
    StableHlo.after (List.flatten [hostOps0 (F := Ideal)]) W (Proc.devRef .tc main_arg0) = W (Proc.devRef .tc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The first operations do not write the labels' array. -/
theorem pre_arg1 (W : Valuation τ sig (Elt Ideal)) :
    StableHlo.after (List.flatten [hostOps0 (F := Ideal)]) W (Proc.devRef .tc main_arg1) = W (Proc.devRef .tc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-! ## The windows' arrays as the region finds them -/

variable (m : (ℓ : Loc nD τ sig) → Buf (Elt Ideal) ℓ)

/-- The region finds the points' array as launched. -/
theorem V_main_arg0 (c : Dev nD) : V m c main_arg0 = m ((c.tc : Thread nD τ).loc main_arg0) :=
  pre_arg0 (fun b => m (c, b))

/-- The region finds the labels' array as launched. -/
theorem V_main_arg1 (c : Dev nD) : V m c main_arg1 = m ((c.tc : Thread nD τ).loc main_arg1) :=
  pre_arg1 (fun b => m (c, b))

/-- The column of squared norms at `(r, 0)` is the squared norm of row `r` of the launched points. -/
theorem V_main_v3 (c : Dev nD) (r : Fin 8192) :
    V m c main_v3 (ix2 r (0 : Fin 1)) = sq (fun r k => m ((c.tc : Thread nD τ).loc main_arg0) (ix2 r k)) r := by
  show StableHlo.after (List.flatten [hostOps0 (F := Ideal)]) (fun b => m (c, b)) (Proc.devRef .tc main_v3) (ix2 r (0 : Fin 1)) = _
  rw [pre_v3]
  exact sq_col _ r 0

/-- The row of squared norms at `(0, r)` is the squared norm of row `r` of the launched points. -/
theorem V_main_v4 (c : Dev nD) (r : Fin 8192) :
    V m c main_v4 (ix2 (0 : Fin 1) r) = sq (fun r k => m ((c.tc : Thread nD τ).loc main_arg0) (ix2 r k)) r := by
  show StableHlo.after (List.flatten [hostOps0 (F := Ideal)]) (fun b => m (c, b)) (Proc.devRef .tc main_v4) (ix2 (0 : Fin 1) r) = _
  rw [pre_v4, rowOf_apply]
  exact sq_col _ r 0

/-- The column of labels at `(r, 0)` is the launched label of row `r`. -/
theorem V_main_v0 (c : Dev nD) (r : Fin 8192) :
    V m c main_v0 (ix2 r (0 : Fin 1)) = m ((c.tc : Thread nD τ).loc main_arg1) (ix1 r) := by
  show StableHlo.after (List.flatten [hostOps0 (F := Ideal)]) (fun b => m (c, b)) (Proc.devRef .tc main_v0) (ix2 r (0 : Fin 1)) = _
  rw [pre_v0]
  exact shapeCast_a_a1_apply _ shapeCasts_S8192_S8192x1 r 0

/-- The row of labels at `(0, r)` is the launched label of row `r`. -/
theorem V_main_v5 (c : Dev nD) (r : Fin 8192) :
    V m c main_v5 (ix2 (0 : Fin 1) r) = m ((c.tc : Thread nD τ).loc main_arg1) (ix1 r) := by
  show StableHlo.after (List.flatten [hostOps0 (F := Ideal)]) (fun b => m (c, b)) (Proc.devRef .tc main_v5) (ix2 (0 : Fin 1) r) = _
  rw [pre_v5, rowOf_apply]
  exact shapeCast_a_a1_apply _ shapeCasts_S8192_S8192x1 r 0

end Cert.KernelIdeal.HostValue

end
-- ==== Proof.LibPlainDot.lean ====
/-
  A product of two matrices read at an entry, on the extended reals.

  For dimension numbers that contract the left operand's second axis with the right operand's first (an M×K matrix
  times a K×N matrix, no batch axis), the contraction index has a single coordinate, and entry (r, c) of the product
  is the sum over k : Fin K of left (r, k) · right (k, c). The two forms in which a printed program spells such a
  product — the host's `dot_general`, and a `tpu.matmul` into the zero accumulator — are both that sum: the host's has no
  accumulator, and the zero word added on the left changes nothing.

  The statements take any dimension record `D` together with a proof that it is the plain record; for a printed record
  that proof is `rfl`.
-/
import Idealize.ShloMosaic.PureOps.Ideal.Laws
import Idealize.ShloMosaic.Lib.ValueIdx

noncomputable section

namespace Idealize.ShloMosaic.PlainDot

open Idealize.ShloMosaic Idealize.ShloMosaic.ValueIdx

variable {M K N : Nat}

/-- The left operand is read on its row axis at the entry's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The right operand is read on its column axis at the entry's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The contraction of a plain product, re-indexed by the one contracted coordinate. -/
theorem sum_eq (D : DotDims ⟨2, ![M, K]⟩ ⟨2, ![K, N]⟩ ⟨2, ![M, N]⟩) (hD : D = DotDims.plain M K N)
    (l : (⟨2, ![M, K]⟩ : Shape).Idx → EReal) (r : (⟨2, ![K, N]⟩ : Shape).Idx → EReal) (j : (⟨2, ![M, N]⟩ : Shape).Idx) :
    ∑ q : D.contr.Idx, l (D.lhsIdx j q) * r (D.rhsIdx j q) = ∑ k : Fin K, l (ix2 (j 0) k) * r (ix2 k (j 1)) := by
  subst hD
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx j ((contrEquiv1 (DotDims.plain M K N) K rfl rfl).symm k) = ix2 (j 0) k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx j ((contrEquiv1 (DotDims.plain M K N) K rfl rfl).symm k) = ix2 k (j 1) :=
    funext fun a => Fin.ext (by
      match a with
      | ⟨0, _⟩ => exact ((DotDims.plain M K N).rhsIdx_val_of_single rfl _ _).trans hk
      | ⟨1, _⟩ => exact rhs_col _ _)
  exact congrArg₂ (fun x y => l x * r y) el er

/-- The host's `dot_general` of a plain product at an entry. -/
theorem hostDot_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    Host.dotGeneral D prec l r j = ∑ k : Fin K, l (ix2 (j 0) k) * r (ix2 k (j 1)) := by
  simp only [Host.dotGeneral]
  rw [Ideal.dotGeneral_apply]
  exact sum_eq D hD l r j

/-- A `tpu.matmul` of a plain product into the zero accumulator at an entry. -/
theorem matmul_zero_apply {φ₁ φ₂ : FTy} (D : DotDims ⟨2, ![M, K]⟩ ⟨2, ![K, N]⟩ ⟨2, ![M, N]⟩) (hD : D = DotDims.plain M K N)
    (prec : Option ContractPrecision) (l : FVec Ideal ⟨2, ![M, K]⟩ φ₁) (r : FVec Ideal ⟨2, ![K, N]⟩ φ₂)
    (j : (⟨2, ![M, N]⟩ : Shape).Idx) :
    matmul D prec l r (constant (F := Ideal) ⟨2, ![M, N]⟩ .f32 0x00000000#32) j
      = ∑ k : Fin K, l (ix2 (j 0) k) * r (ix2 k (j 1)) := by
  simp only [matmul]
  rw [Ideal.matmul_constant_zero_apply]
  exact sum_eq D hD l r j

end Idealize.ShloMosaic.PlainDot

end
-- ==== Proof.PayloadAt.lean ====
/-
  The kernel body's arithmetic read at an index.

  One grid point (a, j) of the kernel sees the a-th stretch of 1024 rows and the j-th stretch of 512 columns.
  With the blocks it loads being those stretches of the argument arrays — the row block and the column block of
  the points, their squared norms, their labels — the tile it computes is, entry by entry, the clamped distance
  of the specification; its two masks are the specification's "positive" and "negative" relations (the diagonal
  is found by comparing the global row number 1024·a + p with the global column number 512·j + q as 32-bit words,
  which are equal exactly when the numbers are, both being below 2³²); each of its four lane sums is the sum over
  the stretch's 512 columns of the masked exponential; and the four sums, laid side by side and added to the old
  accumulator, are the accumulator plus the specification's block sums.
-/
import proofs.«175511_j20572893348487_1_alg».proof.Proof.Spec
import proofs.«175511_j20572893348487_1_alg».proof.Proof.Gen.KernelIdeal.Skeleton
import proofs.«175511_j20572893348487_1_alg».proof.Proof.LibPlainDot
import proofs.«175511_j20572893348487_1_alg».proof.Proof.LibKeepdims
import proofs.«175511_j20572893348487_1_alg».proof.Proof.LibDivForms
import Idealize.ShloMosaic.Lib.ValueIdx
import Idealize.ShloMosaic.Lib.ValueLayout
import Idealize.ShloMosaic.Lib.Pipeline.Value

noncomputable section

open scoped BigOperators

namespace Cert.KernelIdeal.PairValue

open Idealize.ShloMosaic Idealize.ShloMosaic.ValueIdx Cert.KernelIdeal Cert.KernelIdeal.Gen Cert.PairLoss

/-! ## The distance tile -/

/-- The product of the row block with the transposed column block, at (p, q): the inner product of row p of the
    one with row q of the other. -/
theorem gram_apply (xr : Vec Ideal S1024x128 .f32) (xc : Vec Ideal S512x128 .f32) (p : Fin 1024) (q : Fin 512) :
    matmul dot_S1024x128_S128x512_S1024x512_1_0_0_1_n_n none
        (truncf .bf16 xr bitsLt_bf16_f32 : FVec Ideal S1024x128 .bf16)
        (transpose S128x512 [1, 0] (truncf .bf16 xc bitsLt_bf16_f32 : FVec Ideal S512x128 .bf16) transposes_S512x128_p1_0_S128x512)
        (constant (F := Ideal) S1024x512 .f32 0x00000000#32) (ix2 p q)
      = ∑ k : Fin 128, xr (ix2 p k) * xc (ix2 q k) := by
  refine (PlainDot.matmul_zero_apply (M := 1024) (K := 128) (N := 512) _ rfl none _ _ (ix2 p q)).trans ?_
  refine Finset.sum_congr rfl fun k _ => ?_
  refine congrArg (fun y => xr (ix2 p k) * y) ?_
  exact transpose_ix2_apply _ _ k q

/-- The distance tile at (p, q), from what the four blocks hold at the coordinates it reads. -/
theorem pay1_apply_of (xr : Vec Ideal S1024x128 .f32) (xc : Vec Ideal S512x128 .f32)
    (sr : Vec Ideal S1024x1 .f32) (sc : Vec Ideal S1x512 .f32) (p : Fin 1024) (q : Fin 512) :
    k0_pay1 xr xc sr sc (ix2 p q)
      = Ideal.sqrt (max (sr (ix2 p (0 : Fin 1)) + sc (ix2 (0 : Fin 1) q)
          - w 0x40000000#32 * ∑ k : Fin 128, xr (ix2 p k) * xc (ix2 q k)) (w 0x2B8CBCCC#32)) := by
  have hg := gram_apply xr xc p q
  have hr : broadcastTo S1024x512 (shapeCast S1024x1 sr shapeCasts_S1024x1_S1024x1) broadcasts_S1024x1_S1024x512 (ix2 p q)
      = sr (ix2 p (0 : Fin 1)) := by
    rw [shapeCast_self]
    exact broadcastTo_a1_ab_apply sr _ p q
  have hc : broadcastTo S1024x512 (shapeCast S1x512 sc shapeCasts_S1x512_S1x512) broadcasts_S1x512_S1024x512 (ix2 p q)
      = sc (ix2 (0 : Fin 1) q) := by
    rw [shapeCast_self]
    exact broadcastTo_1b_ab_apply sc _ p q
  show Ideal.sqrt (max (_ + _ - w 0x40000000#32 * _) (w 0x2B8CBCCC#32)) = _
  rw [hg, hr, hc]

/-! ## The masks -/

/-- The comparison bit of two 32-bit words is the bit of their equality. -/
theorem cmpi_eq_word (u v : BitVec 32) : IntOp.cmpi .eq u v = if u = v then 1#1 else 0#1 := by
  unfold IntOp.cmpi
  by_cases h : u = v
  · subst h; simp
  · rw [if_neg h]
    have hb : (u == v) = false := beq_eq_false_iff_ne.mpr h
    rw [hb]; rfl

/-- The complement of a decided bit is the bit of the negation. -/
theorem xori_ite (P : Prop) [Decidable P] : IntOp.xori (if P then 1#1 else 0#1) 1#1 = if ¬P then 1#1 else 0#1 := by
  by_cases h : P
  · rw [if_pos h, if_neg (not_not.mpr h)]; rfl
  · rw [if_neg h, if_pos h]; rfl

/-- The conjunction of two decided bits is the bit of the conjunction. -/
theorem andi_ite (P Q : Prop) [Decidable P] [Decidable Q] :
    IntOp.andi (if P then 1#1 else 0#1) (if Q then 1#1 else 0#1) = if P ∧ Q then 1#1 else 0#1 := by
  by_cases hP : P <;> by_cases hQ : Q <;> simp [hP, hQ, IntOp.andi]

/-- The same-label mask at (p, q), from the two label blocks at the coordinates it reads. -/
theorem pay2_apply_of (tr : Vec Ideal S1024x1 .i32) (tc : Vec Ideal S1x512 .i32) (p : Fin 1024) (q : Fin 512) :
    k0_pay2 (F := Ideal) tr tc (ix2 p q)
      = if tr (ix2 p (0 : Fin 1)) = tc (ix2 (0 : Fin 1) q) then 1#1 else 0#1 := by
  have hr : broadcastTo S1024x512 (shapeCast S1024x1 tr shapeCasts_S1024x1_S1024x1) broadcasts_S1024x1_S1024x512 (ix2 p q)
      = tr (ix2 p (0 : Fin 1)) := by
    rw [shapeCast_self]
    exact broadcastTo_a1_ab_apply tr _ p q
  have hc : broadcastTo S1024x512 (shapeCast S1x512 tc shapeCasts_S1x512_S1x512) broadcasts_S1x512_S1024x512 (ix2 p q)
      = tc (ix2 (0 : Fin 1) q) := by
    rw [shapeCast_self]
    exact broadcastTo_1b_ab_apply tc _ p q
  show IntOp.cmpi .eq _ _ = _
  rw [hr, hc]
  exact cmpi_eq_word _ _

/-- The global row number as the kernel computes it: the word of 1024·a + p. -/
theorem rowWord (a p : Nat) :
    IntOp.addi (Scalar.muli (BitVec.ofNat 32 a) 1024#32) (BitVec.ofNat 32 p) = BitVec.ofNat 32 (1024 * a + p) := by
  unfold IntOp.addi Scalar.muli IntOp.muli
  apply BitVec.eq_of_toNat_eq
  simp only [BitVec.toNat_add, BitVec.toNat_mul, BitVec.toNat_ofNat]
  omega

/-- The global column number as the kernel computes it: the word of 512·j + q. -/
theorem colWord (j q : Nat) :
    IntOp.addi (Scalar.muli (BitVec.ofNat 32 j) 512#32) (BitVec.ofNat 32 q) = BitVec.ofNat 32 (512 * j + q) := by
  unfold IntOp.addi Scalar.muli IntOp.muli
  apply BitVec.eq_of_toNat_eq
  simp only [BitVec.toNat_add, BitVec.toNat_mul, BitVec.toNat_ofNat]
  omega

/-- The "same label, another point" mask at (p, q), from the grid point and the two label blocks. -/
theorem pay3_apply_of (i : grid0.Coords) (a : Fin 8) (j : Fin 16) (ha : (i 0).val = a.val) (hj : (i 1).val = j.val)
    (tr : Vec Ideal S1024x1 .i32) (tc : Vec Ideal S1x512 .i32) (p : Fin 1024) (q : Fin 512) :
    k0_pay3 (F := Ideal) i tr tc (ix2 p q)
      = if tr (ix2 p (0 : Fin 1)) = tc (ix2 (0 : Fin 1) q) ∧ ¬(1024 * a.val + p.val = 512 * j.val + q.val) then 1#1 else 0#1 := by
  have hrow : broadcastTo S1024x512
        (addi (broadcast S1024x1 (Scalar.muli (BitVec.ofNat 32 (i 0).val) 1024#32)) (iota .tc S1024x1 32 [0] iota_S1024x1_d0_w32))
        broadcasts_S1024x1_S1024x512 (ix2 p q) = BitVec.ofNat 32 (1024 * a.val + p.val) := by
    refine (broadcastTo_a1_ab_apply _ _ p q).trans ?_
    show IntOp.addi (Scalar.muli (BitVec.ofNat 32 (i 0).val) 1024#32) (iota .tc S1024x1 32 [0] iota_S1024x1_d0_w32 (ix2 p (0 : Fin 1))) = _
    rw [iota_single_apply, ha]
    exact rowWord a.val p.val
  have hcol : broadcastTo S1024x512
        (addi (broadcast S1x512 (Scalar.muli (BitVec.ofNat 32 (i 1).val) 512#32)) (iota .tc S1x512 32 [1] iota_S1x512_d1_w32))
        broadcasts_S1x512_S1024x512 (ix2 p q) = BitVec.ofNat 32 (512 * j.val + q.val) := by
    refine (broadcastTo_1b_ab_apply _ _ p q).trans ?_
    show IntOp.addi (Scalar.muli (BitVec.ofNat 32 (i 1).val) 512#32) (iota .tc S1x512 32 [1] iota_S1x512_d1_w32 (ix2 (0 : Fin 1) q)) = _
    rw [iota_single_apply, hj]
    exact colWord j.val q.val
  show IntOp.andi (k0_pay2 (F := Ideal) tr tc (ix2 p q)) (IntOp.xori (IntOp.cmpi .eq _ _) 1#1) = _
  rw [hrow, hcol, pay2_apply_of, Cert.Lib.DivForms.cmpi_eq_ofNat (by omega) (by omega), xori_ite, andi_ite]

section Stretches

variable (x : Fin 8192 → Fin 128 → EReal) (t : Fin 8192 → BitVec 32)

/-- The distance tile at (p, q) is the specification's distance of row p of the a-th stretch and column q of the j-th. -/
theorem pay1_apply (a : Fin 8) (j : Fin 16)
    (xr : Vec Ideal S1024x128 .f32) (xc : Vec Ideal S512x128 .f32) (sr : Vec Ideal S1024x1 .f32) (sc : Vec Ideal S1x512 .f32)
    (hxr : ∀ (p : Fin 1024) (d : Fin 128), xr (ix2 p d) = x (row a p) d)
    (hxc : ∀ (q : Fin 512) (d : Fin 128), xc (ix2 q d) = x (col j q) d)
    (hsr : ∀ p : Fin 1024, sr (ix2 p (0 : Fin 1)) = sq x (row a p))
    (hsc : ∀ q : Fin 512, sc (ix2 (0 : Fin 1) q) = sq x (col j q))
    (p : Fin 1024) (q : Fin 512) :
    k0_pay1 xr xc sr sc (ix2 p q) = Cert.PairLoss.dist x (row a p) (col j q) := by
  rw [pay1_apply_of, hsr, hsc]
  unfold Cert.PairLoss.dist Cert.PairLoss.dot
  refine congrArg (fun s => Ideal.sqrt (max (sq x (row a p) + sq x (col j q) - w 0x40000000#32 * s) (w 0x2B8CBCCC#32))) ?_
  exact Finset.sum_congr rfl fun k _ => by rw [hxr, hxc]

/-- The kernel's "same label, another point" mask is the specification's "positive" relation. -/
theorem pay3_apply (i : grid0.Coords) (a : Fin 8) (j : Fin 16) (ha : (i 0).val = a.val) (hj : (i 1).val = j.val)
    (tr : Vec Ideal S1024x1 .i32) (tc : Vec Ideal S1x512 .i32)
    (htr : ∀ p : Fin 1024, tr (ix2 p (0 : Fin 1)) = t (row a p))
    (htc : ∀ q : Fin 512, tc (ix2 (0 : Fin 1) q) = t (col j q))
    (p : Fin 1024) (q : Fin 512) :
    k0_pay3 (F := Ideal) i tr tc (ix2 p q) = if Pos t (row a p) (col j q) then 1#1 else 0#1 := by
  rw [pay3_apply_of i a j ha hj, htr, htc]
  refine if_congr ?_ rfl rfl
  unfold Pos
  refine and_congr Iff.rfl (not_congr ?_)
  rw [Fin.ext_iff]
  rfl

/-- The complement of the kernel's same-label mask is the specification's "negative" relation. -/
theorem neg_apply (a : Fin 8) (j : Fin 16)
    (tr : Vec Ideal S1024x1 .i32) (tc : Vec Ideal S1x512 .i32)
    (htr : ∀ p : Fin 1024, tr (ix2 p (0 : Fin 1)) = t (row a p))
    (htc : ∀ q : Fin 512, tc (ix2 (0 : Fin 1) q) = t (col j q))
    (p : Fin 1024) (q : Fin 512) :
    IntOp.xori (k0_pay2 (F := Ideal) tr tc (ix2 p q)) 1#1 = if Neg t (row a p) (col j q) then 1#1 else 0#1 := by
  rw [pay2_apply_of, htr, htc, xori_ite]
  rfl

end Stretches

/-! ## The lane sums, side by side -/

/-- A lane sum of a masked tile, kept as a column: at row p it is the sum, over the tile's 512 columns, of the entries
    the mask keeps. -/
theorem laneSum_apply (m : IVec S1024x512 1) (e : FVec Ideal S1024x512 .f32) (p : Fin 1024) (u : Fin 1)
    (Q : Fin 512 → Prop) [DecidablePred Q] (E : Fin 512 → EReal)
    (hm : ∀ q, m (ix2 p q) = if Q q then 1#1 else 0#1) (he : ∀ q, e (ix2 p q) = E q) :
    shapeCast S1024x1
        (multiReduction .add [1] S1024 (select m e (broadcast S1024x512 (Scalar.ofBits (F := Ideal) .f32 0x00000000#32)))
          0x00000000#32 reduces_S1024x512_S1024 (.inl rfl) rfl)
        shapeCasts_S1024_S1024x1 (ix2 p u)
      = ∑ q : Fin 512, if Q q then E q else 0 := by
  refine (shapeCast_a_a1_apply _ _ p u).trans ?_
  refine (multiReduction_add_axis1_apply _ _ _ _ p).trans ?_
  refine Finset.sum_congr rfl fun q _ => ?_
  show Scalar.select (m (ix2 p q)) (e (ix2 p q)) (Ideal.ofBits .f32 0x00000000#32) = _
  rw [hm, he, Cert.Lib.DivForms.select_ite, Ideal.ofBits_zero_f32]

/-- Four columns laid side by side, read at (p, k): the k-th column at row p. -/
theorem concat4_apply (c0 c1 c2 c3 : FVec Ideal S1024x1 .f32) (p : Fin 1024) (k : Fin 4) :
    concatenate S1024x4 1 [⟨S1024x1, c0⟩, ⟨S1024x1, c1⟩, ⟨S1024x1, c2⟩, ⟨S1024x1, c3⟩]
        concatenates_S1024x1_S1024x1_S1024x1_S1024x1_S1024x4_d1 (ix2 p k)
      = (match k with | 0 => c0 | 1 => c1 | 2 => c2 | 3 => c3) (ix2 p (0 : Fin 1)) := by
  have hi : ∀ b : Fin S1024x1.rank, b.cast (rfl : S1024x1.rank = S1024x4.rank) ≠ (1 : Fin S1024x4.rank) →
      ((ix2 p (0 : Fin 1) : S1024x1.Idx) b).val = ((ix2 p k : S1024x4.Idx) (b.cast rfl)).val := fun b hb =>
    match b, hb with
    | ⟨0, _⟩, _ => rfl
    | ⟨1, _⟩, hb => absurd rfl hb
  match k with
  | ⟨0, _⟩ =>
    exact concatenate_apply_piece (1 : Fin S1024x4.rank) _ _ _ 0 (by show (0 : Nat) < 4; decide) S1024x1 c0 rfl rfl 0 rfl (ix2 p (0 : Fin 1)) hi rfl
  | ⟨1, _⟩ =>
    exact concatenate_apply_piece (1 : Fin S1024x4.rank) _ _ _ 1 (by show (1 : Nat) < 4; decide) S1024x1 c1 rfl rfl 1 rfl (ix2 p (0 : Fin 1)) hi rfl
  | ⟨2, _⟩ =>
    exact concatenate_apply_piece (1 : Fin S1024x4.rank) _ _ _ 2 (by show (2 : Nat) < 4; decide) S1024x1 c2 rfl rfl 2 rfl (ix2 p (0 : Fin 1)) hi rfl
  | ⟨3, _⟩ =>
    exact concatenate_apply_piece (1 : Fin S1024x4.rank) _ _ _ 3 (by show (3 : Nat) < 4; decide) S1024x1 c3 rfl rfl 3 rfl (ix2 p (0 : Fin 1)) hi rfl

/-! ## The accumulated block sums -/

/-- The new accumulator at (p, k), from what the distance tile and the two masks hold along row p: the old accumulator
    plus the k-th masked sum of exponentials over the tile's 512 columns. -/
theorem pay5_apply_of (dt : FVec Ideal S1024x512 .f32) (m36 m38 : IVec S1024x512 1) (acc : Vec Ideal S1024x4 .f32)
    (p : Fin 1024) (D : Fin 512 → EReal) (P N : Fin 512 → Prop) [DecidablePred P] [DecidablePred N]
    (hd : ∀ q, dt (ix2 p q) = D q)
    (h38 : ∀ q, m38 (ix2 p q) = if P q then 1#1 else 0#1)
    (h39 : ∀ q, IntOp.xori (m36 (ix2 p q)) 1#1 = if N q then 1#1 else 0#1) (k : Fin 4) :
    k0_pay5 dt m36 m38 (constantI S1024x512 1 1#1) acc (ix2 p k)
      = acc (ix2 p k) + (match k with
          | 0 => ∑ q : Fin 512, if P q then Ideal.exp (w 0x42200000#32 * (w 0x3F800000#32 - D q)) else 0
          | 1 => ∑ q : Fin 512, if N q then Ideal.exp (w 0x42200000#32 * (w 0x3F800000#32 - D q)) else 0
          | 2 => ∑ q : Fin 512, if P q then Ideal.exp (w 0x41A00000#32 * (D q - w 0x3F4CCCCD#32)) else 0
          | 3 => ∑ q : Fin 512, if N q then Ideal.exp (w 0x41A00000#32 * (w 0x3F8CCCCD#32 - D q)) else 0) := by
  have h39' : ∀ q, xori m36 (constantI S1024x512 1 1#1) (ix2 p q) = if N q then 1#1 else 0#1 := h39
  -- the three exponentials along row p
  have e44 : ∀ q, exp (mulf (broadcast S1024x512 (Scalar.ofBits (F := Ideal) .f32 0x42200000#32))
      (subf (broadcast S1024x512 (Scalar.ofBits (F := Ideal) .f32 0x3F800000#32)) dt)) (ix2 p q)
        = Ideal.exp (w 0x42200000#32 * (w 0x3F800000#32 - D q)) := fun q => by
    show Ideal.exp (w 0x42200000#32 * (w 0x3F800000#32 - dt (ix2 p q))) = _
    rw [hd]
  have e57 : ∀ q, exp (mulf (broadcast S1024x512 (Scalar.ofBits (F := Ideal) .f32 0x41A00000#32))
      (subf dt (broadcast S1024x512 (Scalar.ofBits (F := Ideal) .f32 0x3F4CCCCD#32)))) (ix2 p q)
        = Ideal.exp (w 0x41A00000#32 * (D q - w 0x3F4CCCCD#32)) := fun q => by
    show Ideal.exp (w 0x41A00000#32 * (dt (ix2 p q) - w 0x3F4CCCCD#32)) = _
    rw [hd]
  have e66 : ∀ q, exp (mulf (broadcast S1024x512 (Scalar.ofBits (F := Ideal) .f32 0x41A00000#32))
      (subf (broadcast S1024x512 (Scalar.ofBits (F := Ideal) .f32 0x3F8CCCCD#32)) dt)) (ix2 p q)
        = Ideal.exp (w 0x41A00000#32 * (w 0x3F8CCCCD#32 - D q)) := fun q => by
    show Ideal.exp (w 0x41A00000#32 * (w 0x3F8CCCCD#32 - dt (ix2 p q))) = _
    rw [hd]
  -- the four columns at row p
  have c0 := laneSum_apply m38 _ p 0 P _ h38 e44
  have c1 := laneSum_apply (xori m36 (constantI S1024x512 1 1#1)) _ p 0 N _ h39' e44
  have c2 := laneSum_apply m38 _ p 0 P _ h38 e57
  have c3 := laneSum_apply (xori m36 (constantI S1024x512 1 1#1)) _ p 0 N _ h39' e66
  show shapeCast S1024x4 acc shapeCasts_S1024x4_S1024x4 (ix2 p k) + concatenate S1024x4 1 _ _ (ix2 p k) = _
  rw [shapeCast_self, concat4_apply]
  refine congrArg (fun s => acc (ix2 p k) + s) ?_
  match k with
  | ⟨0, _⟩ => exact c0
  | ⟨1, _⟩ => exact c1
  | ⟨2, _⟩ => exact c2
  | ⟨3, _⟩ => exact c3

/-- The block the first column stretch's step stores before accumulating is zero everywhere. -/
theorem pay4_apply (p : Fin 1024) (k : Fin 4) : k0_pay4 (F := Ideal) (ix2 p k) = 0 := by
  show Ideal.ofBits .f32 0x00000000#32 = 0
  exact Ideal.ofBits_zero_f32

section Stretches

variable (x : Fin 8192 → Fin 128 → EReal) (t : Fin 8192 → BitVec 32)

/-- One grid point's step: with the blocks being the a-th stretch of rows and the j-th stretch of columns of the
    argument arrays, the new accumulator at (p, k) is the old one plus the specification's k-th block sum of row p of
    the a-th stretch over the j-th stretch of columns. -/
theorem pay5_apply (i : grid0.Coords) (a : Fin 8) (j : Fin 16) (ha : (i 0).val = a.val) (hj : (i 1).val = j.val)
    (xr : Vec Ideal S1024x128 .f32) (xc : Vec Ideal S512x128 .f32) (sr : Vec Ideal S1024x1 .f32) (sc : Vec Ideal S1x512 .f32)
    (tr : Vec Ideal S1024x1 .i32) (tc : Vec Ideal S1x512 .i32) (acc : Vec Ideal S1024x4 .f32)
    (hxr : ∀ (p : Fin 1024) (d : Fin 128), xr (ix2 p d) = x (row a p) d)
    (hxc : ∀ (q : Fin 512) (d : Fin 128), xc (ix2 q d) = x (col j q) d)
    (hsr : ∀ p : Fin 1024, sr (ix2 p (0 : Fin 1)) = sq x (row a p))
    (hsc : ∀ q : Fin 512, sc (ix2 (0 : Fin 1) q) = sq x (col j q))
    (htr : ∀ p : Fin 1024, tr (ix2 p (0 : Fin 1)) = t (row a p))
    (htc : ∀ q : Fin 512, tc (ix2 (0 : Fin 1) q) = t (col j q))
    (p : Fin 1024) (k : Fin 4) :
    k0_pay5 (k0_pay1 xr xc sr sc) (k0_pay2 (F := Ideal) tr tc) (k0_pay3 (F := Ideal) i tr tc) (constantI S1024x512 1 1#1) acc (ix2 p k)
      = acc (ix2 p k) + blockSum x t k (row a p) j := by
  rw [pay5_apply_of (k0_pay1 xr xc sr sc) (k0_pay2 (F := Ideal) tr tc) (k0_pay3 (F := Ideal) i tr tc) acc p
    (fun q => Cert.PairLoss.dist x (row a p) (col j q)) (fun q => Pos t (row a p) (col j q)) (fun q => Neg t (row a p) (col j q))
    (fun q => pay1_apply x a j xr xc sr sc hxr hxc hsr hsc p q)
    (fun q => pay3_apply t i a j ha hj tr tc htr htc p q)
    (fun q => neg_apply t a j tr tc htr htc p q) k]
  refine congrArg (fun s => acc (ix2 p k) + s) ?_
  unfold blockSum
  match k with
  | ⟨0, _⟩ => rfl
  | ⟨1, _⟩ => rfl
  | ⟨2, _⟩ => rfl
  | ⟨3, _⟩ => rfl

end Stretches

end Cert.KernelIdeal.PairValue

end
-- ==== Proof.KernelIdealAcc.lean ====
/-
  What the kernel's accumulator holds, in closed form.

  The grid's 128 points are walked row block by row block: point 16·a + j works on the a-th stretch of 1024 rows and
  the j-th stretch of 512 columns. At the first column stretch of a row block the output block is reset to zero and the
  stretch's four block sums are added; at every later column stretch the stretch's block sums are added to what the
  point before left. So after point 16·a + j the block holds, at (p, k), the sum over the column stretches 0 … j of the
  k-th block sum of row p of the a-th row stretch (induction on j); after the sixteenth it holds the whole row sum,
  a row sum being the sum of its sixteen stretches.
-/
import proofs.«175511_j20572893348487_1_alg».proof.Proof.PayloadAt
import proofs.«175511_j20572893348487_1_alg».proof.Proof.KernelIdealBody

noncomputable section

open scoped BigOperators

namespace Cert.KernelIdeal.PairValue

open Idealize.ShloMosaic Idealize.ShloMosaic.ValueIdx Cert.KernelIdeal Cert.KernelIdeal.Gen Cert.KernelIdeal.Hand Cert.PairLoss

/-! ## The recursion, over any blocks that are the stretches -/

section Abstract

variable (x : Fin 8192 → Fin 128 → EReal) (t : Fin 8192 → BitVec 32)
  (B0 : Fin cfg0.N → Vec Ideal S1024x128 .f32) (B1 : Fin cfg0.N → Vec Ideal S512x128 .f32)
  (B2 : Fin cfg0.N → Vec Ideal S1024x1 .f32) (B3 : Fin cfg0.N → Vec Ideal S1x512 .f32)
  (B4 : Fin cfg0.N → Vec Ideal S1024x1 .i32) (B5 : Fin cfg0.N → Vec Ideal S1x512 .i32)

/-- One point's step: at point 16·a + j, with the point's six blocks being the a-th row stretch and the j-th column
    stretch of the arrays, the output block gains, at (p, k), the k-th block sum of row p over the j-th stretch. -/
theorem step_point
    (H0 : ∀ (u : Fin cfg0.N) (hu : u.val / 16 < 8) (p : Fin 1024) (d : Fin 128), B0 u (ix2 p d) = x (row ⟨u.val / 16, hu⟩ p) d)
    (H1 : ∀ (u : Fin cfg0.N) (hu : u.val % 16 < 16) (q : Fin 512) (d : Fin 128), B1 u (ix2 q d) = x (col ⟨u.val % 16, hu⟩ q) d)
    (H2 : ∀ (u : Fin cfg0.N) (hu : u.val / 16 < 8) (p : Fin 1024), B2 u (ix2 p (0 : Fin 1)) = sq x (row ⟨u.val / 16, hu⟩ p))
    (H3 : ∀ (u : Fin cfg0.N) (hu : u.val % 16 < 16) (q : Fin 512), B3 u (ix2 (0 : Fin 1) q) = sq x (col ⟨u.val % 16, hu⟩ q))
    (H4 : ∀ (u : Fin cfg0.N) (hu : u.val / 16 < 8) (p : Fin 1024), B4 u (ix2 p (0 : Fin 1)) = t (row ⟨u.val / 16, hu⟩ p))
    (H5 : ∀ (u : Fin cfg0.N) (hu : u.val % 16 < 16) (q : Fin 512), B5 u (ix2 (0 : Fin 1) q) = t (col ⟨u.val % 16, hu⟩ q))
    (a : Fin 8) (j : Fin 16) (h : 16 * a.val + j.val < cfg0.N) (prev : Vec Ideal S1024x4 .f32) (p : Fin 1024) (k : Fin 4) :
    step (grid0.coords ⟨16 * a.val + j.val, h⟩) (B0 ⟨16 * a.val + j.val, h⟩) (B1 ⟨16 * a.val + j.val, h⟩)
        (B2 ⟨16 * a.val + j.val, h⟩) (B3 ⟨16 * a.val + j.val, h⟩) (B4 ⟨16 * a.val + j.val, h⟩) (B5 ⟨16 * a.val + j.val, h⟩)
        prev (ix2 p k)
      = prev (ix2 p k) + blockSum x t k (row a p) j := by
  have hdiv : (16 * a.val + j.val) / 16 = a.val := by omega
  have hmod : (16 * a.val + j.val) % 16 = j.val := by omega
  have hu0 : (16 * a.val + j.val) / 16 < 8 := by omega
  have hu1 : (16 * a.val + j.val) % 16 < 16 := by omega
  have ea : (⟨(16 * a.val + j.val) / 16, hu0⟩ : Fin 8) = a := Fin.ext hdiv
  have ej : (⟨(16 * a.val + j.val) % 16, hu1⟩ : Fin 16) = j := Fin.ext hmod
  have ha : ((grid0.coords ⟨16 * a.val + j.val, h⟩) 0).val = a.val := (coord0_val ⟨16 * a.val + j.val, h⟩).trans hdiv
  have hj : ((grid0.coords ⟨16 * a.val + j.val, h⟩) 1).val = j.val := (coord1_val ⟨16 * a.val + j.val, h⟩).trans hmod
  exact pay5_apply x t (grid0.coords ⟨16 * a.val + j.val, h⟩) a j ha hj _ _ _ _ _ _ prev
    (fun p d => (H0 ⟨16 * a.val + j.val, h⟩ hu0 p d).trans (congrArg (fun z => x (row z p) d) ea))
    (fun q d => (H1 ⟨16 * a.val + j.val, h⟩ hu1 q d).trans (congrArg (fun z => x (col z q) d) ej))
    (fun p => (H2 ⟨16 * a.val + j.val, h⟩ hu0 p).trans (congrArg (fun z => sq x (row z p)) ea))
    (fun q => (H3 ⟨16 * a.val + j.val, h⟩ hu1 q).trans (congrArg (fun z => sq x (col z q)) ej))
    (fun p => (H4 ⟨16 * a.val + j.val, h⟩ hu0 p).trans (congrArg (fun z => t (row z p)) ea))
    (fun q => (H5 ⟨16 * a.val + j.val, h⟩ hu1 q).trans (congrArg (fun z => t (col z q)) ej))
    p k

end Abstract

section Recursion

variable (x : Fin 8192 → Fin 128 → EReal) (t : Fin 8192 → BitVec 32)
  (B0 : Fin cfg0.N → Vec Ideal S1024x128 .f32) (B1 : Fin cfg0.N → Vec Ideal S512x128 .f32)
  (B2 : Fin cfg0.N → Vec Ideal S1024x1 .f32) (B3 : Fin cfg0.N → Vec Ideal S1x512 .f32)
  (B4 : Fin cfg0.N → Vec Ideal S1024x1 .i32) (B5 : Fin cfg0.N → Vec Ideal S1x512 .i32)
  (out : (n : ℕ) → n < cfg0.N → Vec Ideal S1024x4 .f32)

/-- The accumulation in closed form: an output block that is reset to the point's step over the zero block at the
    first of every sixteen points, and is the point's step over what the point before left at the others, holds after
    point 16·a + j the block sums of the column stretches 0 … j. -/
theorem acc_closed
    (hreset : ∀ (n : ℕ) (h : n < cfg0.N), n % 16 = 0 →
      out n h = step (grid0.coords ⟨n, h⟩) (B0 ⟨n, h⟩) (B1 ⟨n, h⟩) (B2 ⟨n, h⟩) (B3 ⟨n, h⟩) (B4 ⟨n, h⟩) (B5 ⟨n, h⟩) (k0_pay4 (F := Ideal)))
    (hacc : ∀ (n : ℕ) (h : n + 1 < cfg0.N), ¬(n + 1) % 16 = 0 →
      out (n + 1) h = step (grid0.coords ⟨n + 1, h⟩) (B0 ⟨n + 1, h⟩) (B1 ⟨n + 1, h⟩) (B2 ⟨n + 1, h⟩) (B3 ⟨n + 1, h⟩)
        (B4 ⟨n + 1, h⟩) (B5 ⟨n + 1, h⟩) (out n (Nat.lt_of_succ_lt h)))
    (H0 : ∀ (u : Fin cfg0.N) (hu : u.val / 16 < 8) (p : Fin 1024) (d : Fin 128), B0 u (ix2 p d) = x (row ⟨u.val / 16, hu⟩ p) d)
    (H1 : ∀ (u : Fin cfg0.N) (hu : u.val % 16 < 16) (q : Fin 512) (d : Fin 128), B1 u (ix2 q d) = x (col ⟨u.val % 16, hu⟩ q) d)
    (H2 : ∀ (u : Fin cfg0.N) (hu : u.val / 16 < 8) (p : Fin 1024), B2 u (ix2 p (0 : Fin 1)) = sq x (row ⟨u.val / 16, hu⟩ p))
    (H3 : ∀ (u : Fin cfg0.N) (hu : u.val % 16 < 16) (q : Fin 512), B3 u (ix2 (0 : Fin 1) q) = sq x (col ⟨u.val % 16, hu⟩ q))
    (H4 : ∀ (u : Fin cfg0.N) (hu : u.val / 16 < 8) (p : Fin 1024), B4 u (ix2 p (0 : Fin 1)) = t (row ⟨u.val / 16, hu⟩ p))
    (H5 : ∀ (u : Fin cfg0.N) (hu : u.val % 16 < 16) (q : Fin 512), B5 u (ix2 (0 : Fin 1) q) = t (col ⟨u.val % 16, hu⟩ q))
    (a : Fin 8) (p : Fin 1024) (k : Fin 4) :
    ∀ (jn : ℕ) (hj : jn < 16) (h : 16 * a.val + jn < cfg0.N),
      out (16 * a.val + jn) h (ix2 p k)
        = ∑ j' ∈ Finset.range (jn + 1), (if hj' : j' < 16 then blockSum x t k (row a p) ⟨j', hj'⟩ else 0) := by
  intro jn
  induction jn with
  | zero =>
    intro hj h
    have h0 : (16 * a.val + 0) % 16 = 0 := by omega
    refine (congrFun (hreset (16 * a.val + 0) h h0) (ix2 p k)).trans ?_
    refine (step_point x t B0 B1 B2 B3 B4 B5 H0 H1 H2 H3 H4 H5 a ⟨0, hj⟩ h (k0_pay4 (F := Ideal)) p k).trans ?_
    rw [pay4_apply, zero_add, Finset.sum_range_one, dif_pos hj]
  | succ jn ih =>
    intro hj h
    have hj' : jn < 16 := Nat.lt_of_succ_lt hj
    have hne : ¬(16 * a.val + jn + 1) % 16 = 0 := by omega
    refine (congrFun (hacc (16 * a.val + jn) h hne) (ix2 p k)).trans ?_
    refine (step_point x t B0 B1 B2 B3 B4 B5 H0 H1 H2 H3 H4 H5 a ⟨jn + 1, hj⟩ h _ p k).trans ?_
    rw [ih hj' (Nat.lt_of_succ_lt h), Finset.sum_range_succ _ (jn + 1), dif_pos hj]

end Recursion

/-- The block sums of all sixteen column stretches make the row sum. -/
theorem sum_range_blocks (x : Fin 8192 → Fin 128 → EReal) (t : Fin 8192 → BitVec 32) (k : Fin 4) (r : Fin 8192) :
    ∑ j' ∈ Finset.range (15 + 1), (if hj' : j' < 16 then blockSum x t k r ⟨j', hj'⟩ else 0) = rowSum x t k r := by
  rw [rowSum_blocks, Finset.sum_range]
  exact Finset.sum_congr rfl fun j _ => dif_pos j.isLt

/-! ## The kernel's accumulator -/

section Kernel

variable (m : (ℓ : Loc nD τ sig) → Buf (Elt Ideal) ℓ) (c : Dev nD)

/-- The six input blocks of a point, each under its literal vector type. -/
abbrev blk0 (u : Fin cfg0.N) : Vec Ideal S1024x128 .f32 := iblk m c 0 u
abbrev blk1 (u : Fin cfg0.N) : Vec Ideal S512x128 .f32 := iblk m c 1 u
abbrev blk2 (u : Fin cfg0.N) : Vec Ideal S1024x1 .f32 := iblk m c 2 u
abbrev blk3 (u : Fin cfg0.N) : Vec Ideal S1x512 .f32 := iblk m c 3 u
abbrev blk4 (u : Fin cfg0.N) : Vec Ideal S1024x1 .i32 := iblk m c 4 u
abbrev blk5 (u : Fin cfg0.N) : Vec Ideal S1x512 .i32 := iblk m c 5 u

variable (x : Fin 8192 → Fin 128 → EReal) (t : Fin 8192 → BitVec 32)

/-- THE ACCUMULATOR'S VALUE. With every point's input blocks being the point's row stretch and column stretch of the
    arrays, the output's staging buffer holds after point 16·a + j, at (p, k), the sum over the column stretches 0 … j
    of the k-th block sum of row p of the a-th row stretch. -/
theorem outAt_apply
    (H0 : ∀ (u : Fin cfg0.N) (hu : u.val / 16 < 8) (p : Fin 1024) (d : Fin 128), blk0 m c u (ix2 p d) = x (row ⟨u.val / 16, hu⟩ p) d)
    (H1 : ∀ (u : Fin cfg0.N) (hu : u.val % 16 < 16) (q : Fin 512) (d : Fin 128), blk1 m c u (ix2 q d) = x (col ⟨u.val % 16, hu⟩ q) d)
    (H2 : ∀ (u : Fin cfg0.N) (hu : u.val / 16 < 8) (p : Fin 1024), blk2 m c u (ix2 p (0 : Fin 1)) = sq x (row ⟨u.val / 16, hu⟩ p))
    (H3 : ∀ (u : Fin cfg0.N) (hu : u.val % 16 < 16) (q : Fin 512), blk3 m c u (ix2 (0 : Fin 1) q) = sq x (col ⟨u.val % 16, hu⟩ q))
    (H4 : ∀ (u : Fin cfg0.N) (hu : u.val / 16 < 8) (p : Fin 1024), blk4 m c u (ix2 p (0 : Fin 1)) = t (row ⟨u.val / 16, hu⟩ p))
    (H5 : ∀ (u : Fin cfg0.N) (hu : u.val % 16 < 16) (q : Fin 512), blk5 m c u (ix2 (0 : Fin 1) q) = t (col ⟨u.val % 16, hu⟩ q))
    (a : Fin 8) (j : Fin 16) (h : 16 * a.val + j.val < cfg0.N) (p : Fin 1024) (k : Fin 4) :
    outAt m c (16 * a.val + j.val) h (ix2 p k)
      = ∑ j' ∈ Finset.range (j.val + 1), (if hj' : j' < 16 then blockSum x t k (row a p) ⟨j', hj'⟩ else 0) :=
  acc_closed x t (blk0 m c) (blk1 m c) (blk2 m c) (blk3 m c) (blk4 m c) (blk5 m c) (outAt m c)
    (fun n h h0 => outAt_reset m c n h h0) (fun n h h0 => outAt_acc m c n h h0)
    H0 H1 H2 H3 H4 H5 a p k j.val j.isLt h

/-- After the last column stretch of a row block the accumulator holds the row sums. -/
theorem outAt_last
    (H0 : ∀ (u : Fin cfg0.N) (hu : u.val / 16 < 8) (p : Fin 1024) (d : Fin 128), blk0 m c u (ix2 p d) = x (row ⟨u.val / 16, hu⟩ p) d)
    (H1 : ∀ (u : Fin cfg0.N) (hu : u.val % 16 < 16) (q : Fin 512) (d : Fin 128), blk1 m c u (ix2 q d) = x (col ⟨u.val % 16, hu⟩ q) d)
    (H2 : ∀ (u : Fin cfg0.N) (hu : u.val / 16 < 8) (p : Fin 1024), blk2 m c u (ix2 p (0 : Fin 1)) = sq x (row ⟨u.val / 16, hu⟩ p))
    (H3 : ∀ (u : Fin cfg0.N) (hu : u.val % 16 < 16) (q : Fin 512), blk3 m c u (ix2 (0 : Fin 1) q) = sq x (col ⟨u.val % 16, hu⟩ q))
    (H4 : ∀ (u : Fin cfg0.N) (hu : u.val / 16 < 8) (p : Fin 1024), blk4 m c u (ix2 p (0 : Fin 1)) = t (row ⟨u.val / 16, hu⟩ p))
    (H5 : ∀ (u : Fin cfg0.N) (hu : u.val % 16 < 16) (q : Fin 512), blk5 m c u (ix2 (0 : Fin 1) q) = t (col ⟨u.val % 16, hu⟩ q))
    (a : Fin 8) (h : 16 * a.val + 15 < cfg0.N) (p : Fin 1024) (k : Fin 4) :
    outAt m c (16 * a.val + 15) h (ix2 p k) = rowSum x t k (row a p) :=
  (outAt_apply m c x t H0 H1 H2 H3 H4 H5 a ⟨15, by omega⟩ h p k).trans (sum_range_blocks x t k (row a p))

end Kernel

end Cert.KernelIdeal.PairValue

end
-- ==== Proof.KernelIdealBlocks.lean ====
/-
  Where the blocks of the pair-loss kernel's windows sit in their arrays.

  The grid's point `t` works on row block `t / 16` (1024 rows) and column block `t % 16` (512 columns). Each input
  window's block at the point is the corresponding stretch of its array as the region finds it: rows
  `1024 · (t / 16) + p` for the row-block windows, rows (or columns) `512 · (t % 16) + q` for the column-block ones. The
  result array is written back block by block, row block `a` after its last point `16 a + 15`; the blocks are disjoint
  and fill the array, so row `1024 a + p` of the result ends holding row `p` of the accumulator after that point.
-/
import proofs.«175511_j20572893348487_1_alg».proof.Proof.KernelIdealBody
import proofs.«175511_j20572893348487_1_alg».proof.Proof.Spec
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat)
open Cert.KernelIdeal Cert.KernelIdeal.Gen
open Cert.PairLoss (row col)

variable {F : FTy → Type} [FloatOps F]
variable (m : (ℓ : Loc nD τ sig) → Buf (Elt F) ℓ)

/-! ## Where each window's block sits, over the grid -/

/-- The block index of every window at every point: the row-block windows (the rows, their norms, their labels, the
    result) sit at the point's row block `t / 16`, the column-block windows at its column block `t % 16` — decided
    over the grid. -/
theorem blk_index : ∀ t : Fin cfg0.N,
    win0_0.index t (0 : Fin 2) = t.val / 16 ∧ win0_0.index t (1 : Fin 2) = 0
    ∧ win0_1.index t (0 : Fin 2) = t.val % 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = t.val % 16
    ∧ win0_4.index t (0 : Fin 2) = t.val / 16 ∧ win0_4.index t (1 : Fin 2) = 0
    ∧ win0_5.index t (0 : Fin 2) = 0 ∧ win0_5.index t (1 : Fin 2) = t.val % 16
    ∧ win0_6.index t (0 : Fin 2) = t.val / 16 ∧ win0_6.index t (1 : Fin 2) = 0 :=
  (by decide +kernel : ∀ t : Fin grid0.N, _)

/-! ## Each input block is a stretch of its array -/

/-- The row-block window's block at a point is the point's stretch of 1024 rows of the argument. -/
theorem iblk0_apply (c : Dev nD) (u : Fin cfg0.N) (hu : u.val / 16 < 8) (p : Fin 1024) (d : Fin 128) :
    (iblk m c 0 u : Vec F S1024x128 .f32) (ix2 p d)
      = (V m c main_arg0 : S8192x128.Idx → Elt F .f32) (ix2 (row ⟨u.val / 16, hu⟩ p) d) := by
  have h : ((cfg0.win 0).blk u).view.emb (ix2 p d) = (ix2 (row ⟨u.val / 16, hu⟩ p) d : S8192x128.Idx) := by
    funext a; apply Fin.ext
    obtain ⟨e0, e1, -, -, -, -, -, -, -, -, -, -, -, -⟩ := blk_index u
    match a with
    | ⟨0, _⟩ => show win0_0.index u (0 : Fin 2) * 1024 + 1 * p.val = 1024 * (u.val / 16) + p.val; rw [e0]; omega
    | ⟨1, _⟩ => show win0_0.index u (1 : Fin 2) * 128 + 1 * d.val = d.val; rw [e1]; omega
  unfold iblk
  rw [View.read_apply]
  show V m c main_arg0 (((cfg0.win 0).blk u).view.emb (ix2 p d)) = _
  rw [h]

/-- The column-block window's block at a point is the point's stretch of 512 rows of the same argument. -/
theorem iblk1_apply (c : Dev nD) (u : Fin cfg0.N) (hu : u.val % 16 < 16) (q : Fin 512) (d : Fin 128) :
    (iblk m c 1 u : Vec F S512x128 .f32) (ix2 q d)
      = (V m c main_arg0 : S8192x128.Idx → Elt F .f32) (ix2 (col ⟨u.val % 16, hu⟩ q) d) := by
  have h : ((cfg0.win 1).blk u).view.emb (ix2 q d) = (ix2 (col ⟨u.val % 16, hu⟩ q) d : S8192x128.Idx) := by
    funext a; apply Fin.ext
    obtain ⟨-, -, e0, e1, -, -, -, -, -, -, -, -, -, -⟩ := blk_index u
    match a with
    | ⟨0, _⟩ => show win0_1.index u (0 : Fin 2) * 512 + 1 * q.val = 512 * (u.val % 16) + q.val; rw [e0]; omega
    | ⟨1, _⟩ => show win0_1.index u (1 : Fin 2) * 128 + 1 * d.val = d.val; rw [e1]; omega
  unfold iblk
  rw [View.read_apply]
  show V m c main_arg0 (((cfg0.win 1).blk u).view.emb (ix2 q d)) = _
  rw [h]

/-- Window 2's block at a point is the point's stretch of 1024 entries of its one-column array. -/
theorem iblk2_apply (c : Dev nD) (u : Fin cfg0.N) (hu : u.val / 16 < 8) (p : Fin 1024) (z : Fin 1) :
    (iblk m c 2 u : Vec F S1024x1 .f32) (ix2 p z)
      = (V m c main_v3 : S8192x1.Idx → Elt F .f32) (ix2 (row ⟨u.val / 16, hu⟩ p) z) := by
  have h : ((cfg0.win 2).blk u).view.emb (ix2 p z) = (ix2 (row ⟨u.val / 16, hu⟩ p) z : S8192x1.Idx) := by
    funext a; apply Fin.ext
    obtain ⟨-, -, -, -, e0, e1, -, -, -, -, -, -, -, -⟩ := blk_index u
    match a with
    | ⟨0, _⟩ => show win0_2.index u (0 : Fin 2) * 1024 + 1 * p.val = 1024 * (u.val / 16) + p.val; rw [e0]; omega
    | ⟨1, _⟩ => show win0_2.index u (1 : Fin 2) * 1 + 1 * z.val = z.val; rw [e1]; omega
  unfold iblk
  rw [View.read_apply]
  show V m c main_v3 (((cfg0.win 2).blk u).view.emb (ix2 p z)) = _
  rw [h]

/-- Window 3's block at a point is the point's stretch of 512 entries of its one-row array. -/
theorem iblk3_apply (c : Dev nD) (u : Fin cfg0.N) (hu : u.val % 16 < 16) (z : Fin 1) (q : Fin 512) :
    (iblk m c 3 u : Vec F S1x512 .f32) (ix2 z q)
      = (V m c main_v4 : S1x8192.Idx → Elt F .f32) (ix2 z (col ⟨u.val % 16, hu⟩ q)) := by
  have h : ((cfg0.win 3).blk u).view.emb (ix2 z q) = (ix2 z (col ⟨u.val % 16, hu⟩ q) : S1x8192.Idx) := by
    funext a; apply Fin.ext
    obtain ⟨-, -, -, -, -, -, e0, e1, -, -, -, -, -, -⟩ := blk_index u
    match a with
    | ⟨0, _⟩ => show win0_3.index u (0 : Fin 2) * 1 + 1 * z.val = z.val; rw [e0]; omega
    | ⟨1, _⟩ => show win0_3.index u (1 : Fin 2) * 512 + 1 * q.val = 512 * (u.val % 16) + q.val; rw [e1]; omega
  unfold iblk
  rw [View.read_apply]
  show V m c main_v4 (((cfg0.win 3).blk u).view.emb (ix2 z q)) = _
  rw [h]

/-- Window 4's block at a point is the point's stretch of 1024 entries of its one-column array. -/
theorem iblk4_apply (c : Dev nD) (u : Fin cfg0.N) (hu : u.val / 16 < 8) (p : Fin 1024) (z : Fin 1) :
    (iblk m c 4 u : Vec F S1024x1 .i32) (ix2 p z)
      = (V m c main_v0 : S8192x1.Idx → Elt F .i32) (ix2 (row ⟨u.val / 16, hu⟩ p) z) := by
  have h : ((cfg0.win 4).blk u).view.emb (ix2 p z) = (ix2 (row ⟨u.val / 16, hu⟩ p) z : S8192x1.Idx) := by
    funext a; apply Fin.ext
    obtain ⟨-, -, -, -, -, -, -, -, e0, e1, -, -, -, -⟩ := blk_index u
    match a with
    | ⟨0, _⟩ => show win0_4.index u (0 : Fin 2) * 1024 + 1 * p.val = 1024 * (u.val / 16) + p.val; rw [e0]; omega
    | ⟨1, _⟩ => show win0_4.index u (1 : Fin 2) * 1 + 1 * z.val = z.val; rw [e1]; omega
  unfold iblk
  rw [View.read_apply]
  show V m c main_v0 (((cfg0.win 4).blk u).view.emb (ix2 p z)) = _
  rw [h]

/-- Window 5's block at a point is the point's stretch of 512 entries of its one-row array. -/
theorem iblk5_apply (c : Dev nD) (u : Fin cfg0.N) (hu : u.val % 16 < 16) (z : Fin 1) (q : Fin 512) :
    (iblk m c 5 u : Vec F S1x512 .i32) (ix2 z q)
      = (V m c main_v5 : S1x8192.Idx → Elt F .i32) (ix2 z (col ⟨u.val % 16, hu⟩ q)) := by
  have h : ((cfg0.win 5).blk u).view.emb (ix2 z q) = (ix2 z (col ⟨u.val % 16, hu⟩ q) : S1x8192.Idx) := by
    funext a; apply Fin.ext
    obtain ⟨-, -, -, -, -, -, -, -, -, -, e0, e1, -, -⟩ := blk_index u
    match a with
    | ⟨0, _⟩ => show win0_5.index u (0 : Fin 2) * 1 + 1 * z.val = z.val; rw [e0]; omega
    | ⟨1, _⟩ => show win0_5.index u (1 : Fin 2) * 512 + 1 * q.val = 512 * (u.val % 16) + q.val; rw [e1]; omega
  unfold iblk
  rw [View.read_apply]
  show V m c main_v5 (((cfg0.win 5).blk u).view.emb (ix2 z q)) = _
  rw [h]

/-! ## The result array from the accumulator at the last point of each row block -/

/-- The accumulator at equal positions and equal indices. -/
theorem outAt_congr (c : Dev nD) {n n' : ℕ} (h : n < cfg0.N) (h' : n' < cfg0.N) (e : n = n') {y y' : S1024x4.Idx} (ey : y = y') :
    outAt m c n h y = outAt m c n' h' y' := by
  subst e; subst ey; rfl

/-- The result array after the run: row `r` holds, in its four columns, what the accumulator of the row's row block
    held after that row block's last point. -/
def resultArr (c : Dev nD) : S8192x4.Idx → Elt F .f32 := fun i =>
  outAt m c (16 * ((i 0).val / 1024) + 15)
    (by have := idx2_lt0 i; rw [show cfg0.N = 128 from N_0]; omega)
    (ix2 (⟨(i 0).val % 1024, Nat.mod_lt _ (by decide)⟩ : Fin 1024) (⟨(i 1).val, idx2_lt1 i⟩ : Fin 4))

/-- An index of the result array is in point `t`'s block iff each coordinate is in the block's range on its axis. -/
theorem mem_blk6 (t : Fin cfg0.N) (i : S8192x4.Idx) :
    i ∈ ((cfg0.win 6).blk t).view.set ↔ ∀ a : Fin 2, win0_6.index t a * S1024x4.size a ≤ (i a).val ∧ (i a).val < win0_6.index t a * S1024x4.size a + S1024x4.size a := by
  show i ∈ ((View.whole main_v6).slice (win0_6.rect t)).set ↔ _
  rw [View.set_slice_whole, Rect.mem_set_unit]
  exact Iff.rfl

/-- What a point that writes back (the last of its row block) writes is its block of `resultArr`. -/
theorem flushed6_eq (c : Dev nD) (t : Fin cfg0.N) (hf : (cfg0.win 6).flush t = true) :
    (dats m 0 c).flushed 6 t = ((cfg0.win 6).blk t).view.read (Elt F) (resultArr m c) := by
  have h15 : t.val % 16 = 15 := (flush0_6 t).mp hf
  obtain ⟨-, -, -, -, -, -, -, -, -, -, -, -, e0, e1⟩ := blk_index t
  show (cfg0.win 6).cut (grid0.coords t) ((dats m 0 c).after 6 t) = _
  rw [after0_6]
  funext y
  rw [View.read_apply]
  show outAt m c t.val t.isLt y = resultArr m c (((cfg0.win 6).blk t).view.emb y)
  have y0 : (y 0).val < 1024 := (y 0).isLt
  have y1 : (y 1).val < 4 := (y 1).isLt
  have c0 : ((((cfg0.win 6).blk t).view.emb y) 0).val = win0_6.index t (0 : Fin 2) * 1024 + 1 * (y 0).val := rfl
  have c1 : ((((cfg0.win 6).blk t).view.emb y) 1).val = win0_6.index t (1 : Fin 2) * 4 + 1 * (y 1).val := rfl
  unfold resultArr
  refine outAt_congr m c _ _ ?_ ?_
  · rw [c0, e0]; omega
  · funext a; apply Fin.ext
    match a with
    | ⟨0, _⟩ => show (y 0).val = ((((cfg0.win 6).blk t).view.emb y) 0).val % 1024; rw [c0, e0]; omega
    | ⟨1, _⟩ => show (y 1).val = ((((cfg0.win 6).blk t).view.emb y) 1).val; rw [c1, e1]; omega

/-- Every row of the result array is in the block of the last point of its row block. -/
theorem covered6 (i : S8192x4.Idx) : ∃ t : Fin cfg0.N, (cfg0.win 6).flush t = true ∧ i ∈ ((cfg0.win 6).blk t).view.set := by
  have i0 : (i 0).val < 8192 := idx2_lt0 i
  have i1 : (i 1).val < 4 := idx2_lt1 i
  have hN : cfg0.N = 128 := N_0
  let t : Fin cfg0.N := ⟨16 * ((i 0).val / 1024) + 15, by rw [hN]; omega⟩
  have tv : t.val = 16 * ((i 0).val / 1024) + 15 := rfl
  obtain ⟨-, -, -, -, -, -, -, -, -, -, -, -, e0, e1⟩ := blk_index t
  refine ⟨t, (flush0_6 t).mpr (by rw [tv]; omega), ?_⟩
  rw [mem_blk6]
  intro a
  match a with
  | ⟨0, _⟩ => show win0_6.index t (0 : Fin 2) * 1024 ≤ (i 0).val ∧ (i 0).val < win0_6.index t (0 : Fin 2) * 1024 + 1024; rw [e0, tv]; omega
  | ⟨1, _⟩ => show win0_6.index t (1 : Fin 2) * 4 ≤ (i 1).val ∧ (i 1).val < win0_6.index t (1 : Fin 2) * 4 + 4; rw [e1]; omega

/-- The result array after the run is `resultArr`. -/
theorem final6 (c : Dev nD) : (dats m 0 c).arrAt 6 cfg0.N = resultArr m c :=
  (dats m 0 c).arrAt_eq_of_cover 6 (resultArr m c) (flushed6_eq m c) covered6

/-- Row `p` of row block `a` of the result array, column `k`: the accumulator after the row block's last point. -/
theorem final6_apply (c : Dev nD) (a : Fin 8) (p : Fin 1024) (k : Fin 4) (h : 16 * a.val + 15 < cfg0.N) :
    ((dats m 0 c).arrAt 6 cfg0.N : S8192x4.Idx → Elt F .f32) (ix2 (row a p) k) = outAt m c (16 * a.val + 15) h (ix2 p k) := by
  rw [final6]
  unfold resultArr
  have ha : a.val < 8 := a.isLt
  have hp : p.val < 1024 := p.isLt
  have r0 : ((ix2 (row a p) k : S8192x4.Idx) 0).val = 1024 * a.val + p.val := rfl
  refine outAt_congr m c _ _ ?_ ?_
  · rw [r0]; omega
  · funext b; apply Fin.ext
    match b with
    | ⟨0, _⟩ => show ((ix2 (row a p) k : S8192x4.Idx) 0).val % 1024 = p.val; rw [r0]; omega
    | ⟨1, _⟩ => rfl

end Cert.KernelIdeal.Hand

end
-- ==== Proof.KernelIdealValue.lean ====
/-
  The value the kernel's program ends with.

  When the region is left its result array holds, at row `r` and column `k`, the `k`-th row sum of row `r`; the
  operations after the region compute the closing step of the loss from the four columns. So the program's
  result is the pair loss of the launched arrays.
-/
import proofs.«175511_j20572893348487_1_alg».proof.Proof.KernelIdealHost
import proofs.«175511_j20572893348487_1_alg».proof.Proof.KernelIdealLaunch
import proofs.«175511_j20572893348487_1_alg».proof.Proof.KernelIdealBody
import proofs.«175511_j20572893348487_1_alg».proof.Proof.KernelIdealAcc
import proofs.«175511_j20572893348487_1_alg».proof.Proof.KernelIdealBlocks

noncomputable section

open scoped BigOperators

namespace Cert.KernelIdeal.HostValue

open Idealize.ShloMosaic Idealize.ShloMosaic.TcCoe Idealize.ShloMosaic.ValueIdx Idealize.ShloMosaic.StableHlo
open Cert.KernelIdeal Cert.KernelIdeal.Gen Cert.KernelIdeal.Hand
open Cert.PairLoss (w tail sq row col rowSum loss)

variable (m : (ℓ : Loc nD τ sig) → Buf (Elt Ideal) ℓ)

/-- Every row is a row of one of the eight stretches of 1024 rows. -/
theorem eq_row (r : Fin 8192) :
    r = row ⟨r.val / 1024, by have := r.isLt; omega⟩ ⟨r.val % 1024, Nat.mod_lt _ (by norm_num)⟩ := by
  apply Fin.ext
  simp only [row]
  omega

/-- When the region is left the result buffer holds what the region wrote. -/
theorem Wexit_main_v6 (c : Dev nD) :
    (Wexit m (dats m) c (Proc.devRef .tc main_v6) : S8192x4.Idx → EReal) = (dats m 0 c).arrAt 6 cfg0.N := by
  unfold Wexit
  rw [dif_pos rfl]
  rfl

/-- If the region leaves the four row sums of every row in its result array, the program ends with the loss. -/
theorem kernel_loss_of (c : Dev nD)
    (hout : ∀ (a : Fin 8) (p : Fin 1024) (k : Fin 4),
      ((dats m 0 c).arrAt 6 cfg0.N : S8192x4.Idx → EReal) (ix2 (row a p) k)
        = rowSum (fun r k => m ((c.tc : Thread nD τ).loc main_arg0) (ix2 r k)) (fun r => m ((c.tc : Thread nD τ).loc main_arg1) (ix1 r)) k
            (row a p)) :
    Wend m (dats m) c (Proc.devRef .tc main_v24)
      = fun _ => loss (fun r k => m ((c.tc : Thread nD τ).loc main_arg0) (ix2 r k)) (fun r => m ((c.tc : Thread nD τ).loc main_arg1) (ix1 r)) := by
  unfold Wend
  rw [tail_value]
  unfold loss
  refine funext fun _ => congrArg tail (funext fun k => funext fun r => ?_)
  rw [Wexit_main_v6, eq_row r]
  exact hout _ _ k

/-- The region leaves, at row `r` and column `k` of its result array, the `k`-th row sum of row `r`: the array's
    stretch of 1024 rows is the accumulator after the last of the stretch's sixteen points, each input block is the
    matching stretch of the arrays the first operations prepared, and those are the squared norms and the labels of
    the launched arrays. -/
theorem rows_out (c : Dev nD) (a : Fin 8) (p : Fin 1024) (k : Fin 4) :
    ((dats m 0 c).arrAt 6 cfg0.N : S8192x4.Idx → EReal) (ix2 (row a p) k)
      = rowSum (fun r k => m ((c.tc : Thread nD τ).loc main_arg0) (ix2 r k)) (fun r => m ((c.tc : Thread nD τ).loc main_arg1) (ix1 r)) k
          (row a p) := by
  have h : 16 * a.val + 15 < cfg0.N := by
    rw [show cfg0.N = 128 from N_0]
    have := a.isLt
    omega
  rw [final6_apply m c a p k h]
  exact Cert.KernelIdeal.PairValue.outAt_last m c
    (fun r k => m ((c.tc : Thread nD τ).loc main_arg0) (ix2 r k)) (fun r => m ((c.tc : Thread nD τ).loc main_arg1) (ix1 r))
    (fun u hu p d => (iblk0_apply m c u hu p d).trans (by rw [V_main_arg0]))
    (fun u hu q d => (iblk1_apply m c u hu q d).trans (by rw [V_main_arg0]))
    (fun u hu p => (iblk2_apply m c u hu p 0).trans (V_main_v3 m c (row ⟨u.val / 16, hu⟩ p)))
    (fun u hu q => (iblk3_apply m c u hu 0 q).trans (V_main_v4 m c (col ⟨u.val % 16, hu⟩ q)))
    (fun u hu p => (iblk4_apply m c u hu p 0).trans (V_main_v0 m c (row ⟨u.val / 16, hu⟩ p)))
    (fun u hu q => (iblk5_apply m c u hu 0 q).trans (V_main_v5 m c (col ⟨u.val % 16, hu⟩ q)))
    a h p k

/-- The kernel's program ends with the pair loss of the launched arrays in its result buffer. -/
theorem kernel_loss (c : Dev nD) :
    Wend m (dats m) c (Proc.devRef .tc main_v24)
      = fun _ => loss (fun r k => m ((c.tc : Thread nD τ).loc main_arg0) (ix2 r k)) (fun r => m ((c.tc : Thread nD τ).loc main_arg1) (ix1 r)) :=
  kernel_loss_of m c (rows_out m c)

end Cert.KernelIdeal.HostValue

end
-- ==== Proof.lean ====
/-
  The pair loss: a Pallas kernel against its jnp reference, on the extended reals.

  For points x_0 … x_8191 in R^128 with labels t, both programs compute
    ( Σ_r (1 − S₀ r / (S₀ r + S₁ r)) · (log (S₂ r) + log (S₃ r)) ) / 8192
  where, with dist r c = √(max (|x_r|² + |x_c|² − 2 x_r·x_c) ε), the four row sums run over all columns c:
  S₀, S₂ over the positives of r (the same label, another point), S₁, S₃ over its negatives (another label), of
  exp (40 (1 − dist)), exp (40 (1 − dist)), exp (20 (dist − 0.8)), exp (20 (1.1 − dist)).

  The reference forms the 8192 × 8192 distance matrix and sums each row at once. The kernel walks a grid of
  8 × 16 tiles of 1024 rows by 512 columns; at each tile it forms the distances from one matrix product of the row
  block with the transposed column block, sums the four masked exponentials along the tile's columns, and adds them
  to an accumulator that is zeroed at the first tile of each row block and written back after the sixteenth. A row
  sum over 8192 columns is the sum of its sixteen stretches of 512 (addition on the extended reals is commutative
  and associative: no finiteness is needed), the maximum is symmetric, the diagonal mask built from tile offsets is
  the diagonal, and the operations after the region are the reference's own last operations: so both results are
  `Cert.PairLoss.loss` of the argument arrays.

  The two kernel programs' frames are the run of @main at the body's proof data (the row block and the column block
  read one array, held by halves); the reference's frame is its generated run with the result dropped; the
  idealization rewrote nothing, so `preserves` is trivial.
-/
import proofs.«175511_j20572893348487_1_alg».proof.Defs
import proofs.«175511_j20572893348487_1_alg».proof.Proof.Gen.Kernel
import proofs.«175511_j20572893348487_1_alg».proof.Proof.Gen.KernelIdeal
import proofs.«175511_j20572893348487_1_alg».proof.Proof.Gen.ReferenceIdeal
import proofs.«175511_j20572893348487_1_alg».proof.Proof.Gen.ReferenceIdeal.Run
import proofs.«175511_j20572893348487_1_alg».proof.Proof.Gen.ReferenceIdeal.Read
import proofs.«175511_j20572893348487_1_alg».proof.Proof.Gen.Pre_finite_inputs
import proofs.«175511_j20572893348487_1_alg».proof.Proof.KernelFrame
import proofs.«175511_j20572893348487_1_alg».proof.Proof.KernelIdealFrame
import proofs.«175511_j20572893348487_1_alg».proof.Proof.RefLoss
import proofs.«175511_j20572893348487_1_alg».proof.Proof.KernelIdealValue
import Idealize.ShloMosaic.Adequacy
import Idealize.ShloMosaic.Init

set_option maxRecDepth 16384

noncomputable section

namespace Cert.Proof

open Idealize.ShloMosaic Idealize.ShloMosaic.TcCoe Idealize.SL.Sem

/-- The three frames. -/
theorem frame_k : Cert.frame_Kernel := fun m ρ _ => Cert.Kernel.Hand.frame (F := Bits) m ρ
theorem frame_ki : Cert.frame_KernelIdeal := fun m ρ _ => Cert.KernelIdeal.Hand.frame (F := Ideal) m ρ
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- The idealized kernel's run with its result named: the loss of the argument arrays. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v24)
          = (fun _ => Cert.PairLoss.loss (fun r k => m ((c.tc : Thread Cert.KernelIdeal.nD Cert.KernelIdeal.τ).loc Cert.KernelIdeal.main_arg0) (ValueIdx.ix2 r k))
              (fun r => m ((c.tc : Thread Cert.KernelIdeal.nD Cert.KernelIdeal.τ).loc Cert.KernelIdeal.main_arg1) (ValueIdx.ix1 r)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) := by
  refine (θ_run (Cert.KernelIdeal.defs (F := Ideal)) _ _).mono (fun r h c => ⟨?_, ?_, ?_⟩) (Cert.KernelIdeal.Hand.run_main (F := Ideal) m ρ)
  · exact ((h c).2 Cert.KernelIdeal.main_v24 (Pipeline.mem_restRefs_of Cert.KernelIdeal.main_v24 (by decide) (by decide))).trans (Cert.KernelIdeal.HostValue.kernel_loss m c)
  · exact ((h c).1 0).trans ((Pipeline.Dat.arrAt_in (Cert.KernelIdeal.Hand.dats m 0 c) 0 rfl Cert.KernelIdeal.cfg0.N).trans
      ((Cert.KernelIdeal.Hand.A_eq m c 0).trans (Cert.KernelIdeal.Hand.V_main_arg0 m c)))
  · exact ((h c).2 Cert.KernelIdeal.main_arg1 (Pipeline.mem_restRefs_of Cert.KernelIdeal.main_arg1 (by decide) (by decide))).trans
      (Cert.KernelIdeal.Hand.Wend_main_arg1 m (Cert.KernelIdeal.Hand.dats m) c)

/-- Both idealized programs, run from memories agreeing on the arguments, end with the loss of the argument arrays. -/
theorem algebraic : Cert.algebraic_KernelIdeal_ReferenceIdeal := by
  intro m ρ m' ρ' _ hagree
  refine ⟨fun c => fun _ => Cert.PairLoss.loss (fun r k => m ((c.tc : Thread Cert.KernelIdeal.nD Cert.KernelIdeal.τ).loc Cert.KernelIdeal.main_arg0) (ValueIdx.ix2 r k))
      (fun r => m ((c.tc : Thread Cert.KernelIdeal.nD Cert.KernelIdeal.τ).loc Cert.KernelIdeal.main_arg1) (ValueIdx.ix1 r)), kernel_run m ρ, ?_⟩
  refine (θ_run Cert.ReferenceIdeal.defs _ _).mono (fun _ h c => ⟨by
      show _ = fun _ => Cert.PairLoss.loss _ _
      rw [(h c).1, Cert.ReferenceIdeal.Read.val_main_v59_eq, Cert.ReferenceIdeal.RefValue.ref_loss, (hagree c).1, (hagree c).2]
      rfl, (h c).2⟩) (Cert.ReferenceIdeal.Value.run (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
